-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x65536x3 : Shape := ⟨3, ![16, 65536, 3]⟩
abbrev S64x12 : Shape := ⟨2, ![64, 12]⟩
abbrev S64 : Shape := ⟨1, ![64]⟩
abbrev S64x64 : Shape := ⟨2, ![64, 64]⟩
abbrev S_ : Shape := ⟨0, ![]⟩

class Facts : Prop where
  bcast_S_S16x65536x3 : S_.BroadcastsInDim S16x65536x3 (![] : Fin 0 → Fin S16x65536x3.rank)
  reducesTo_S16x65536x3_S_d0_1_2 : S16x65536x3.ReducesTo [0, 1, 2] S_
  h_S_ : 0 < S_.numel
  bcast_S_S64x12 : S_.BroadcastsInDim S64x12 (![] : Fin 0 → Fin S64x12.rank)
  reducesTo_S64x12_S_d0_1 : S64x12.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_arg8 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S16x65536x3 .f32) (main_arg1 : FVec F S64x12 .f32) (main_arg2 : FVec F S64 .f32) (main_arg3 : FVec F S64 .f32) (main_arg4 : FVec F S64 .f32) (main_arg5 : FVec F S64x64 .f32) (main_arg6 : FVec F S64 .f32) (main_arg7 : FVec F S64 .f32) (main_arg8 : FVec F S64 .f32) : IVec S_ 1 :=
  let main_v0 : FVec F S16x65536x3 .f32 := Host.absf main_arg0
  let main_cst : FVec F S_ .f32 := constant S_ .f32 0x7F800000#32
  let main_v1 : FVec F S16x65536x3 .f32 := broadcastInDim S16x65536x3 ![] bcast_S_S16x65536x3 main_cst
  let main_v2 : IVec S16x65536x3 1 := cmpf .olt main_v0 main_v1
  let main_c : IVec S_ 1 := constantI S_ 1 1#1
  let main_v3 : IVec S_ 1 := (fun x v => Host.reduce IntOp.andi x v reducesTo_S16x65536x3_S_d0_1_2 h_S_) main_v2 main_c
  let main_v4 : FVec F S64x12 .f32 := Host.absf main_arg1
  let main_cst_0 : FVec F S_ .f32 := constant S_ .f32 0x7F800000#32
  let main_v5 : FVec F S64x12 .f32 := broadcastInDim S64x12 ![] bcast_S_S64x12 main_cst_0
  let main_v6 : IVec S64x12 1 := cmpf .olt main_v4 main_v5
  let main_c_1 : IVec S_ 1 := constantI S_ 1 1#1
  let main_v7 : IVec S_ 1 := (fun x v => Host.reduce IntOp.andi x v reducesTo_S64x12_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_v13 main_v16
-- ==== Kernel.lean ====
abbrev S16x65536x3 : Shape := ⟨3, ![16, 65536, 3]⟩
abbrev S64x12 : Shape := ⟨2, ![64, 12]⟩
abbrev S64 : Shape := ⟨1, ![64]⟩
abbrev S64x64 : Shape := ⟨2, ![64, 64]⟩
abbrev S12x64 : Shape := ⟨2, ![12, 64]⟩
abbrev S16x1x3 : Shape := ⟨3, ![16, 1, 3]⟩
abbrev S16x65535x3 : Shape := ⟨3, ![16, 65535, 3]⟩
abbrev S1x64 : Shape := ⟨2, ![1, 64]⟩
abbrev S1x4096x3 : Shape := ⟨3, ![1, 4096, 3]⟩
abbrev S4096x3 : Shape := ⟨2, ![4096, 3]⟩
abbrev S4096x12 : Shape := ⟨2, ![4096, 12]⟩
abbrev S4096x64 : Shape := ⟨2, ![4096, 64]⟩
abbrev S_ : Shape := ⟨0, ![]⟩
abbrev S16x65536x64 : Shape := ⟨3, ![16, 65536, 64]⟩
abbrev S1x4096x64 : Shape := ⟨3, ![1, 4096, 64]⟩
abbrev S1x8192x64 : Shape := ⟨3, ![1, 8192, 64]⟩
abbrev S8192x64 : Shape := ⟨2, ![8192, 64]⟩

abbrev nBuf : Space → Nat
  | .hbm => 57
  | .vmem => 36
  | .smem => 0
  | _ => 0

abbrev bufTy : (tb : Table) → Fin (tcTables nBuf tb) → BufTy
  | .hbm, ⟨0, _⟩ => ⟨S16x65536x3, .f32⟩
  | .hbm, ⟨1, _⟩ => ⟨S64x12, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S12x64, .f32⟩
  | .hbm, ⟨10, _⟩ => ⟨S64x64, .f32⟩
  | .hbm, ⟨11, _⟩ => ⟨S16x1x3, .f32⟩
  | .hbm, ⟨12, _⟩ => ⟨S16x65535x3, .f32⟩
  | .hbm, ⟨13, _⟩ => ⟨S16x65536x3, .f32⟩
  | .hbm, ⟨14, _⟩ => ⟨S16x65535x3, .f32⟩
  | .hbm, ⟨15, _⟩ => ⟨S16x1x3, .f32⟩
  | .hbm, ⟨16, _⟩ => ⟨S16x65536x3, .f32⟩
  | .hbm, ⟨17, _⟩ => ⟨S1x64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S16x65536x64, .f32⟩
  | .hbm, ⟨37, _⟩ => ⟨S1x64, .f32⟩
  | .hbm, ⟨38, _⟩ => ⟨S1x64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S16x65536x64, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x3, .f32⟩
  | .local _ .vmem, ⟨3, _⟩ => ⟨S1x4096x3, .f32⟩
  | .local _ .vmem, ⟨4, _⟩ => ⟨S1x4096x3, .f32⟩
  | .local _ .vmem, ⟨5, _⟩ => ⟨S1x4096x3, .f32⟩
  | .local _ .vmem, ⟨6, _⟩ => ⟨S12x64, .f32⟩
  | .local _ .vmem, ⟨7, _⟩ => ⟨S64, .f32⟩
  | .local _ .vmem, ⟨8, _⟩ => ⟨S1x64, .f32⟩
  | .local _ .vmem, ⟨9, _⟩ => ⟨S1x64, .f32⟩
  | .local _ .vmem, ⟨10, _⟩ => ⟨S1x4096x3, .f32⟩
  | .local _ .vmem, ⟨11, _⟩ => ⟨S1x4096x3, .f32⟩
  | .local _ .vmem, ⟨12, _⟩ => ⟨S1x4096x3, .f32⟩
  | .local _ .vmem, ⟨13, _⟩ => ⟨S1x4096x3, .f32⟩
  | .local _ .vmem, ⟨14, _⟩ => ⟨S1x4096x3, .f32⟩
  | .local _ .vmem, ⟨15, _⟩ => ⟨S1x4096x3, .f32⟩
  | .local _ .vmem, ⟨16, _⟩ => ⟨S12x64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S1x4096x64, .f32⟩
  | .local _ .vmem, ⟨21, _⟩ => ⟨S1x4096x64, .f32⟩
  | .local _ .vmem, ⟨22, _⟩ => ⟨S1x8192x64, .f32⟩
  | .local _ .vmem, ⟨23, _⟩ => ⟨S1x8192x64, .f32⟩
  | .local _ .vmem, ⟨24, _⟩ => ⟨S64x64, .f32⟩
  | .local _ .vmem, ⟨25, _⟩ => ⟨S64, .f32⟩
  | .local _ .vmem, ⟨26, _⟩ => ⟨S1x64, .f32⟩
  | .local _ .vmem, ⟨27, _⟩ => ⟨S1x64, .f32⟩
  | .local _ .vmem, ⟨28, _⟩ => ⟨S1x8192x64, .f32⟩
  | .local _ .vmem, ⟨29, _⟩ => ⟨S1x8192x64, .f32⟩
  | .local _ .vmem, ⟨30, _⟩ => ⟨S64x64, .f32⟩
  | .local _ .vmem, ⟨31, _⟩ => ⟨S64, .f32⟩
  | .local _ .vmem, ⟨32, _⟩ => ⟨S64, .f32⟩
  | .local _ .vmem, ⟨33, _⟩ => ⟨S64, .f32⟩
  | .local _ .vmem, ⟨34, _⟩ => ⟨S1x8192x64, .f32⟩
  | .local _ .vmem, ⟨35, _⟩ => ⟨S1x8192x64, .f32⟩
  | _, _ => ⟨S16x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_call1_v0 : Ref sig .tc := ⟨.hbm, 14, rfl⟩
abbrev main_call1_v1 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![16, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S12x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x4096x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev grid3 : Pipeline.Grid := ⟨2, ![16, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x8192x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  transposes_S64x12_S12x64_1_0 : S64x12.Transposes [1, 0] S12x64
  transposes_S64x64_S64x64_1_0 : S64x64.Transposes [1, 0] S64x64
  slices_S16x65536x3_S16x1x3_0_65535_0 : S16x65536x3.Slices ![0, 65535, 0] S16x1x3
  slices_S16x65536x3_S16x65535x3_0_0_0 : S16x65536x3.Slices ![0, 0, 0] S16x65535x3
  concatenates_S16x1x3_S16x65535x3_S16x65536x3_d1 : Shape.Concatenates [S16x1x3, S16x65535x3] S16x65536x3 1
  slices_S16x65536x3_S16x65535x3_0_1_0 : S16x65536x3.Slices ![0, 1, 0] S16x65535x3
  slices_S16x65536x3_S16x1x3_0_0_0 : S16x65536x3.Slices ![0, 0, 0] S16x1x3
  concatenates_S16x65535x3_S16x1x3_S16x65536x3_d1 : Shape.Concatenates [S16x65535x3, S16x1x3] S16x65536x3 1
  inb_S1x64_S1x64_0_0 : ∀ a, (![0, 0] : Fin 2 → Nat) a + S1x64.size a ≤ S1x64.size a
  h_S1x64 : 0 < S1x64.numel
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  concatenates_S4096x3_S4096x3_S4096x3_S4096x3_S4096x12_d1 : Shape.Concatenates [S4096x3, S4096x3, S4096x3, S4096x3] S4096x12 1
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  shapeCasts_S12x64_S12x64 : S12x64.ShapeCasts S12x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  shapeCasts_S1x64_S1x64 : S1x64.ShapeCasts S1x64
  reduces_S4096x64_S64 : S4096x64.Reduces [0] S64
  shapeCasts_S1x64_S64 : S1x64.ShapeCasts S64
  bcast_S_S64 : S_.BroadcastsInDim S64 (![] : Fin 0 → Fin S64.rank)
  shapeCasts_S64_S64 : S64.ShapeCasts S64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S8192x64 : S1x64.Broadcasts S8192x64
  reduces_S8192x64_S64 : S8192x64.Reduces [0] S64
  shapeCasts_S8192x64_S1x8192x64 : S8192x64.ShapeCasts S1x8192x64
  dot_S4096x12_S12x64_S4096x64_1_0_0_1_n_n_wf : DotDims.WF S4096x12 S12x64 S4096x64 [1] [0] [0] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x65536x3.size a
  hwx0_0 : ∀ i : grid0.Coords, EltTy.bits .f32 = 32 ∨ (Rect.block (s := S16x65536x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x65536x3.size a
  hwx0_1 : ∀ i : grid0.Coords, EltTy.bits .f32 = 32 ∨ (Rect.block (s := S16x65536x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x3.size a ≤ S16x65536x3.size a
  hwx0_2 : ∀ i : grid0.Coords, EltTy.bits .f32 = 32 ∨ (Rect.block (s := S16x65536x3) S1x4096x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x64.size a ≤ S12x64.size a
  hwx0_3 : ∀ i : grid0.Coords, EltTy.bits .f32 = 32 ∨ (Rect.block (s := S12x64) S12x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x3.size a ≤ S16x65536x3.size a
  hwx1_0 : ∀ i : grid1.Coords, EltTy.bits .f32 = 32 ∨ (Rect.block (s := S16x65536x3) S1x4096x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x3.size a ≤ S16x65536x3.size a
  hwx1_1 : ∀ i : grid1.Coords, EltTy.bits .f32 = 32 ∨ (Rect.block (s := S16x65536x3) S1x4096x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x3.size a ≤ S16x65536x3.size a
  hwx1_2 : ∀ i : grid1.Coords, EltTy.bits .f32 = 32 ∨ (Rect.block (s := S16x65536x3) S1x4096x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S12x64.size a ≤ S12x64.size a
  hwx1_3 : ∀ i : grid1.Coords, EltTy.bits .f32 = 32 ∨ (Rect.block (s := S12x64) S12x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x4096x64.size a ≤ S16x65536x64.size a
  hwx1_7 : ∀ i : grid1.Coords, EltTy.bits .f32 = 32 ∨ (Rect.block (s := S16x65536x64) S1x4096x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8192x64.size a ≤ S16x65536x64.size a
  hwx2_0 : ∀ i : grid2.Coords, EltTy.bits .f32 = 32 ∨ (Rect.block (s := S16x65536x64) S1x8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x8192x64.size a ≤ S16x65536x64.size a
  hwx3_0 : ∀ i : grid3.Coords, EltTy.bits .f32 = 32 ∨ (Rect.block (s := S16x65536x64) S1x8192x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x8192x64.size a ≤ S16x65536x64.size a
  hwx3_5 : ∀ i : grid3.Coords, EltTy.bits .f32 = 32 ∨ (Rect.block (s := S16x65536x64) S1x8192x64.size (cc3_transform_5 i) (hinb3_5 i)).WholeWords (EltTy.packing .f32)

variable [Facts₀]

def dot_S4096x12_S12x64_S4096x64_1_0_0_1_n_n : DotDims S4096x12 S12x64 S4096x64 where
  lhsContracting := [1]
  rhsContracting := [0]
  lhsNonContracting := [0]
  rhsNonContracting := [1]
  lhsBatch := []
  rhsBatch := []
  wf := dot_S4096x12_S12x64_S4096x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S12x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x4096x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x4096x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x4096x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S12x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x4096x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v19) S1x8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20_0) S1x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20_1) S1x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v19) S1x8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S1x8192x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S16x65536x3 : Shape := ⟨3, ![16, 65536, 3]⟩
abbrev S64x12 : Shape := ⟨2, ![64, 12]⟩
abbrev S64 : Shape := ⟨1, ![64]⟩
abbrev S64x64 : Shape := ⟨2, ![64, 64]⟩
abbrev S16x1x3 : Shape := ⟨3, ![16, 1, 3]⟩
abbrev S16x65535x3 : Shape := ⟨3, ![16, 65535, 3]⟩
abbrev S16x65536x12 : Shape := ⟨3, ![16, 65536, 12]⟩
abbrev S16x65536x64 : Shape := ⟨3, ![16, 65536, 64]⟩
abbrev S1x1x64 : Shape := ⟨3, ![1, 1, 64]⟩
abbrev S_ : Shape := ⟨0, ![]⟩

abbrev nBuf : Space → Nat
  | .hbm => 121
  | .vmem => 0
  | .smem => 0
  | _ => 0

abbrev bufTy : (tb : Table) → Fin (tcTables nBuf tb) → BufTy
  | .hbm, ⟨0, _⟩ => ⟨S16x65536x3, .f32⟩
  | .hbm, ⟨1, _⟩ => ⟨S64x12, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S16x1x3, .f32⟩
  | .hbm, ⟨10, _⟩ => ⟨S16x65535x3, .f32⟩
  | .hbm, ⟨11, _⟩ => ⟨S16x65536x3, .f32⟩
  | .hbm, ⟨12, _⟩ => ⟨S16x65535x3, .f32⟩
  | .hbm, ⟨13, _⟩ => ⟨S16x1x3, .f32⟩
  | .hbm, ⟨14, _⟩ => ⟨S16x65536x3, .f32⟩
  | .hbm, ⟨15, _⟩ => ⟨S16x65536x3, .f32⟩
  | .hbm, ⟨16, _⟩ => ⟨S16x65536x3, .f32⟩
  | .hbm, ⟨17, _⟩ => ⟨S16x65536x3, .f32⟩
  | .hbm, ⟨18, _⟩ => ⟨S16x65536x12, .f32⟩
  | .hbm, ⟨19, _⟩ => ⟨S16x65536x64, .f32⟩
  | .hbm, ⟨20, _⟩ => ⟨S1x1x64, .f32⟩
  | .hbm, ⟨21, _⟩ => ⟨S16x65536x64, .f32⟩
  | .hbm, ⟨22, _⟩ => ⟨S16x65536x64, .f32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .i32⟩
  | .hbm, ⟨29, _⟩ => ⟨S_, .f32⟩
  | .hbm, ⟨30, _⟩ => ⟨S64, .f32⟩
  | .hbm, ⟨31, _⟩ => ⟨S1x1x64, .f32⟩
  | .hbm, ⟨32, _⟩ => ⟨S_, .f32⟩
  | .hbm, ⟨33, _⟩ => ⟨S1x1x64, .f32⟩
  | .hbm, ⟨34, _⟩ => ⟨S1x1x64, .f32⟩
  | .hbm, ⟨35, _⟩ => ⟨S16x65536x64, .f32⟩
  | .hbm, ⟨36, _⟩ => ⟨S16x65536x64, .f32⟩
  | .hbm, ⟨37, _⟩ => ⟨S16x65536x64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S1x1x64, .f32⟩
  | .hbm, ⟨52, _⟩ => ⟨S16x65536x64, .f32⟩
  | .hbm, ⟨53, _⟩ => ⟨S16x65536x64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S1x1x64, .f32⟩
  | .hbm, ⟨59, _⟩ => ⟨S16x65536x64, .f32⟩
  | .hbm, ⟨60, _⟩ => ⟨S16x65536x64, .f32⟩
  | .hbm, ⟨61, _⟩ => ⟨S1x1x64, .f32⟩
  | .hbm, ⟨62, _⟩ => ⟨S16x65536x64, .f32⟩
  | .hbm, ⟨63, _⟩ => ⟨S16x65536x64, .f32⟩
  | .hbm, ⟨64, _⟩ => ⟨S1x1x64, .f32⟩
  | .hbm, ⟨65, _⟩ => ⟨S16x65536x64, .f32⟩
  | .hbm, ⟨66, _⟩ => ⟨S16x65536x64, .f32⟩
  | .hbm, ⟨67, _⟩ => ⟨S_, .f32⟩
  | .hbm, ⟨68, _⟩ => ⟨S16x65536x64, .f32⟩
  | .hbm, ⟨69, _⟩ => ⟨S16x65536x64, .f32⟩
  | .hbm, ⟨70, _⟩ => ⟨S16x65536x64, .f32⟩
  | .hbm, ⟨71, _⟩ => ⟨S1x1x64, .f32⟩
  | .hbm, ⟨72, _⟩ => ⟨S16x65536x64, .f32⟩
  | .hbm, ⟨73, _⟩ => ⟨S16x65536x64, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .i32⟩
  | .hbm, ⟨80, _⟩ => ⟨S_, .f32⟩
  | .hbm, ⟨81, _⟩ => ⟨S64, .f32⟩
  | .hbm, ⟨82, _⟩ => ⟨S1x1x64, .f32⟩
  | .hbm, ⟨83, _⟩ => ⟨S_, .f32⟩
  | .hbm, ⟨84, _⟩ => ⟨S1x1x64, .f32⟩
  | .hbm, ⟨85, _⟩ => ⟨S1x1x64, .f32⟩
  | .hbm, ⟨86, _⟩ => ⟨S16x65536x64, .f32⟩
  | .hbm, ⟨87, _⟩ => ⟨S16x65536x64, .f32⟩
  | .hbm, ⟨88, _⟩ => ⟨S16x65536x64, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S1x1x64, .f32⟩
  | .hbm, ⟨103, _⟩ => ⟨S16x65536x64, .f32⟩
  | .hbm, ⟨104, _⟩ => ⟨S16x65536x64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64, .f32⟩
  | .hbm, ⟨109, _⟩ => ⟨S1x1x64, .f32⟩
  | .hbm, ⟨110, _⟩ => ⟨S16x65536x64, .f32⟩
  | .hbm, ⟨111, _⟩ => ⟨S16x65536x64, .f32⟩
  | .hbm, ⟨112, _⟩ => ⟨S1x1x64, .f32⟩
  | .hbm, ⟨113, _⟩ => ⟨S16x65536x64, .f32⟩
  | .hbm, ⟨114, _⟩ => ⟨S16x65536x64, .f32⟩
  | .hbm, ⟨115, _⟩ => ⟨S1x1x64, .f32⟩
  | .hbm, ⟨116, _⟩ => ⟨S16x65536x64, .f32⟩
  | .hbm, ⟨117, _⟩ => ⟨S16x65536x64, .f32⟩
  | .hbm, ⟨118, _⟩ => ⟨S_, .f32⟩
  | .hbm, ⟨119, _⟩ => ⟨S16x65536x64, .f32⟩
  | .hbm, ⟨120, _⟩ => ⟨S16x65536x64, .f32⟩
  | _, _ => ⟨S16x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_call2_cst : Ref sig .tc := ⟨.hbm, 29, rfl⟩
abbrev main_call2_v0 : Ref sig .tc := ⟨.hbm, 30, rfl⟩
abbrev main_call2_v1 : Ref sig .tc := ⟨.hbm, 31, rfl⟩
abbrev main_call2_cst_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_cst_1 : Ref sig .tc := ⟨.hbm, 39, rfl⟩
abbrev main_call2_v8 : Ref sig .tc := ⟨.hbm, 40, rfl⟩
abbrev main_call2_cst_2 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_cst_3 : Ref sig .tc := ⟨.hbm, 45, rfl⟩
abbrev main_call2_v12 : Ref sig .tc := ⟨.hbm, 46, rfl⟩
abbrev main_call2_cst_4 : Ref sig .tc := ⟨.hbm, 47, rfl⟩
abbrev main_call2_call0_v0 : Ref sig .tc := ⟨.hbm, 48, rfl⟩
abbrev main_call2_call0_v1 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_1 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_call3_cst : Ref sig .tc := ⟨.hbm, 67, rfl⟩
abbrev main_call3_v0 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_2 : Ref sig .tc := ⟨.hbm, 74, rfl⟩
abbrev main_v34 : Ref sig .tc := ⟨.hbm, 75, rfl⟩
abbrev main_cst_3 : Ref sig .tc := ⟨.hbm, 76, rfl⟩
abbrev main_v35 : Ref sig .tc := ⟨.hbm, 77, rfl⟩
abbrev main_v36 : Ref sig .tc := ⟨.hbm, 78, rfl⟩
abbrev main_c_4 : Ref sig .tc := ⟨.hbm, 79, rfl⟩
abbrev main_call4_cst : Ref sig .tc := ⟨.hbm, 80, rfl⟩
abbrev main_call4_v0 : Ref sig .tc := ⟨.hbm, 81, rfl⟩
abbrev main_call4_v1 : Ref sig .tc := ⟨.hbm, 82, rfl⟩
abbrev main_call4_cst_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_v6 : Ref sig .tc := ⟨.hbm, 88, rfl⟩
abbrev main_call4_v7 : Ref sig .tc := ⟨.hbm, 89, rfl⟩
abbrev main_call4_cst_1 : Ref sig .tc := ⟨.hbm, 90, rfl⟩
abbrev main_call4_v8 : Ref sig .tc := ⟨.hbm, 91, rfl⟩
abbrev main_call4_cst_2 : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_cst_3 : Ref sig .tc := ⟨.hbm, 96, rfl⟩
abbrev main_call4_v12 : Ref sig .tc := ⟨.hbm, 97, rfl⟩
abbrev main_call4_cst_4 : Ref sig .tc := ⟨.hbm, 98, rfl⟩
abbrev main_call4_call0_v0 : Ref sig .tc := ⟨.hbm, 99, rfl⟩
abbrev main_call4_call0_v1 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_cst_5 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_call5_cst : Ref sig .tc := ⟨.hbm, 118, rfl⟩
abbrev main_call5_v0 : Ref sig .tc := ⟨.hbm, 119, rfl⟩
abbrev main_v53 : Ref sig .tc := ⟨.hbm, 120, rfl⟩

abbrev nD : Nat := 1
abbrev τ : Topo := Topo.v7x

variable {F : FTy → Type} [FloatOps F]

class Facts₀ : Prop where
  slices_S16x65536x3_S16x1x3_0_65535_0 : S16x65536x3.Slices ![0, 65535, 0] S16x1x3
  slices_S16x65536x3_S16x65535x3_0_0_0 : S16x65536x3.Slices ![0, 0, 0] S16x65535x3
  concatenates_S16x1x3_S16x65535x3_S16x65536x3_d1 : Shape.Concatenates [S16x1x3, S16x65535x3] S16x65536x3 1
  slices_S16x65536x3_S16x65535x3_0_1_0 : S16x65536x3.Slices ![0, 1, 0] S16x65535x3
  slices_S16x65536x3_S16x1x3_0_0_0 : S16x65536x3.Slices ![0, 0, 0] S16x1x3
  concatenates_S16x65535x3_S16x1x3_S16x65536x3_d1 : Shape.Concatenates [S16x65535x3, S16x1x3] S16x65536x3 1
  concatenates_S16x65536x3_S16x65536x3_S16x65536x3_S16x65536x3_S16x65536x12_d2 : Shape.Concatenates [S16x65536x3, S16x65536x3, S16x65536x3, S16x65536x3] S16x65536x12 2
  bcast_S64_S1x1x64_2 : S64.BroadcastsInDim S1x1x64 (![2] : Fin 1 → Fin S1x1x64.rank)
  bcast_S1x1x64_S16x65536x64_0_1_2 : S1x1x64.BroadcastsInDim S16x65536x64 (![0, 1, 2] : Fin 3 → Fin S16x65536x64.rank)
  reducesTo_S16x65536x64_S64_d0_1 : S16x65536x64.ReducesTo [0, 1] S64
  h_S_ : 0 < S_.numel
  bcast_S_S64 : S_.BroadcastsInDim S64 (![] : Fin 0 → Fin S64.rank)
  bcast_S_S1x1x64 : S_.BroadcastsInDim S1x1x64 (![] : Fin 0 → Fin S1x1x64.rank)
  bcast_S_S16x65536x64 : S_.BroadcastsInDim S16x65536x64 (![] : Fin 0 → Fin S16x65536x64.rank)
  dot_S16x65536x12_S64x12_S16x65536x64_2_1_01_0_n_n_wf : DotDims.WF S16x65536x12 S64x12 S16x65536x64 [2] [1] [0, 1] [0] [] []
  dot_S16x65536x64_S64x64_S16x65536x64_2_1_01_0_n_n_wf : DotDims.WF S16x65536x64 S64x64 S16x65536x64 [2] [1] [0, 1] [0] [] []

variable [Facts₀]

def dot_S16x65536x12_S64x12_S16x65536x64_2_1_01_0_n_n : DotDims S16x65536x12 S64x12 S16x65536x64 where
  lhsContracting := [2]
  rhsContracting := [1]
  lhsNonContracting := [0, 1]
  rhsNonContracting := [0]
  lhsBatch := []
  rhsBatch := []
  wf := dot_S16x65536x12_S64x12_S16x65536x64_2_1_01_0_n_n_wf
def dot_S16x65536x64_S64x64_S16x65536x64_2_1_01_0_n_n : DotDims S16x65536x64 S64x64 S16x65536x64 where
  lhsContracting := [2]
  rhsContracting := [1]
  lhsNonContracting := [0, 1]
  rhsNonContracting := [0]
  lhsBatch := []
  rhsBatch := []
  wf := dot_S16x65536x64_S64x64_S16x65536x64_2_1_01_0_n_n_wf

class Facts : Prop extends Facts₀ where

variable [Facts]
-- ==== Proof.KRun.lean ====
/-
  The kernel program's run with its result named: every weakly fair execution from a launch memory terminates without
  a fault, the nine argument arrays end as launched, and the result array ends at what the last region leaves in it —
  the contents at the last boundary of the chain "host stretch, region, host stretch, …" that the program is.
-/
import proofs.«120732_j28406913696569_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run : θ_run defs (onTc (τ := τ) (main (F := F))) ⟨m, fun _ => 0, ρ⟩ (fun r => ∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v35 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.KRun

end
-- ==== Proof.Spec.lean ====
/-
  The mathematics both programs compute, index by index, over the extended reals.

  A point (p, n) of a batch of 16 rings of 65536 points carries three coordinates. Its twelve features are the
  point itself, its difference to the previous point of the ring, its difference to the next one, and the difference of
  those two differences. A layer is a pointwise linear map to 64 channels plus a bias (`pre`), a normalisation of
  each channel by its mean and variance over all 16 · 65536 points, an affine map per channel, and a clamp at zero.

  The normalisation is written in two forms. The centred form subtracts the mean, multiplies by the inverse root of
  the centred second moment plus a small constant, then by the gain, and adds the offset. The folded form takes the
  variance as the mean of squares minus the square of the mean, folds gain and inverse root into one scale and the
  mean into one shift, and applies `y * scale + shift`. Over finite reals the two agree
  (`LibBatchNormFold`); here they are only stated.
-/
import Idealize.ShloMosaic.PureOps.Ideal
import Idealize.ShloMosaic.Lib.ValueIdx

noncomputable section

open scoped BigOperators

namespace Cert.BNSpec

open Idealize.ShloMosaic Idealize.ShloMosaic.ValueIdx

/-- The number of points a channel is averaged over, 16 · 65536 = 2^20, as the float both programs divide by. -/
def cnt : EReal := Ideal.ofBits .f32 0x49800000#32
/-- The small constant added to a variance before the inverse root. -/
def eps : EReal := Ideal.ofBits .f32 0x3727C5AC#32

/-- An array of rank 3 read by its coordinates. -/
abbrev cur3 {a b c : Nat} (x : (⟨3, ![a, b, c]⟩ : Shape).Idx → EReal) : Fin a → Fin b → Fin c → EReal :=
  fun p q r => x (ix3 p q r)
/-- An array of rank 2 read by its coordinates. -/
abbrev cur2 {a b : Nat} (x : (⟨2, ![a, b]⟩ : Shape).Idx → EReal) : Fin a → Fin b → EReal :=
  fun p q => x (ix2 p q)
/-- An array of rank 1 read by its coordinate. -/
abbrev cur1 {a : Nat} (x : (⟨1, ![a]⟩ : Shape).Idx → EReal) : Fin a → EReal :=
  fun p => x (ix1 p)

/-- The twelve features of a point from the point (`X`), the previous point of its ring (`Xp`) and the next one
    (`Xn`): feature `f` is built from coordinate `f % 3`, and `f / 3` says which of the four pieces it is. -/
def feat (X Xp Xn : Fin 16 → Fin 65536 → Fin 3 → EReal) : Fin 16 → Fin 65536 → Fin 12 → EReal :=
  fun p n f =>
    let c : Fin 3 := ⟨f.val % 3, Nat.mod_lt _ (by decide)⟩
    if f.val < 3 then X p n c
    else if f.val < 6 then X p n c - Xp p n c
    else if f.val < 9 then X p n c - Xn p n c
    else (X p n c - Xp p n c) - (X p n c - Xn p n c)

/-- A pointwise linear map to 64 channels plus a bias. -/
def pre {K : Nat} (h : Fin 16 → Fin 65536 → Fin K → EReal) (W : Fin 64 → Fin K → EReal) (b : Fin 64 → EReal) :
    Fin 16 → Fin 65536 → Fin 64 → EReal :=
  fun p n o => (∑ k : Fin K, h p n k * W o k) + b o

/-- The sum of a channel over every point. -/
def tot (y : Fin 16 → Fin 65536 → Fin 64 → EReal) (o : Fin 64) : EReal := ∑ p : Fin 16, ∑ n : Fin 65536, y p n o

/-- The mean of a channel. -/
def meanOf (y : Fin 16 → Fin 65536 → Fin 64 → EReal) (o : Fin 64) : EReal := Ideal.div (tot y o) cnt

/-- The variance of a channel as the mean of the squared distances to its mean. -/
def varCentred (y : Fin 16 → Fin 65536 → Fin 64 → EReal) (o : Fin 64) : EReal :=
  Ideal.div (tot (fun p n o => (y p n o - meanOf y o) * (y p n o - meanOf y o)) o) cnt

/-- The variance of a channel as the mean of its squares minus the square of its mean. -/
def varFolded (y : Fin 16 → Fin 65536 → Fin 64 → EReal) (o : Fin 64) : EReal :=
  Ideal.div (tot (fun p n o => y p n o * y p n o) o) cnt - meanOf y o * meanOf y o

/-- Normalise, scale, shift and clamp at zero, in the centred form. -/
def bnCentred (y : Fin 16 → Fin 65536 → Fin 64 → EReal) (g β : Fin 64 → EReal) : Fin 16 → Fin 65536 → Fin 64 → EReal :=
  fun p n o => max (((y p n o - meanOf y o) * Ideal.rsqrt (varCentred y o + eps)) * g o + β o) 0

/-- The folded scale of a channel: gain times inverse root. -/
def scaleOf (y : Fin 16 → Fin 65536 → Fin 64 → EReal) (g : Fin 64 → EReal) (o : Fin 64) : EReal :=
  g o * Ideal.rsqrt (varFolded y o + eps)

/-- The folded shift of a channel: offset minus mean times scale. -/
def shiftOf (y : Fin 16 → Fin 65536 → Fin 64 → EReal) (g β : Fin 64 → EReal) (o : Fin 64) : EReal :=
  β o - meanOf y o * scaleOf y g o

/-- Normalise, scale, shift and clamp at zero, in the folded form. -/
def bnFolded (y : Fin 16 → Fin 65536 → Fin 64 → EReal) (g β : Fin 64 → EReal) : Fin 16 → Fin 65536 → Fin 64 → EReal :=
  fun p n o => max (y p n o * scaleOf y g o + shiftOf y g β o) 0

/-- Two layers over the twelve features, every normalisation in the centred form. -/
def outCentred (X Xp Xn : Fin 16 → Fin 65536 → Fin 3 → EReal) (W1 : Fin 64 → Fin 12 → EReal) (b1 g1 β1 : Fin 64 → EReal)
    (W2 : Fin 64 → Fin 64 → EReal) (b2 g2 β2 : Fin 64 → EReal) : Fin 16 → Fin 65536 → Fin 64 → EReal :=
  bnCentred (pre (bnCentred (pre (feat X Xp Xn) W1 b1) g1 β1) W2 b2) g2 β2

/-- Two layers over the twelve features, every normalisation in the folded form. -/
def outFolded (X Xp Xn : Fin 16 → Fin 65536 → Fin 3 → EReal) (W1 : Fin 64 → Fin 12 → EReal) (b1 g1 β1 : Fin 64 → EReal)
    (W2 : Fin 64 → Fin 64 → EReal) (b2 g2 β2 : Fin 64 → EReal) : Fin 16 → Fin 65536 → Fin 64 → EReal :=
  bnFolded (pre (bnFolded (pre (feat X Xp Xn) W1 b1) g1 β1) W2 b2) g2 β2

end Cert.BNSpec

end
-- ==== Proof.KPay.lean ====
/-
  The arithmetic of the four kernel bodies, read at one element of a block.

  A block of the first layer holds 4096 points of one ring; the body builds each point's twelve features from the
  point, its predecessor and its successor (three loaded blocks), multiplies the [4096, 12] feature block by the
  [12, 64] weight block and adds the bias row: entry (r, o) is the sum over the twelve features of point r times
  column o of the weights, plus bias o. A block of the second layer holds 8192 points with 64 channels each and is
  multiplied by a [64, 64] weight block in the same way. Changing the float format before the product is the identity
  on extended reals, and a product accumulated into zero is the plain sum.
-/
import proofs.«120732_j28406913696569_2_alg».proof.Proof.Gen.KernelIdeal.Skeleton
import proofs.«120732_j28406913696569_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KPay

open Idealize.ShloMosaic Idealize.ShloMosaic.ValueIdx Cert.KernelIdeal Cert.KernelIdeal.Gen

/-- The twelve features of ONE point from its three coordinates, its predecessor's and its successor's. -/
def featPt (x xp xn : Fin 3 → EReal) (f : Fin 12) : EReal :=
  if f.val < 3 then x ⟨f.val % 3, Nat.mod_lt _ (by decide)⟩
  else if f.val < 6 then x ⟨f.val % 3, Nat.mod_lt _ (by decide)⟩ - xp ⟨f.val % 3, Nat.mod_lt _ (by decide)⟩
  else if f.val < 9 then x ⟨f.val % 3, Nat.mod_lt _ (by decide)⟩ - xn ⟨f.val % 3, Nat.mod_lt _ (by decide)⟩
  else (x ⟨f.val % 3, Nat.mod_lt _ (by decide)⟩ - xp ⟨f.val % 3, Nat.mod_lt _ (by decide)⟩)
        - (x ⟨f.val % 3, Nat.mod_lt _ (by decide)⟩ - xn ⟨f.val % 3, Nat.mod_lt _ (by decide)⟩)

/-- The specification's features are the point features at every point. -/
theorem feat_eq (X Xp Xn : Fin 16 → Fin 65536 → Fin 3 → EReal) (p : Fin 16) (n : Fin 65536) (f : Fin 12) :
    Cert.BNSpec.feat X Xp Xn p n f = featPt (X p n) (Xp p n) (Xn p n) f := rfl

/-- Four [4096, 3] pieces side by side: column `f` of the result is column `f % 3` of piece `f / 3`. -/
theorem concat4_apply (a b c d : (⟨2, ![4096, 3]⟩ : Shape).Idx → EReal)
    (h : Shape.Concatenates [(⟨2, ![4096, 3]⟩ : Shape), ⟨2, ![4096, 3]⟩, ⟨2, ![4096, 3]⟩, ⟨2, ![4096, 3]⟩] ⟨2, ![4096, 12]⟩ 1)
    (r : Fin 4096) (f : Fin 12) :
    concatenate (⟨2, ![4096, 12]⟩ : Shape) 1 [⟨⟨2, ![4096, 3]⟩, a⟩, ⟨⟨2, ![4096, 3]⟩, b⟩, ⟨⟨2, ![4096, 3]⟩, c⟩, ⟨⟨2, ![4096, 3]⟩, d⟩] h (ix2 r f)
      = if f.val < 3 then a (ix2 r ⟨f.val % 3, Nat.mod_lt _ (by decide)⟩)
        else if f.val < 6 then b (ix2 r ⟨f.val % 3, Nat.mod_lt _ (by decide)⟩)
        else if f.val < 9 then c (ix2 r ⟨f.val % 3, Nat.mod_lt _ (by decide)⟩)
        else d (ix2 r ⟨f.val % 3, Nat.mod_lt _ (by decide)⟩) := by
  have hf : f.val < 12 := f.isLt
  have key : ∀ (k : Nat) (hk : k < 4) (x₁ : (⟨2, ![4096, 3]⟩ : Shape).Idx → EReal)
      (hx : ([⟨⟨2, ![4096, 3]⟩, a⟩, ⟨⟨2, ![4096, 3]⟩, b⟩, ⟨⟨2, ![4096, 3]⟩, c⟩, ⟨⟨2, ![4096, 3]⟩, d⟩] :
        List ((s : Shape) × (s.Idx → EReal)))[k]'hk = ⟨⟨2, ![4096, 3]⟩, x₁⟩)
      (hpre : 3 * k + f.val % 3 = f.val),
      concatenate (⟨2, ![4096, 12]⟩ : Shape) 1 [⟨⟨2, ![4096, 3]⟩, a⟩, ⟨⟨2, ![4096, 3]⟩, b⟩, ⟨⟨2, ![4096, 3]⟩, c⟩, ⟨⟨2, ![4096, 3]⟩, d⟩] h (ix2 r f)
        = x₁ (ix2 r ⟨f.val % 3, Nat.mod_lt _ (by decide)⟩) := by
    intro k hk x₁ hx hpre
    refine concatenate_apply_piece (t := ⟨2, ![4096, 12]⟩) 1
      ([⟨⟨2, ![4096, 3]⟩, a⟩, ⟨⟨2, ![4096, 3]⟩, b⟩, ⟨⟨2, ![4096, 3]⟩, c⟩, ⟨⟨2, ![4096, 3]⟩, d⟩] : List ((s : Shape) × (s.Idx → EReal)))
      h (ix2 r f) k hk ⟨2, ![4096, 3]⟩ x₁ hx rfl (3 * k) ?_
      (ix2 r ⟨f.val % 3, Nat.mod_lt _ (by decide)⟩) ?_ hpre
    · match k, hk with
      | 0, _ => rfl
      | 1, _ => rfl
      | 2, _ => rfl
      | 3, _ => rfl
    · intro ax hax
      match ax with
      | ⟨0, _⟩ => rfl
      | ⟨1, _⟩ => exact absurd rfl hax
  by_cases h3 : f.val < 3
  · rw [if_pos h3]; exact key 0 (by decide) a rfl (by omega)
  · rw [if_neg h3]
    by_cases h6 : f.val < 6
    · rw [if_pos h6]; exact key 1 (by decide) b rfl (by omega)
    · rw [if_neg h6]
      by_cases h9 : f.val < 9
      · rw [if_pos h9]; exact key 2 (by decide) c rfl (by omega)
      · rw [if_neg h9]; exact key 3 (by decide) d rfl (by omega)

/-- The first layer's product into zero at an entry: the sum over the twelve features. -/
theorem matmul12_apply (L : FVec Ideal S4096x12 .bf16) (R : FVec Ideal S12x64 .bf16) (r : Fin 4096) (o : Fin 64) :
    matmul dot_S4096x12_S12x64_S4096x64_1_0_0_1_n_n none L R (constant S4096x64 .f32 0x00000000#32) (ix2 r o)
      = ∑ k : Fin 12, L (ix2 r k) * R (ix2 k o) := by
  refine (Ideal.matmul_constant_zero_apply dot_S4096x12_S12x64_S4096x64_1_0_0_1_n_n none L R (ix2 r o)).trans ?_
  refine (Equiv.sum_comp (contrEquiv1 dot_S4096x12_S12x64_S4096x64_1_0_0_1_n_n 12 rfl rfl).symm _).symm.trans ?_
  refine Finset.sum_congr rfl fun k _ => ?_
  have hl : dot_S4096x12_S12x64_S4096x64_1_0_0_1_n_n.lhsIdx (ix2 r o) ((contrEquiv1 dot_S4096x12_S12x64_S4096x64_1_0_0_1_n_n 12 rfl rfl).symm k) = ix2 r k := by
    funext ax; apply Fin.ext
    match ax with
    | ⟨0, _⟩ => rfl
    | ⟨1, _⟩ =>
      exact (DotDims.lhsIdx_val_of_single (d := dot_S4096x12_S12x64_S4096x64_1_0_0_1_n_n) (cl := 1) rfl (ix2 r o) _).trans
        (contrEquiv1_symm_val dot_S4096x12_S12x64_S4096x64_1_0_0_1_n_n 12 rfl rfl k)
  have hr : dot_S4096x12_S12x64_S4096x64_1_0_0_1_n_n.rhsIdx (ix2 r o) ((contrEquiv1 dot_S4096x12_S12x64_S4096x64_1_0_0_1_n_n 12 rfl rfl).symm k) = ix2 k o := by
    funext ax; apply Fin.ext
    match ax with
    | ⟨0, _⟩ =>
      exact (DotDims.rhsIdx_val_of_single (d := dot_S4096x12_S12x64_S4096x64_1_0_0_1_n_n) (cr := 0) rfl (ix2 r o) _).trans
        (contrEquiv1_symm_val dot_S4096x12_S12x64_S4096x64_1_0_0_1_n_n 12 rfl rfl k)
    | ⟨1, _⟩ => rfl
  rw [hl, hr]

/-- The second layer's product into zero at an entry: the sum over the 64 input channels. -/
theorem matmul64_apply (L : FVec Ideal S8192x64 .bf16) (R : FVec Ideal S64x64 .bf16) (r : Fin 8192) (o : Fin 64) :
    matmul dot_S8192x64_S64x64_S8192x64_1_0_0_1_n_n none L R (constant S8192x64 .f32 0x00000000#32) (ix2 r o)
      = ∑ k : Fin 64, L (ix2 r k) * R (ix2 k o) := by
  refine (Ideal.matmul_constant_zero_apply dot_S8192x64_S64x64_S8192x64_1_0_0_1_n_n none L R (ix2 r o)).trans ?_
  refine (Equiv.sum_comp (contrEquiv1 dot_S8192x64_S64x64_S8192x64_1_0_0_1_n_n 64 rfl rfl).symm _).symm.trans ?_
  refine Finset.sum_congr rfl fun k _ => ?_
  have hl : dot_S8192x64_S64x64_S8192x64_1_0_0_1_n_n.lhsIdx (ix2 r o) ((contrEquiv1 dot_S8192x64_S64x64_S8192x64_1_0_0_1_n_n 64 rfl rfl).symm k) = ix2 r k := by
    funext ax; apply Fin.ext
    match ax with
    | ⟨0, _⟩ => rfl
    | ⟨1, _⟩ =>
      exact (DotDims.lhsIdx_val_of_single (d := dot_S8192x64_S64x64_S8192x64_1_0_0_1_n_n) (cl := 1) rfl (ix2 r o) _).trans
        (contrEquiv1_symm_val dot_S8192x64_S64x64_S8192x64_1_0_0_1_n_n 64 rfl rfl k)
  have hr : dot_S8192x64_S64x64_S8192x64_1_0_0_1_n_n.rhsIdx (ix2 r o) ((contrEquiv1 dot_S8192x64_S64x64_S8192x64_1_0_0_1_n_n 64 rfl rfl).symm k) = ix2 k o := by
    funext ax; apply Fin.ext
    match ax with
    | ⟨0, _⟩ =>
      exact (DotDims.rhsIdx_val_of_single (d := dot_S8192x64_S64x64_S8192x64_1_0_0_1_n_n) (cr := 0) rfl (ix2 r o) _).trans
        (contrEquiv1_symm_val dot_S8192x64_S64x64_S8192x64_1_0_0_1_n_n 64 rfl rfl k)
    | ⟨1, _⟩ => rfl
  rw [hl, hr]

end Cert.KernelIdeal.KPay

end
-- ==== Proof.KPay1.lean ====
/-
  The four bodies' stored values at one entry, over the block arithmetic of the sibling module.

  The first layer's pre-activation at row r, channel o of a block is the sum over the twelve features of the row
  times column o of the weights, plus the bias; the second layer's is the sum over its 64 input channels. The
  apply bodies store max(pre-activation * scale + shift, 0) with one scale and one shift per channel. The statistics
  bodies add to a running row the sum over the block's rows of the pre-activation, and of its square.
-/
import proofs.«120732_j28406913696569_2_alg».proof.Proof.KPay

noncomputable section

open scoped BigOperators

namespace Cert.KernelIdeal.KPay

open Idealize.ShloMosaic Idealize.ShloMosaic.ValueIdx Cert.KernelIdeal Cert.KernelIdeal.Gen

/-- A per-channel vector, given a unit axis and repeated over 4096 rows, reads its channel. -/
theorem row4096_apply (v : FVec Ideal S64 .f32) (h1 : S64.ShapeCasts S1x64) (h2 : S1x64.Broadcasts S4096x64)
    (r : Fin 4096) (o : Fin 64) : broadcastTo S4096x64 (shapeCast S1x64 v h1) h2 (ix2 r o) = v (ix1 o) :=
  (broadcastTo_1b_ab_apply _ h2 r o).trans (shapeCast_a_1a_apply v h1 0 o)

/-- The same over 8192 rows. -/
theorem row8192_apply (v : FVec Ideal S64 .f32) (h1 : S64.ShapeCasts S1x64) (h2 : S1x64.Broadcasts S8192x64)
    (r : Fin 8192) (o : Fin 64) : broadcastTo S8192x64 (shapeCast S1x64 v h1) h2 (ix2 r o) = v (ix1 o) :=
  (broadcastTo_1b_ab_apply _ h2 r o).trans (shapeCast_a_1a_apply v h1 0 o)

/-- The first layer's pre-activation of a block at row `r`, channel `o`. -/
theorem y1_apply (v5 v7 v9 : Vec Ideal S1x4096x3 .f32) (v16 : Vec Ideal S12x64 .f32) (v20 : Vec Ideal S64 .f32)
    (r : Fin 4096) (o : Fin 64) :
    k0_pay4 v5 v7 v9 v16 v20 (ix2 r o)
      = (∑ k : Fin 12, featPt (fun c => v5 (ix3 (0 : Fin 1) r c)) (fun c => v7 (ix3 (0 : Fin 1) r c))
            (fun c => v9 (ix3 (0 : Fin 1) r c)) k * v16 (ix2 k o)) + v20 (ix1 o) := by
  unfold k0_pay4
  refine (addf_apply _ _ _).trans (congrArg₂ (· + ·) ?_ (row4096_apply v20 _ _ r o))
  refine (matmul12_apply _ _ r o).trans (Finset.sum_congr rfl fun k _ => congrArg₂ (· * ·) ?_ ?_)
  · refine (truncf_apply (ψ := .bf16) _ bitsLt_bf16_f32 _).trans ?_
    refine (concat4_apply _ _ _ _ concatenates_S4096x3_S4096x3_S4096x3_S4096x3_S4096x12_d1 r k).trans ?_
    unfold featPt
    have e5 : ∀ c : Fin 3, shapeCast S4096x3 v5 shapeCasts_S1x4096x3_S4096x3 (ix2 r c) = v5 (ix3 (0 : Fin 1) r c) :=
      fun c => shapeCast_1ab_ab_apply v5 _ r c
    have e7 : ∀ c : Fin 3, shapeCast S4096x3 v7 shapeCasts_S1x4096x3_S4096x3 (ix2 r c) = v7 (ix3 (0 : Fin 1) r c) :=
      fun c => shapeCast_1ab_ab_apply v7 _ r c
    have e9 : ∀ c : Fin 3, shapeCast S4096x3 v9 shapeCasts_S1x4096x3_S4096x3 (ix2 r c) = v9 (ix3 (0 : Fin 1) r c) :=
      fun c => shapeCast_1ab_ab_apply v9 _ r c
    refine if_congr Iff.rfl (e5 _) (if_congr Iff.rfl ?_ (if_congr Iff.rfl ?_ ?_))
    · exact (subf_apply _ _ _).trans (congrArg₂ (· - ·) (e5 _) (e7 _))
    · exact (subf_apply _ _ _).trans (congrArg₂ (· - ·) (e5 _) (e9 _))
    · exact (subf_apply _ _ _).trans (congrArg₂ (· - ·)
        ((subf_apply _ _ _).trans (congrArg₂ (· - ·) (e5 _) (e7 _)))
        ((subf_apply _ _ _).trans (congrArg₂ (· - ·) (e5 _) (e9 _))))
  · exact (truncf_apply (ψ := .bf16) _ bitsLt_bf16_f32 _).trans (congrFun (shapeCast_self v16 _) (ix2 k o))

/-- The second layer's pre-activation of a block at row `r`, channel `o`. -/
theorem y2_apply (v5 : Vec Ideal S1x8192x64 .f32) (v8 : Vec Ideal S64x64 .f32) (v12 : Vec Ideal S64 .f32)
    (r : Fin 8192) (o : Fin 64) :
    k2_pay3 v5 v8 v12 (ix2 r o) = (∑ k : Fin 64, v5 (ix3 (0 : Fin 1) r k) * v8 (ix2 k o)) + v12 (ix1 o) := by
  unfold k2_pay3
  refine (addf_apply _ _ _).trans (congrArg₂ (· + ·) ?_ (row8192_apply v12 _ _ r o))
  refine (matmul64_apply _ _ r o).trans (Finset.sum_congr rfl fun k _ => congrArg₂ (· * ·) ?_ ?_)
  · exact (truncf_apply (ψ := .bf16) _ bitsLt_bf16_f32 _).trans (shapeCast_1ab_ab_apply v5 _ r k)
  · exact (truncf_apply (ψ := .bf16) _ bitsLt_bf16_f32 _).trans (congrFun (shapeCast_self v8 _) (ix2 k o))

/-- The clamp's zero. -/
theorem zero_f32 : (Scalar.ofBits .f32 0x00000000#32 : Ideal .f32) = (0 : EReal) := Ideal.ofBits_zero_f32

/-- What the first apply body stores at row `r`, channel `o`. -/
theorem store1_apply (v0 v2 v4 : Vec Ideal S1x4096x3 .f32) (v11 : Vec Ideal S12x64 .f32) (v15 v19 v24 : Vec Ideal S64 .f32)
    (r : Fin 4096) (o : Fin 64) :
    k1_pay1 v0 v2 v4 v11 v15 v19 v24 (ix3 (0 : Fin 1) r o)
      = max (k0_pay4 v0 v2 v4 v11 v15 (ix2 r o) * v19 (ix1 o) + v24 (ix1 o)) 0 := by
  unfold k1_pay1
  refine (shapeCast_ab_1ab_apply _ _ 0 r o).trans ?_
  refine (maximumf_apply _ _ _).trans (congrArg₂ max ?_ zero_f32)
  refine (addf_apply _ _ _).trans (congrArg₂ (· + ·) ((mulf_apply _ _ _).trans (congrArg₂ (· * ·) rfl ?_)) ?_)
  · exact (row4096_apply _ _ _ r o).trans (congrFun (shapeCast_self v19 _) (ix1 o))
  · exact (row4096_apply _ _ _ r o).trans (congrFun (shapeCast_self v24 _) (ix1 o))

/-- What the second apply body stores at row `r`, channel `o`. -/
theorem store3_apply (v0 : Vec Ideal S1x8192x64 .f32) (v3 : Vec Ideal S64x64 .f32) (v7 v11 v16 : Vec Ideal S64 .f32)
    (r : Fin 8192) (o : Fin 64) :
    k3_pay1 v0 v3 v7 v11 v16 (ix3 (0 : Fin 1) r o)
      = max (k2_pay3 v0 v3 v7 (ix2 r o) * v11 (ix1 o) + v16 (ix1 o)) 0 := by
  unfold k3_pay1
  refine (shapeCast_ab_1ab_apply _ _ 0 r o).trans ?_
  refine (maximumf_apply _ _ _).trans (congrArg₂ max ?_ zero_f32)
  refine (addf_apply _ _ _).trans (congrArg₂ (· + ·) ((mulf_apply _ _ _).trans (congrArg₂ (· * ·) rfl ?_)) ?_)
  · exact (row8192_apply _ _ _ r o).trans (congrFun (shapeCast_self v11 _) (ix1 o))
  · exact (row8192_apply _ _ _ r o).trans (congrFun (shapeCast_self v16 _) (ix1 o))

/-- The sum over the 4096 rows of a block, channel by channel. -/
theorem colsum4096 (X : FVec Ideal S4096x64 .f32) (h : S4096x64.Reduces [0] S64) (hφ : FKind.Formats .f32)
    (hacc : (0x00000000#32 : BitVec 32) = FKind.add.neutral .f32 hφ) (o : Fin 64) :
    multiReduction .add [0] S64 X 0x00000000#32 h hφ hacc (ix1 o) = ∑ r : Fin 4096, X (ix2 r o) := by
  refine (Ideal.multiReduction_add_single X 0x00000000#32 h hφ hacc (ix1 o)).trans ?_
  refine Finset.sum_congr rfl fun r _ => congrArg X ?_
  funext a; apply Fin.ext
  match a with
  | ⟨0, _⟩ => rfl
  | ⟨1, _⟩ => rfl

/-- The sum over the 8192 rows of a block, channel by channel. -/
theorem colsum8192 (X : FVec Ideal S8192x64 .f32) (h : S8192x64.Reduces [0] S64) (hφ : FKind.Formats .f32)
    (hacc : (0x00000000#32 : BitVec 32) = FKind.add.neutral .f32 hφ) (o : Fin 64) :
    multiReduction .add [0] S64 X 0x00000000#32 h hφ hacc (ix1 o) = ∑ r : Fin 8192, X (ix2 r o) := by
  refine (Ideal.multiReduction_add_single X 0x00000000#32 h hφ hacc (ix1 o)).trans ?_
  refine Finset.sum_congr rfl fun r _ => congrArg X ?_
  funext a; apply Fin.ext
  match a with
  | ⟨0, _⟩ => rfl
  | ⟨1, _⟩ => rfl

end Cert.KernelIdeal.KPay

end
-- ==== Proof.KReg2.lean ====
import proofs.«120732_j28406913696569_2_alg».proof.Proof.Gen.KernelIdeal.Frame
import proofs.«120732_j28406913696569_2_alg».proof.Proof.KPay1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

/-! # The third kernel region: per-channel sums of the second layer's pre-activation and of its square

The region walks a 16 × 8 grid in row-major order, 128 points. Point `t` holds rows `8192·(t mod 8) … + 8191` of image
`t / 8` of the activations and the whole weight matrix and bias, and forms the block of pre-activations
`y = h·W + b` ([8192, 64]). Two [1, 64] rows stay in place across all points: the first point stores zero into both,
and every point adds to the first row the sum of `y` over its 8192 rows and to the second the sum of `y·y`. The rows
are written back once, after the last point. Sums of extended reals may be regrouped and reordered freely, so the
first row ends at the sum of `y` over all 16 · 65536 points of each channel, the second at the sum of its squares. -/

namespace Cert.KernelIdeal.KReg2

open Cert.KernelIdeal Cert.KernelIdeal.Gen Cert.KernelIdeal.KPay
open Cert.BNSpec (cur1 cur2 cur3)

/-! ## Summing over all points of all images, block by block -/

/-- A sum over 16 images of 65536 points each is the sum over the 128 blocks of 8192 points: block `t` is rows
    `8192·(t mod 8) … + 8191` of image `t / 8`. -/
theorem sum_blocks {M : Type*} [AddCommMonoid M] (f : Fin 16 → Fin 65536 → M) :
    ∑ p : Fin 16, ∑ n : Fin 65536, f p n
      = ∑ t : Fin 128, ∑ r : Fin 8192, f ⟨t.val / 8, by have := t.isLt; omega⟩
          ⟨t.val % 8 * 8192 + r.val, by have := r.isLt; omega⟩ := by
  have hrow : ∀ g : Fin 65536 → M,
      ∑ n : Fin 65536, g n = ∑ q : Fin 8, ∑ r : Fin 8192, g ⟨q.val * 8192 + r.val, by have := q.isLt; have := r.isLt; omega⟩ := by
    intro g
    rw [← Equiv.sum_comp (finProdFinEquiv : Fin 8 × Fin 8192 ≃ Fin 65536) g, Fintype.sum_prod_type]
    refine Finset.sum_congr rfl fun q _ => Finset.sum_congr rfl fun r _ => congrArg g (Fin.ext ?_)
    show r.val + 8192 * q.val = q.val * 8192 + r.val
    omega
  have hpt : ∀ G : Fin 128 → M,
      ∑ t : Fin 128, G t = ∑ p : Fin 16, ∑ q : Fin 8, G ⟨p.val * 8 + q.val, by have := p.isLt; have := q.isLt; omega⟩ := by
    intro G
    rw [← Equiv.sum_comp (finProdFinEquiv : Fin 16 × Fin 8 ≃ Fin 128) G, Fintype.sum_prod_type]
    refine Finset.sum_congr rfl fun p _ => Finset.sum_congr rfl fun q _ => congrArg G (Fin.ext ?_)
    show q.val + 8 * p.val = p.val * 8 + q.val
    omega
  refine Eq.trans ?_ (hpt _).symm
  refine Finset.sum_congr rfl fun p _ => (hrow _).trans ?_
  refine Finset.sum_congr rfl fun q _ => Finset.sum_congr rfl fun r _ => ?_
  have hp := p.isLt
  have hq := q.isLt
  refine congrArg₂ f (Fin.ext ?_) (Fin.ext ?_)
  · show p.val = (p.val * 8 + q.val) / 8
    omega
  · show q.val * 8192 + r.val = (p.val * 8 + q.val) % 8 * 8192 + r.val
    omega

/-! ## What one point leaves in the two rows -/

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A later point leaves in the first row what it held plus the block's column sums. -/
theorem outB3 (c : Dev nD) (i : grid2.Coords) (a2 : Memref sig .tc .vmem S1x8192x64 .f32) (h2 : a2.IsWhole)
    (a3 : Memref sig .tc .vmem S64x64 .f32) (h3 : a3.IsWhole) (a4 : Memref sig .tc .vmem S64 .f32) (h4 : a4.IsWhole)
    (a5 : Memref sig .tc .vmem S1x64 .f32) (h5 : a5.IsWhole) (a6 : Memref sig .tc .vmem S1x64 .f32) (h6 : a6.IsWhole)
    (hc : ¬cond2_0 i) (x0 : Vec F S1x8192x64 .f32) (x1 : Vec F S64x64 .f32) (x2 : Vec F S64 .f32) (xo3 xo4 : Vec F S1x64 .f32) :
    out2_B_3 c i a2 h2 a3 h3 a4 h4 a5 h5 a6 h6 hc x0 x1 x2 xo3 xo4 = k2_pay4 x0 x1 x2 xo3 := by
  unfold out2_B_3
  rw [View.read_writes_eq_canon _ _ _ (cover2_B_3 c i a2 h2 a3 h3 a4 h4 a5 h5 a6 h6 hc x0 x1 x2 xo3 xo4)]
  unfold kernelRun2_B
  dsimp only
  rw [View.canon_unit_zero hz2]
  simp only [View.readAt_eq_ld, h2.read_unread, h3.read_unread, h4.read_unread, h5.read_unread,
    View.ld_unit_zero (S := S1x8192x64) hz3, View.ld_unit_zero (S := S64x64) hz2,
    View.ld_unit_zero (S := S64) hz1, View.ld_unit_zero (S := S1x64) hz2]

/-- A later point leaves in the second row what it held plus the block's column sums of squares. -/
theorem outB4 (c : Dev nD) (i : grid2.Coords) (a2 : Memref sig .tc .vmem S1x8192x64 .f32) (h2 : a2.IsWhole)
    (a3 : Memref sig .tc .vmem S64x64 .f32) (h3 : a3.IsWhole) (a4 : Memref sig .tc .vmem S64 .f32) (h4 : a4.IsWhole)
    (a5 : Memref sig .tc .vmem S1x64 .f32) (h5 : a5.IsWhole) (a6 : Memref sig .tc .vmem S1x64 .f32) (h6 : a6.IsWhole)
    (hc : ¬cond2_0 i) (x0 : Vec F S1x8192x64 .f32) (x1 : Vec F S64x64 .f32) (x2 : Vec F S64 .f32) (xo3 xo4 : Vec F S1x64 .f32) :
    out2_B_4 c i a2 h2 a3 h3 a4 h4 a5 h5 a6 h6 hc x0 x1 x2 xo3 xo4 = k2_pay5 x0 x1 x2 xo4 := by
  unfold out2_B_4
  rw [View.read_writes_eq_canon _ _ _ (cover2_B_4 c i a2 h2 a3 h3 a4 h4 a5 h5 a6 h6 hc x0 x1 x2 xo3 xo4)]
  unfold kernelRun2_B
  dsimp only
  rw [View.canon_unit_zero hz2]
  simp only [View.readAt_eq_ld, h2.read_unread, h3.read_unread, h4.read_unread, h6.read_unread,
    View.ld_unit_zero (S := S1x8192x64) hz3, View.ld_unit_zero (S := S64x64) hz2,
    View.ld_unit_zero (S := S64) hz1, View.ld_unit_zero (S := S1x64) hz2]

/-- The first point stores the zero row, reads it back, and leaves zero plus the block's column sums. -/
theorem outA3 (c : Dev nD) (i : grid2.Coords) (a2 : Memref sig .tc .vmem S1x8192x64 .f32) (h2 : a2.IsWhole)
    (a3 : Memref sig .tc .vmem S64x64 .f32) (h3 : a3.IsWhole) (a4 : Memref sig .tc .vmem S64 .f32) (h4 : a4.IsWhole)
    (a5 : Memref sig .tc .vmem S1x64 .f32) (h5 : a5.IsWhole) (a6 : Memref sig .tc .vmem S1x64 .f32) (h6 : a6.IsWhole)
    (hc : cond2_0 i) (x0 : Vec F S1x8192x64 .f32) (x1 : Vec F S64x64 .f32) (x2 : Vec F S64 .f32) :
    out2_A_3 c i a2 h2 a3 h3 a4 h4 a5 h5 a6 h6 hc x0 x1 x2 = k2_pay4 x0 x1 x2 k2_pay1 := by
  unfold out2_A_3
  rw [View.read_writes_eq_canon _ _ _ (cover2_A_3 c i a2 h2 a3 h3 a4 h4 a5 h5 a6 h6 hc x0 x1 x2)]
  unfold kernelRun2_A
  dsimp only
  sl_unfold_words
  rw [View.canon_cons_unit_zero (S := S1x64) hz2, View.readCov_unit_zero (S := S1x64) _ hz2]
  simp only [View.readAt_eq_ld, h2.read_unread, h3.read_unread, h4.read_unread,
    View.ld_unit_zero (S := S1x8192x64) hz3, View.ld_unit_zero (S := S64x64) hz2,
    View.ld_unit_zero (S := S64) hz1, View.ld_unit_zero (S := S1x64) hz2]

/-- The first point likewise leaves zero plus the block's column sums of squares in the second row. -/
theorem outA4 (c : Dev nD) (i : grid2.Coords) (a2 : Memref sig .tc .vmem S1x8192x64 .f32) (h2 : a2.IsWhole)
    (a3 : Memref sig .tc .vmem S64x64 .f32) (h3 : a3.IsWhole) (a4 : Memref sig .tc .vmem S64 .f32) (h4 : a4.IsWhole)
    (a5 : Memref sig .tc .vmem S1x64 .f32) (h5 : a5.IsWhole) (a6 : Memref sig .tc .vmem S1x64 .f32) (h6 : a6.IsWhole)
    (hc : cond2_0 i) (x0 : Vec F S1x8192x64 .f32) (x1 : Vec F S64x64 .f32) (x2 : Vec F S64 .f32) :
    out2_A_4 c i a2 h2 a3 h3 a4 h4 a5 h5 a6 h6 hc x0 x1 x2 = k2_pay5 x0 x1 x2 k2_pay2 := by
  unfold out2_A_4
  rw [View.read_writes_eq_canon _ _ _ (cover2_A_4 c i a2 h2 a3 h3 a4 h4 a5 h5 a6 h6 hc x0 x1 x2)]
  unfold kernelRun2_A
  dsimp only
  sl_unfold_words
  rw [View.canon_cons_unit_zero (S := S1x64) hz2, View.readCov_unit_zero (S := S1x64) _ hz2]
  simp only [View.readAt_eq_ld, h2.read_unread, h3.read_unread, h4.read_unread,
    View.ld_unit_zero (S := S1x8192x64) hz3, View.ld_unit_zero (S := S64x64) hz2,
    View.ld_unit_zero (S := S64) hz1, View.ld_unit_zero (S := S1x64) hz2]

end Pieces

/-! ## The rows' arithmetic at one channel -/

/-- The zero row reads zero. -/
theorem pay1_apply (u : Fin 1) (o : Fin 64) : k2_pay1 (F := Ideal) (ix2 u o) = 0 := zero_f32
theorem pay2_apply (u : Fin 1) (o : Fin 64) : k2_pay2 (F := Ideal) (ix2 u o) = 0 := zero_f32

/-- The first row after a point, at channel `o`: what it held plus the sum of the block's pre-activations over its
    8192 rows. -/
theorem pay4_apply (x0 : Vec Ideal S1x8192x64 .f32) (x1 : Vec Ideal S64x64 .f32) (x2 : Vec Ideal S64 .f32)
    (xo : Vec Ideal S1x64 .f32) (u : Fin 1) (o : Fin 64) :
    k2_pay4 x0 x1 x2 xo (ix2 u o) = xo (ix2 u o) + ∑ r : Fin 8192, k2_pay3 x0 x1 x2 (ix2 r o) := by
  unfold k2_pay4
  refine (addf_apply _ _ _).trans (congrArg₂ (· + ·) ?_ ?_)
  · exact congrFun (shapeCast_self xo _) (ix2 u o)
  · exact (shapeCast_a_1a_apply _ shapeCasts_S64_S1x64 u o).trans (colsum8192 _ _ _ _ o)

/-- The second row after a point, at channel `o`: what it held plus the sum of the squared pre-activations. -/
theorem pay5_apply (x0 : Vec Ideal S1x8192x64 .f32) (x1 : Vec Ideal S64x64 .f32) (x2 : Vec Ideal S64 .f32)
    (xo : Vec Ideal S1x64 .f32) (u : Fin 1) (o : Fin 64) :
    k2_pay5 x0 x1 x2 xo (ix2 u o)
      = xo (ix2 u o) + ∑ r : Fin 8192, k2_pay3 x0 x1 x2 (ix2 r o) * k2_pay3 x0 x1 x2 (ix2 r o) := by
  unfold k2_pay5
  refine (addf_apply _ _ _).trans (congrArg₂ (· + ·) ?_ ?_)
  · exact congrFun (shapeCast_self xo _) (ix2 u o)
  · exact (shapeCast_a_1a_apply _ shapeCasts_S64_S1x64 u o).trans
      ((colsum8192 _ _ _ _ o).trans (Finset.sum_congr rfl fun r _ => mulf_apply _ _ _))

/-! ## Which rows each point holds -/

variable (V : (c : Dev nD) → (b : Ref sig .tc) → Buf (Elt Ideal) ((c : Thread nD τ).loc b))

/-- The index maps over the grid: at point `t` the activations' block is block `t mod 8` of image `t / 8`; the weight
    matrix, the bias and the two rows are whole at every point. -/
theorem idx_facts : ∀ t : Fin cfg2.N,
    win2_0.index t (0 : Fin 3) = t.val / 8 ∧ win2_0.index t (1 : Fin 3) = t.val % 8 ∧ win2_0.index t (2 : Fin 3) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row `r` of the activations' block at point `t` is row `8192·(t mod 8) + r` of image `t / 8`. -/
theorem blk0_apply (c : Dev nD) (t : Fin cfg2.N) (u : Fin 1) (r : Fin 8192) (k : Fin 64) (p : Fin 16) (n : Fin 65536)
    (hp : p.val = t.val / 8) (hn : n.val = t.val % 8 * 8192 + r.val) :
    (iblk2 V c 0 t : Vec Ideal S1x8192x64 .f32) (ix3 u r k) = cur3 (V c main_v19) p n k := by
  obtain ⟨e0, e1, e2, -⟩ := idx_facts t
  unfold iblk2
  rw [View.read_apply]
  show (V c main_v19 : S16x65536x64.Idx → EReal) (((cfg2.win 0).blk t).view.emb (ix3 u r k)) = _
  refine congrArg (V c main_v19 : S16x65536x64.Idx → EReal) ?_
  funext a; apply Fin.ext
  match a with
  | ⟨0, _⟩ => show win2_0.index t (0 : Fin 3) * 1 + 1 * u.val = p.val; have := u.isLt; omega
  | ⟨1, _⟩ => show win2_0.index t (1 : Fin 3) * 8192 + 1 * r.val = n.val; omega
  | ⟨2, _⟩ => show win2_0.index t (2 : Fin 3) * 64 + 1 * k.val = k.val; omega

/-- The weight matrix's block is the whole matrix at every point. -/
theorem blk1_eq (c : Dev nD) (t : Fin cfg2.N) :
    (iblk2 V c 1 t : Vec Ideal S64x64 .f32) = (V c main_v1 : S64x64.Idx → EReal) := by
  obtain ⟨-, -, -, e0, e1, -⟩ := idx_facts t
  funext y
  unfold iblk2
  rw [View.read_apply]
  show (V c main_v1 : S64x64.Idx → EReal) (((cfg2.win 1).blk t).view.emb y) = _
  refine congrArg (V c main_v1 : S64x64.Idx → EReal) ?_
  funext a; apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- The bias's block is the whole vector at every point. -/
theorem blk2_eq (c : Dev nD) (t : Fin cfg2.N) :
    (iblk2 V c 2 t : Vec Ideal S64 .f32) = (V c main_arg6 : S64.Idx → EReal) := by
  obtain ⟨-, -, -, -, -, e0, -⟩ := idx_facts t
  funext y
  unfold iblk2
  rw [View.read_apply]
  show (V c main_arg6 : S64.Idx → EReal) (((cfg2.win 2).blk t).view.emb y) = _
  refine congrArg (V c main_arg6 : S64.Idx → EReal) ?_
  funext a; apply Fin.ext
  match a with
  | ⟨0, _⟩ => show win2_2.index t (0 : Fin 1) * 64 + 1 * (y 0).val = (y 0).val; omega

/-! ## The running sums -/

/-- The second layer's pre-activation at image `p`, point `n`, channel `o`, from the arrays as the region finds them. -/
def y (c : Dev nD) (p : Fin 16) (n : Fin 65536) (o : Fin 64) : EReal :=
  (∑ k : Fin 64, cur3 (V c main_v19) p n k * cur2 (V c main_v1) k o) + cur1 (V c main_arg6) o

/-- The block of pre-activations at point `t`, row `r`, channel `o`, is `y` at the row's place in its image. -/
theorem pre_eq (c : Dev nD) (t : Fin cfg2.N) (r : Fin 8192) (o : Fin 64) (p : Fin 16) (n : Fin 65536)
    (hp : p.val = t.val / 8) (hn : n.val = t.val % 8 * 8192 + r.val) :
    k2_pay3 (iblk2 V c 0 t) (iblk2 V c 1 t) (iblk2 V c 2 t) (ix2 r o) = y V c p n o := by
  refine (y2_apply (iblk2 V c 0 t) (iblk2 V c 1 t) (iblk2 V c 2 t) r o).trans ?_
  unfold y
  exact congrArg₂ (· + ·)
    (Finset.sum_congr rfl fun k _ => congrArg₂ (· * ·) (blk0_apply V c t 0 r k p n hp hn) (congrFun (blk1_eq V c t) (ix2 k o)))
    (congrFun (blk2_eq V c t) (ix1 o))

/-- What point `t` adds to the first row at channel `o`, -/
def bs (c : Dev nD) (t : Fin cfg2.N) (o : Fin 64) : EReal :=
  ∑ r : Fin 8192, k2_pay3 (iblk2 V c 0 t) (iblk2 V c 1 t) (iblk2 V c 2 t) (ix2 r o)
/-- and to the second. -/
def bq (c : Dev nD) (t : Fin cfg2.N) (o : Fin 64) : EReal :=
  ∑ r : Fin 8192, k2_pay3 (iblk2 V c 0 t) (iblk2 V c 1 t) (iblk2 V c 2 t) (ix2 r o) * k2_pay3 (iblk2 V c 0 t) (iblk2 V c 1 t) (iblk2 V c 2 t) (ix2 r o)

/-- The two rows after the first point: zero plus that point's contribution. -/
theorem at_first (c : Dev nD) (t : Fin cfg2.N) (h0 : t.val % 128 = 0) :
    outsAt2 V c t.val t.isLt = (k2_pay4 (iblk2 V c 0 t) (iblk2 V c 1 t) (iblk2 V c 2 t) (k2_pay1 (F := Ideal)), k2_pay5 (iblk2 V c 0 t) (iblk2 V c 1 t) (iblk2 V c 2 t) (k2_pay2 (F := Ideal))) :=
  (outsAt2_A V c t h0).trans (congrArg₂ Prod.mk
    (outA3 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t))
    (outA4 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t)))

/-- The two rows after a later point: what the point before left plus this point's contribution. -/
theorem at_later (c : Dev nD) (t : Fin cfg2.N) (h0 : ¬t.val % 128 = 0) :
    outsAt2 V c t.val t.isLt
      = (k2_pay4 (iblk2 V c 0 t) (iblk2 V c 1 t) (iblk2 V c 2 t) (outsAt2 V c (t.val - 1) (Nat.lt_of_le_of_lt (Nat.sub_le _ _) t.isLt)).1,
         k2_pay5 (iblk2 V c 0 t) (iblk2 V c 1 t) (iblk2 V c 2 t) (outsAt2 V c (t.val - 1) (Nat.lt_of_le_of_lt (Nat.sub_le _ _) t.isLt)).2) :=
  (outsAt2_B V c t h0).trans (congrArg₂ Prod.mk
    (outB3 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) _ _)
    (outB4 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) _ _))

/-- After point `n` the rows hold the contributions of the points `0 … n` added up — by induction on the point. -/
theorem acc_eq (c : Dev nD) : ∀ (n : ℕ) (hn : n < cfg2.N) (u : Fin 1) (o : Fin 64),
    (outsAt2 V c n hn).1 (ix2 u o) = ∑ j : Fin (n + 1), bs V c ⟨j.val, Nat.lt_of_lt_of_le j.isLt hn⟩ o
    ∧ (outsAt2 V c n hn).2 (ix2 u o) = ∑ j : Fin (n + 1), bq V c ⟨j.val, Nat.lt_of_lt_of_le j.isLt hn⟩ o
  | 0, hn, u, o => by
    rw [at_first V c ⟨0, hn⟩ rfl]
    refine ⟨?_, ?_⟩
    · refine (pay4_apply _ _ _ _ u o).trans (Eq.trans ?_ (Fin.sum_univ_one _).symm)
      rw [pay1_apply, zero_add]
      rfl
    · refine (pay5_apply _ _ _ _ u o).trans (Eq.trans ?_ (Fin.sum_univ_one _).symm)
      rw [pay2_apply, zero_add]
      rfl
  | n + 1, hn, u, o => by
    have hN : cfg2.N = 128 := N_2
    have hB : ¬(⟨n + 1, hn⟩ : Fin cfg2.N).val % 128 = 0 := by dsimp only; omega
    obtain ⟨ih1, ih2⟩ := acc_eq c n (Nat.lt_of_succ_lt hn) u o
    rw [at_later V c ⟨n + 1, hn⟩ hB]
    refine ⟨?_, ?_⟩
    · refine (pay4_apply _ _ _ _ u o).trans (Eq.trans ?_ (Fin.sum_univ_castSucc _).symm)
      exact congrArg₂ (· + ·) ih1 rfl
    · refine (pay5_apply _ _ _ _ u o).trans (Eq.trans ?_ (Fin.sum_univ_castSucc _).symm)
      exact congrArg₂ (· + ·) ih2 rfl

/-! ## The rows after the last point, and the arrays they are written back to -/

/-- One point's contribution to the first row is the sum of `y` over the point's 8192 rows of its image, -/
theorem bs_eq (c : Dev nD) (t : Fin cfg2.N) (ht : t.val < 128) (o : Fin 64) :
    bs V c t o = ∑ r : Fin 8192, y V c ⟨t.val / 8, by omega⟩ ⟨t.val % 8 * 8192 + r.val, by have := r.isLt; omega⟩ o :=
  Finset.sum_congr rfl fun r _ => pre_eq V c t r o _ _ rfl rfl

/-- and to the second the sum of its squares. -/
theorem bq_eq (c : Dev nD) (t : Fin cfg2.N) (ht : t.val < 128) (o : Fin 64) :
    bq V c t o = ∑ r : Fin 8192, y V c ⟨t.val / 8, by omega⟩ ⟨t.val % 8 * 8192 + r.val, by have := r.isLt; omega⟩ o
      * y V c ⟨t.val / 8, by omega⟩ ⟨t.val % 8 * 8192 + r.val, by have := r.isLt; omega⟩ o :=
  Finset.sum_congr rfl fun r _ => congrArg₂ (· * ·) (pre_eq V c t r o _ _ rfl rfl) (pre_eq V c t r o _ _ rfl rfl)

/-- After the last point the rows hold the sums over every point of every image. -/
theorem total (c : Dev nD) (hn : 127 < cfg2.N) (u : Fin 1) (o : Fin 64) :
    (outsAt2 V c 127 hn).1 (ix2 u o) = ∑ p : Fin 16, ∑ n : Fin 65536, y V c p n o
    ∧ (outsAt2 V c 127 hn).2 (ix2 u o) = ∑ p : Fin 16, ∑ n : Fin 65536, y V c p n o * y V c p n o := by
  obtain ⟨h1, h2⟩ := acc_eq V c 127 hn u o
  have e1 : ∑ j : Fin 128, bs V c ⟨j.val, Nat.lt_of_lt_of_le j.isLt hn⟩ o
      = ∑ p : Fin 16, ∑ n : Fin 65536, y V c p n o :=
    (Finset.sum_congr rfl fun j _ => bs_eq V c ⟨j.val, Nat.lt_of_lt_of_le j.isLt hn⟩ j.isLt o).trans
      (sum_blocks (fun p n => y V c p n o)).symm
  have e2 : ∑ j : Fin 128, bq V c ⟨j.val, Nat.lt_of_lt_of_le j.isLt hn⟩ o
      = ∑ p : Fin 16, ∑ n : Fin 65536, y V c p n o * y V c p n o :=
    (Finset.sum_congr rfl fun j _ => bq_eq V c ⟨j.val, Nat.lt_of_lt_of_le j.isLt hn⟩ j.isLt o).trans
      (sum_blocks (fun p n => y V c p n o * y V c p n o)).symm
  exact ⟨h1.trans e1, h2.trans e2⟩

/-! ## The two arrays the rows are written back to -/

theorem h127 : 127 < cfg2.N := by rw [show cfg2.N = 128 from N_2]; decide

theorem outsAt_congr (c : Dev nD) (n k : ℕ) (hn : n < cfg2.N) (hk : k < cfg2.N) (e : n = k) :
    outsAt2 V c n hn = outsAt2 V c k hk := by subst e; rfl

/-- The rows after the last point, as contents of the two [1, 64] arrays (each array is one block). -/
abbrev res3 (c : Dev nD) : Buf (Elt Ideal) ((c : Thread nD τ).loc main_v20_0) := (outsAt2 V c 127 h127).1
abbrev res4 (c : Dev nD) : Buf (Elt Ideal) ((c : Thread nD τ).loc main_v20_1) := (outsAt2 V c 127 h127).2

/-- The one write-back of the first row, after the last point, writes it. -/
theorem flushed3_eq (c : Dev nD) (t : Fin cfg2.N) (hf : (cfg2.win 3).flush t = true) :
    (dat2 V c).flushed 3 t = ((cfg2.win 3).blk t).view.read (Elt Ideal) (res3 V c) := by
  have hN : cfg2.N = 128 := N_2
  have hl : t.val = 127 := by have := (flush2_3 t).mp hf; have := t.isLt; omega
  obtain ⟨-, -, -, -, -, -, e0, e1, -⟩ := idx_facts t
  show (cfg2.win 3).cut (grid2.coords t) ((dat2 V c).after 3 t) = _
  rw [after2_3, outsAt_congr V c t.val 127 t.isLt h127 hl]
  refine funext fun (j : S1x64.Idx) => ?_
  obtain ⟨u, o, rfl⟩ : ∃ (u : Fin 1) (o : Fin 64), j = ix2 u o := ⟨j 0, j 1, eq_ix2 j⟩
  have hemb : ((cfg2.win 3).blk t).view.emb (ix2 u o) = ix2 u o := by
    funext a; apply Fin.ext
    match a with
    | ⟨0, _⟩ => show win2_3.index t (0 : Fin 2) * 1 + 1 * u.val = u.val; omega
    | ⟨1, _⟩ => show win2_3.index t (1 : Fin 2) * 64 + 1 * o.val = o.val; omega
  show (outsAt2 V c 127 h127).1 (ix2 u o) = res3 V c (((cfg2.win 3).blk t).view.emb (ix2 u o))
  rw [hemb]

/-- The one write-back of the second row, after the last point, writes it. -/
theorem flushed4_eq (c : Dev nD) (t : Fin cfg2.N) (hf : (cfg2.win 4).flush t = true) :
    (dat2 V c).flushed 4 t = ((cfg2.win 4).blk t).view.read (Elt Ideal) (res4 V c) := by
  have hN : cfg2.N = 128 := N_2
  have hl : t.val = 127 := by have := (flush2_4 t).mp hf; have := t.isLt; omega
  obtain ⟨-, -, -, -, -, -, -, -, e0, e1⟩ := idx_facts t
  show (cfg2.win 4).cut (grid2.coords t) ((dat2 V c).after 4 t) = _
  rw [after2_4, outsAt_congr V c t.val 127 t.isLt h127 hl]
  refine funext fun (j : S1x64.Idx) => ?_
  obtain ⟨u, o, rfl⟩ : ∃ (u : Fin 1) (o : Fin 64), j = ix2 u o := ⟨j 0, j 1, eq_ix2 j⟩
  have hemb : ((cfg2.win 4).blk t).view.emb (ix2 u o) = ix2 u o := by
    funext a; apply Fin.ext
    match a with
    | ⟨0, _⟩ => show win2_4.index t (0 : Fin 2) * 1 + 1 * u.val = u.val; omega
    | ⟨1, _⟩ => show win2_4.index t (1 : Fin 2) * 64 + 1 * o.val = o.val; omega
  show (outsAt2 V c 127 h127).2 (ix2 u o) = res4 V c (((cfg2.win 4).blk t).view.emb (ix2 u o))
  rw [hemb]

/-- The last point's block of the first array is the whole array. -/
theorem cover3 (i : S1x64.Idx) :
    ∃ t : Fin cfg2.N, (cfg2.win 3).flush t = true ∧ i ∈ ((cfg2.win 3).blk t).view.set := by
  obtain ⟨-, -, -, -, -, -, e0, e1, -⟩ := idx_facts ⟨127, h127⟩
  have h0 : (i 0).val < 1 := (i 0).isLt
  have h1 : (i 1).val < 64 := (i 1).isLt
  refine ⟨⟨127, h127⟩, (flush2_3 _).mpr rfl, ?_⟩
  show i ∈ ((View.whole main_v20_0).slice (win2_3.rect ⟨127, h127⟩)).set
  rw [View.set_slice_whole, Rect.mem_set_unit]
  intro a
  match a with
  | ⟨0, _⟩ => show win2_3.index ⟨127, h127⟩ (0 : Fin 2) * 1 ≤ (i 0).val ∧ (i 0).val < win2_3.index ⟨127, h127⟩ (0 : Fin 2) * 1 + 1; omega
  | ⟨1, _⟩ => show win2_3.index ⟨127, h127⟩ (1 : Fin 2) * 64 ≤ (i 1).val ∧ (i 1).val < win2_3.index ⟨127, h127⟩ (1 : Fin 2) * 64 + 64; omega

/-- The last point's block of the second array is the whole array. -/
theorem cover4 (i : S1x64.Idx) :
    ∃ t : Fin cfg2.N, (cfg2.win 4).flush t = true ∧ i ∈ ((cfg2.win 4).blk t).view.set := by
  obtain ⟨-, -, -, -, -, -, -, -, e0, e1⟩ := idx_facts ⟨127, h127⟩
  have h0 : (i 0).val < 1 := (i 0).isLt
  have h1 : (i 1).val < 64 := (i 1).isLt
  refine ⟨⟨127, h127⟩, (flush2_4 _).mpr rfl, ?_⟩
  show i ∈ ((View.whole main_v20_1).slice (win2_4.rect ⟨127, h127⟩)).set
  rw [View.set_slice_whole, Rect.mem_set_unit]
  intro a
  match a with
  | ⟨0, _⟩ => show win2_4.index ⟨127, h127⟩ (0 : Fin 2) * 1 ≤ (i 0).val ∧ (i 0).val < win2_4.index ⟨127, h127⟩ (0 : Fin 2) * 1 + 1; omega
  | ⟨1, _⟩ => show win2_4.index ⟨127, h127⟩ (1 : Fin 2) * 64 ≤ (i 1).val ∧ (i 1).val < win2_4.index ⟨127, h127⟩ (1 : Fin 2) * 64 + 64; omega

/-- The first array after the region holds the first row as the last point leaves it, -/
theorem final3 (c : Dev nD) : (dat2 V c).arrAt 3 cfg2.N = res3 V c :=
  (dat2 V c).arrAt_eq_of_cover 3 (res3 V c) (flushed3_eq V c) cover3

/-- and the second array the second row. -/
theorem final4 (c : Dev nD) : (dat2 V c).arrAt 4 cfg2.N = res4 V c :=
  (dat2 V c).arrAt_eq_of_cover 4 (res4 V c) (flushed4_eq V c) cover4

/-- The first array after the region, at channel `o`: the sum of `y` over all points of all images. -/
theorem final_sum (c : Dev nD) (o : Fin 64) :
    ((dat2 V c).arrAt 3 cfg2.N : S1x64.Idx → EReal) (ix2 (0 : Fin 1) o) = ∑ p : Fin 16, ∑ n : Fin 65536, y V c p n o :=
  (congrFun (final3 V c) (ix2 (0 : Fin 1) o)).trans (total V c h127 0 o).1

/-- The second array after the region, at channel `o`: the sum of `y·y` over all points of all images. -/
theorem final_sumsq (c : Dev nD) (o : Fin 64) :
    ((dat2 V c).arrAt 4 cfg2.N : S1x64.Idx → EReal) (ix2 (0 : Fin 1) o)
      = ∑ p : Fin 16, ∑ n : Fin 65536, y V c p n o * y V c p n o :=
  (congrFun (final4 V c) (ix2 (0 : Fin 1) o)).trans (total V c h127 0 o).2

end Cert.KernelIdeal.KReg2

end
-- ==== Proof.KReg3.lean ====
import proofs.«120732_j28406913696569_2_alg».proof.Proof.Gen.KernelIdeal.Frame
import proofs.«120732_j28406913696569_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

/-! # The fourth kernel region: the normalised pointwise layer, read off its blocks

The region walks a 16 × 8 grid. At point `(i₀, i₁)` it holds rows `8192·i₁ … 8192·i₁ + 8191` of image `i₀` of the
activations `h` ([16, 65536, 64]) and the whole of the weight matrix `W` ([64, 64]), the bias, the per-channel scale
and the per-channel shift ([64] each), and writes the same rows of the output: at row `n`, channel `o`

  max ((∑ₖ h[i₀, n, k] · W[k, o] + bias[o]) · scale[o] + shift[o]) 0.

Every output entry lies in exactly the block of the point `(i₀, n / 8192)`, so after the last point the output array
holds that expression at every index. Over the extended reals every operation is exact, the change of float format
before the matrix product is the identity, and the product into a zero accumulator is the plain sum over `k`. -/

namespace Cert.KernelIdeal.KReg3

open Cert.KernelIdeal Cert.KernelIdeal.Gen
open Cert.BNSpec (cur1 cur2 cur3)

variable (V : (c : Dev nD) → (b : Ref sig .tc) → Buf (Elt Ideal) ((c : Thread nD τ).loc b))

/-! ## The block's arithmetic at one entry -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The product of a block of 8192 rows with the 64 × 64 weight matrix, into a zero accumulator, at row `r` and
    channel `o`: the sum over the contracted channel `k` of the products of the entries. -/
theorem mm_apply {φ₁ φ₂ : FTy} (A : FVec Ideal S8192x64 φ₁) (B : FVec Ideal S64x64 φ₂) (r : Fin 8192) (o : Fin 64) :
    matmul dot_S8192x64_S64x64_S8192x64_1_0_0_1_n_n none A B (constant (F := Ideal) S8192x64 .f32 0x00000000#32) (ix2 r o)
      = ∑ k : Fin 64, A (ix2 r k) * B (ix2 k o) := by
  show FloatOps.matmul _ none A B _ (ix2 r o) = _
  rw [Ideal.matmul_constant_zero_apply,
    ← Equiv.sum_comp (contrEquiv1 dot_S8192x64_S64x64_S8192x64_1_0_0_1_n_n 64 rfl rfl).symm]
  refine Finset.sum_congr rfl fun k _ => ?_
  have ck := contrEquiv1_symm_val dot_S8192x64_S64x64_S8192x64_1_0_0_1_n_n 64 rfl rfl k
  have l2 : dot_S8192x64_S64x64_S8192x64_1_0_0_1_n_n.lhsIdx (ix2 r o)
      ((contrEquiv1 dot_S8192x64_S64x64_S8192x64_1_0_0_1_n_n 64 rfl rfl).symm k) = ix2 r k := by
    funext ax; apply Fin.ext
    match ax with
    | ⟨0, _⟩ => simp [DotDims.lhsIdx, dot_S8192x64_S64x64_S8192x64_1_0_0_1_n_n]; rfl
    | ⟨1, _⟩ => simp [DotDims.lhsIdx, dot_S8192x64_S64x64_S8192x64_1_0_0_1_n_n]; exact ck
  have r2 : dot_S8192x64_S64x64_S8192x64_1_0_0_1_n_n.rhsIdx (ix2 r o)
      ((contrEquiv1 dot_S8192x64_S64x64_S8192x64_1_0_0_1_n_n 64 rfl rfl).symm k) = ix2 k o := by
    funext ax; apply Fin.ext
    match ax with
    | ⟨0, _⟩ => simp [DotDims.rhsIdx, dot_S8192x64_S64x64_S8192x64_1_0_0_1_n_n]; exact ck
    | ⟨1, _⟩ => simp [DotDims.rhsIdx, dot_S8192x64_S64x64_S8192x64_1_0_0_1_n_n]; rfl
  rw [l2, r2]

/-- A per-channel vector, given a leading unit axis and repeated down the 8192 rows, reads the channel's entry in
    every row. -/
theorem row_apply (v : Vec Ideal S64 .f32) (r : Fin 8192) (o : Fin 64) :
    broadcastTo S8192x64 (shapeCast S1x64 v shapeCasts_S64_S1x64) broadcasts_S1x64_S8192x64 (ix2 r o) = v (ix1 o) :=
  (broadcastTo_1b_ab_apply _ broadcasts_S1x64_S8192x64 r o).trans (shapeCast_a_1a_apply v shapeCasts_S64_S1x64 0 o)

/-- The stored block at row `r`, channel `o`, from whatever the five loaded blocks are known to hold there: the row
    of activations `a`, the column of weights `w`, the channel's bias `b`, scale `s` and shift `d`. -/
theorem pay_apply (x0 : Vec Ideal S1x8192x64 .f32) (x1 : Vec Ideal S64x64 .f32) (x2 x3 x4 : Vec Ideal S64 .f32)
    (u : Fin 1) (r : Fin 8192) (o : Fin 64) (a w : Fin 64 → EReal) (b s d : EReal)
    (h0 : ∀ k, x0 (ix3 (0 : Fin 1) r k) = a k) (h1 : ∀ k, x1 (ix2 k o) = w k)
    (h2 : x2 (ix1 o) = b) (h3 : x3 (ix1 o) = s) (h4 : x4 (ix1 o) = d) :
    k3_pay1 x0 x1 x2 x3 x4 (ix3 u r o) = max (((∑ k : Fin 64, a k * w k) + b) * s + d) 0 := by
  have hM : matmul dot_S8192x64_S64x64_S8192x64_1_0_0_1_n_n none
        (truncf .bf16 (shapeCast S8192x64 x0 shapeCasts_S1x8192x64_S8192x64) bitsLt_bf16_f32)
        (truncf .bf16 (shapeCast S64x64 x1 shapeCasts_S64x64_S64x64) bitsLt_bf16_f32)
        (constant (F := Ideal) S8192x64 .f32 0x00000000#32) (ix2 r o) = ∑ k : Fin 64, a k * w k := by
    refine (mm_apply _ _ r o).trans (Finset.sum_congr rfl fun k _ => ?_)
    show shapeCast S8192x64 x0 shapeCasts_S1x8192x64_S8192x64 (ix2 r k)
      * shapeCast S64x64 x1 shapeCasts_S64x64_S64x64 (ix2 k o) = a k * w k
    rw [shapeCast_1ab_ab_apply x0 _ r k, shapeCast_self, h0 k, h1 k]
  have hb : broadcastTo S8192x64 (shapeCast S1x64 x2 shapeCasts_S64_S1x64) broadcasts_S1x64_S8192x64 (ix2 r o) = b :=
    (row_apply x2 r o).trans h2
  have hs : broadcastTo S8192x64 (shapeCast S1x64 (shapeCast S64 x3 shapeCasts_S64_S64) shapeCasts_S64_S1x64)
      broadcasts_S1x64_S8192x64 (ix2 r o) = s := by
    rw [shapeCast_self]; exact (row_apply x3 r o).trans h3
  have hd : broadcastTo S8192x64 (shapeCast S1x64 (shapeCast S64 x4 shapeCasts_S64_S64) shapeCasts_S64_S1x64)
      broadcasts_S1x64_S8192x64 (ix2 r o) = d := by
    rw [shapeCast_self]; exact (row_apply x4 r o).trans h4
  unfold k3_pay1
  refine (shapeCast_ab_1ab_apply _ shapeCasts_S8192x64_S1x8192x64 u r o).trans ?_
  simp only [maximumf_apply, addf_apply, mulf_apply, broadcast_apply]
  rw [hM, hb, hs, hd]
  exact congrArg (max _) Ideal.ofBits_zero_f32

/-! ## Which rows each point holds -/

/-- The index maps over the grid: at point `t` the activations' block and the output's block are block `t mod 8` of
    image `t / 8`; every other window holds its whole array. -/
theorem idx_facts : ∀ t : Fin cfg3.N,
    win3_0.index t (0 : Fin 3) = t.val / 8 ∧ win3_0.index t (1 : Fin 3) = t.val % 8 ∧ win3_0.index t (2 : Fin 3) = 0
    ∧ win3_5.index t (0 : Fin 3) = t.val / 8 ∧ win3_5.index t (1 : Fin 3) = t.val % 8 ∧ win3_5.index t (2 : Fin 3) = 0
    ∧ win3_1.index t (0 : Fin 2) = 0 ∧ win3_1.index t (1 : Fin 2) = 0
    ∧ win3_2.index t (0 : Fin 1) = 0 ∧ win3_3.index t (0 : Fin 1) = 0 ∧ win3_4.index t (0 : Fin 1) = 0 :=
  (by decide +kernel : ∀ t : Fin grid3.N, _)

/-- Row `r` of the activations' block at point `t` is row `8192·(t mod 8) + r` of image `t / 8`. -/
theorem blk0_apply (c : Dev nD) (t : Fin cfg3.N) (u : Fin 1) (r : Fin 8192) (k : Fin 64) (p : Fin 16) (n : Fin 65536)
    (hp : p.val = t.val / 8) (hn : n.val = t.val % 8 * 8192 + r.val) :
    (iblk3 V c 0 t : Vec Ideal S1x8192x64 .f32) (ix3 u r k) = (V c main_v19 : S16x65536x64.Idx → EReal) (ix3 p n k) := by
  obtain ⟨e0, e1, e2, -⟩ := idx_facts t
  unfold iblk3
  rw [View.read_apply]
  show (V c main_v19 : S16x65536x64.Idx → EReal) (((cfg3.win 0).blk t).view.emb (ix3 u r k)) = _
  refine congrArg (V c main_v19 : S16x65536x64.Idx → EReal) ?_
  funext a; apply Fin.ext
  match a with
  | ⟨0, _⟩ => show win3_0.index t (0 : Fin 3) * 1 + 1 * u.val = p.val; have := u.isLt; omega
  | ⟨1, _⟩ => show win3_0.index t (1 : Fin 3) * 8192 + 1 * r.val = n.val; omega
  | ⟨2, _⟩ => show win3_0.index t (2 : Fin 3) * 64 + 1 * k.val = k.val; omega

/-- The weight matrix's block is the whole matrix at every point. -/
theorem blk1_eq (c : Dev nD) (t : Fin cfg3.N) :
    (iblk3 V c 1 t : Vec Ideal S64x64 .f32) = (V c main_v1 : S64x64.Idx → EReal) := by
  obtain ⟨-, -, -, -, -, -, e0, e1, -⟩ := idx_facts t
  funext y
  unfold iblk3
  rw [View.read_apply]
  show (V c main_v1 : S64x64.Idx → EReal) (((cfg3.win 1).blk t).view.emb y) = _
  refine congrArg (V c main_v1 : S64x64.Idx → EReal) ?_
  funext a; apply Fin.ext
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- The bias's block is the whole vector at every point. -/
theorem blk2_eq (c : Dev nD) (t : Fin cfg3.N) :
    (iblk3 V c 2 t : Vec Ideal S64 .f32) = (V c main_arg6 : S64.Idx → EReal) := by
  obtain ⟨-, -, -, -, -, -, -, -, e0, -⟩ := idx_facts t
  funext y
  unfold iblk3
  rw [View.read_apply]
  show (V c main_arg6 : S64.Idx → EReal) (((cfg3.win 2).blk t).view.emb y) = _
  refine congrArg (V c main_arg6 : S64.Idx → EReal) ?_
  funext a; apply Fin.ext
  match a with
  | ⟨0, _⟩ => show win3_2.index t (0 : Fin 1) * 64 + 1 * (y 0).val = (y 0).val; omega

/-- The scale's block is the whole vector at every point. -/
theorem blk3_eq (c : Dev nD) (t : Fin cfg3.N) :
    (iblk3 V c 3 t : Vec Ideal S64 .f32) = (V c main_v32 : S64.Idx → EReal) := by
  obtain ⟨-, -, -, -, -, -, -, -, -, e0, -⟩ := idx_facts t
  funext y
  unfold iblk3
  rw [View.read_apply]
  show (V c main_v32 : S64.Idx → EReal) (((cfg3.win 3).blk t).view.emb y) = _
  refine congrArg (V c main_v32 : S64.Idx → EReal) ?_
  funext a; apply Fin.ext
  match a with
  | ⟨0, _⟩ => show win3_3.index t (0 : Fin 1) * 64 + 1 * (y 0).val = (y 0).val; omega

/-- The shift's block is the whole vector at every point. -/
theorem blk4_eq (c : Dev nD) (t : Fin cfg3.N) :
    (iblk3 V c 4 t : Vec Ideal S64 .f32) = (V c main_v34 : S64.Idx → EReal) := by
  obtain ⟨-, -, -, -, -, -, -, -, -, -, e0⟩ := idx_facts t
  funext y
  unfold iblk3
  rw [View.read_apply]
  show (V c main_v34 : S64.Idx → EReal) (((cfg3.win 4).blk t).view.emb y) = _
  refine congrArg (V c main_v34 : S64.Idx → EReal) ?_
  funext a; apply Fin.ext
  match a with
  | ⟨0, _⟩ => show win3_4.index t (0 : Fin 1) * 64 + 1 * (y 0).val = (y 0).val; omega

/-! ## The output array -/

/-- The layer at image `p`, row `n`, channel `o`, from the arrays as the region finds them. -/
def out (c : Dev nD) (p : Fin 16) (n : Fin 65536) (o : Fin 64) : EReal :=
  max (((∑ k : Fin 64, cur3 (V c main_v19) p n k * cur2 (V c main_v1) k o) + cur1 (V c main_arg6) o)
        * cur1 (V c main_v32) o + cur1 (V c main_v34) o) 0

/-- The same as contents of the whole output array. -/
def outArr (c : Dev nD) : S16x65536x64.Idx → EReal := fun i => out V c (i 0) (i 1) (i 2)

/-- What point `t` writes back is its block of `outArr`. -/
theorem flushed_eq (c : Dev nD) (t : Fin cfg3.N) :
    (dat3 V c).flushed 5 t = ((cfg3.win 5).blk t).view.read (Elt Ideal) (outArr V c) := by
  have hN : cfg3.N = 128 := N_3
  have ht : t.val < cfg3.N := t.isLt
  obtain ⟨-, -, -, e0, e1, e2, -⟩ := idx_facts t
  show (cfg3.win 5).cut (grid3.coords t) ((dat3 V c).after 5 t) = _
  rw [after3_5]
  unfold out3_5
  rw [View.canon_unit_zero hz3]
  simp only [View.ld_unit_zero (S := S1x8192x64) hz3, View.ld_unit_zero (S := S64x64) hz2, View.ld_unit_zero (S := S64) hz1]
  refine funext fun (j : S1x8192x64.Idx) => ?_
  obtain ⟨u, r, o, rfl⟩ : ∃ (u : Fin 1) (r : Fin 8192) (o : Fin 64), j = ix3 u r o := ⟨j 0, j 1, j 2, eq_ix3 j⟩
  have hemb : ((cfg3.win 5).blk t).view.emb (ix3 u r o)
      = ix3 (⟨t.val / 8, by omega⟩ : Fin 16) (⟨t.val % 8 * 8192 + r.val, by omega⟩ : Fin 65536) o := by
    funext a; apply Fin.ext
    match a with
    | ⟨0, _⟩ => show win3_5.index t (0 : Fin 3) * 1 + 1 * u.val = t.val / 8; have := u.isLt; omega
    | ⟨1, _⟩ => show win3_5.index t (1 : Fin 3) * 8192 + 1 * r.val = t.val % 8 * 8192 + r.val; omega
    | ⟨2, _⟩ => show win3_5.index t (2 : Fin 3) * 64 + 1 * o.val = o.val; omega
  show k3_pay1 (iblk3 V c 0 t) (iblk3 V c 1 t) (iblk3 V c 2 t) (iblk3 V c 3 t) (iblk3 V c 4 t) (ix3 u r o)
      = outArr V c (((cfg3.win 5).blk t).view.emb (ix3 u r o))
  rw [hemb]
  exact pay_apply (iblk3 V c 0 t) (iblk3 V c 1 t) (iblk3 V c 2 t) (iblk3 V c 3 t) (iblk3 V c 4 t) u r o
    (fun k => cur3 (V c main_v19) (⟨t.val / 8, by omega⟩ : Fin 16) (⟨t.val % 8 * 8192 + r.val, by omega⟩ : Fin 65536) k)
    (fun k => cur2 (V c main_v1) k o) (cur1 (V c main_arg6) o) (cur1 (V c main_v32) o) (cur1 (V c main_v34) o)
    (fun k => blk0_apply V c t 0 r k _ _ rfl rfl)
    (fun k => congrFun (blk1_eq V c t) (ix2 k o))
    (congrFun (blk2_eq V c t) (ix1 o)) (congrFun (blk3_eq V c t) (ix1 o)) (congrFun (blk4_eq V c t) (ix1 o))

/-- An index of the output array lies in point `t`'s block iff each coordinate is in the block's range on its axis. -/
theorem mem_blk (t : Fin cfg3.N) (i : S16x65536x64.Idx) :
    i ∈ ((cfg3.win 5).blk t).view.set ↔ ∀ a : Fin 3, win3_5.index t a * S1x8192x64.size a ≤ (i a).val
      ∧ (i a).val < win3_5.index t a * S1x8192x64.size a + S1x8192x64.size a := by
  show i ∈ ((View.whole main_v35).slice (win3_5.rect t)).set ↔ _
  rw [View.set_slice_whole, Rect.mem_set_unit]
  exact Iff.rfl

/-- Every index of the output array is written: image `p`, row `n` by the point `8·p + n / 8192`. -/
theorem cover (i : S16x65536x64.Idx) :
    ∃ t : Fin cfg3.N, (cfg3.win 5).flush t = true ∧ i ∈ ((cfg3.win 5).blk t).view.set := by
  have hN : cfg3.N = 128 := N_3
  have h0 : (i 0).val < 16 := (i 0).isLt
  have h1 : (i 1).val < 65536 := (i 1).isLt
  have h2 : (i 2).val < 64 := (i 2).isLt
  obtain ⟨t, ht⟩ : ∃ t : Fin cfg3.N, t.val = 8 * (i 0).val + (i 1).val / 8192 :=
    ⟨⟨8 * (i 0).val + (i 1).val / 8192, by rw [hN]; omega⟩, rfl⟩
  obtain ⟨-, -, -, e0, e1, e2, -⟩ := idx_facts t
  refine ⟨t, flush3_5 t, ?_⟩
  rw [mem_blk]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 8192 ≤ (i 1).val ∧ (i 1).val < win3_5.index t (1 : Fin 3) * 8192 + 8192; omega
  | ⟨2, _⟩ => show win3_5.index t (2 : Fin 3) * 64 ≤ (i 2).val ∧ (i 2).val < win3_5.index t (2 : Fin 3) * 64 + 64; omega

/-- The output array after the region is the layer at every index. -/
theorem final_arr (c : Dev nD) : (dat3 V c).arrAt 5 cfg3.N = outArr V c :=
  (dat3 V c).arrAt_eq_of_cover 5 (outArr V c) (fun t _ => flushed_eq V c t) cover

/-- The output array after the region, at image `p`, row `n`, channel `o`. -/
theorem final (c : Dev nD) (p : Fin 16) (n : Fin 65536) (o : Fin 64) :
    ((dat3 V c).arrAt 5 cfg3.N : S16x65536x64.Idx → EReal) (ix3 p n o)
      = max (((∑ k : Fin 64, cur3 (V c main_v19) p n k * cur2 (V c main_v1) k o) + cur1 (V c main_arg6) o)
              * cur1 (V c main_v32) o + cur1 (V c main_v34) o) 0 :=
  congrFun (final_arr V c) (ix3 p n o)

end Cert.KernelIdeal.KReg3

end
-- ==== Proof.KReg0.lean ====
import proofs.«120732_j28406913696569_2_alg».proof.Proof.Gen.KernelIdeal.Frame
import proofs.«120732_j28406913696569_2_alg».proof.Proof.KPay1
import Idealize.ShloMosaic.Lib.Pipeline.Value
import Idealize.ShloMosaic.Lib.Tactic

/-!
# The first kernel region: per-channel sums of the first layer's pre-activation, and of its square

The region walks a 16 × 16 grid in row-major order, point t = 16 i₀ + i₁. At point t it holds rows
4096 i₁ … 4096 i₁ + 4095 of ring i₀ of the points, of their predecessors and of their successors, the whole
[12, 64] weight matrix and the whole bias, and two [1, 64] rows that stay in place across the points. The first
point stores zero into both rows; every point adds to the first row the column sums, over its 4096 rows, of the
block's pre-activation (feature times weight summed over the twelve features, plus bias), and to the second row
the column sums of its square. Both rows are written back once, after the last point.

So after point n each row holds, per channel, the sum over the points 0 … n of the block sums — an induction on
the point, starting from zero — and after the last point the sum over all 256 blocks of 4096 rows. Block t's row r
is point 4096 (t mod 16) + r of ring t / 16, and the 256 × 4096 pairs (t, r) are exactly the 16 × 65536 pairs
(ring, point): over the extended reals, a commutative monoid under addition, the sums regroup with no side condition.
-/

noncomputable section

open scoped BigOperators

namespace Cert.KernelIdeal.KReg0

open Cert.KernelIdeal Cert.KernelIdeal.Gen Cert.KernelIdeal.KPay Idealize.ShloMosaic Idealize.ShloMosaic.ValueIdx Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

section Pieces
variable {F : FTy → Type} [FloatOps F]

/-- After a point that is not the first, the first running row holds the payload of the point's one store into it. -/
theorem out_B_5 (c : Dev nD) (i : grid0.Coords) (a2 : Memref sig .tc .vmem S1x4096x3 .f32) (h2 : a2.IsWhole) (a3 : Memref sig .tc .vmem S1x4096x3 .f32) (h3 : a3.IsWhole) (a4 : Memref sig .tc .vmem S1x4096x3 .f32) (h4 : a4.IsWhole) (a5 : Memref sig .tc .vmem S12x64 .f32) (h5 : a5.IsWhole) (a6 : Memref sig .tc .vmem S64 .f32) (h6 : a6.IsWhole) (a7 : Memref sig .tc .vmem S1x64 .f32) (h7 : a7.IsWhole) (a8 : Memref sig .tc .vmem S1x64 .f32) (h8 : a8.IsWhole) (hc : ¬cond0_0 i)
    (x0 x1 x2 : Vec F S1x4096x3 .f32) (x3 : Vec F S12x64 .f32) (x4 : Vec F S64 .f32) (xo5 xo6 : Vec F S1x64 .f32) :
    out0_B_5 c i a2 h2 a3 h3 a4 h4 a5 h5 a6 h6 a7 h7 a8 h8 hc x0 x1 x2 x3 x4 xo5 xo6 = k0_pay5 x0 x1 x2 x3 x4 xo5 := by
  unfold out0_B_5
  rw [View.read_writes_eq_canon _ _ _ (cover0_B_5 c i a2 h2 a3 h3 a4 h4 a5 h5 a6 h6 a7 h7 a8 h8 hc x0 x1 x2 x3 x4 xo5 xo6)]
  unfold kernelRun0_B
  dsimp only
  rw [View.canon_unit_zero hz2]
  simp only [View.readAt_eq_ld, h2.read_unread, h3.read_unread, h4.read_unread, h5.read_unread, h6.read_unread, h7.read_unread, h8.read_unread,
    View.ld_unit_zero (S := S1x4096x3) hz3, View.ld_unit_zero (S := S12x64) hz2, View.ld_unit_zero (S := S64) hz1, View.ld_unit_zero (S := S1x64) hz2]

/-- After a point that is not the first, the second running row likewise. -/
theorem out_B_6 (c : Dev nD) (i : grid0.Coords) (a2 : Memref sig .tc .vmem S1x4096x3 .f32) (h2 : a2.IsWhole) (a3 : Memref sig .tc .vmem S1x4096x3 .f32) (h3 : a3.IsWhole) (a4 : Memref sig .tc .vmem S1x4096x3 .f32) (h4 : a4.IsWhole) (a5 : Memref sig .tc .vmem S12x64 .f32) (h5 : a5.IsWhole) (a6 : Memref sig .tc .vmem S64 .f32) (h6 : a6.IsWhole) (a7 : Memref sig .tc .vmem S1x64 .f32) (h7 : a7.IsWhole) (a8 : Memref sig .tc .vmem S1x64 .f32) (h8 : a8.IsWhole) (hc : ¬cond0_0 i)
    (x0 x1 x2 : Vec F S1x4096x3 .f32) (x3 : Vec F S12x64 .f32) (x4 : Vec F S64 .f32) (xo5 xo6 : Vec F S1x64 .f32) :
    out0_B_6 c i a2 h2 a3 h3 a4 h4 a5 h5 a6 h6 a7 h7 a8 h8 hc x0 x1 x2 x3 x4 xo5 xo6 = k0_pay1 (k0_pay6 xo6) (k0_pay7 x0 x1 x2 x3 x4) := by
  unfold out0_B_6
  rw [View.read_writes_eq_canon _ _ _ (cover0_B_6 c i a2 h2 a3 h3 a4 h4 a5 h5 a6 h6 a7 h7 a8 h8 hc x0 x1 x2 x3 x4 xo5 xo6)]
  unfold kernelRun0_B
  dsimp only
  sl_unfold_words
  rw [View.canon_unit_zero hz2]
  simp only [View.readAt_eq_ld, h2.read_unread, h3.read_unread, h4.read_unread, h5.read_unread, h6.read_unread, h7.read_unread, h8.read_unread,
    View.ld_unit_zero (S := S1x4096x3) hz3, View.ld_unit_zero (S := S12x64) hz2, View.ld_unit_zero (S := S64) hz1, View.ld_unit_zero (S := S1x64) hz2]

/-- After the first point, which first stores a zero row, the first running row. -/
theorem out_A_5 (c : Dev nD) (i : grid0.Coords) (a2 : Memref sig .tc .vmem S1x4096x3 .f32) (h2 : a2.IsWhole) (a3 : Memref sig .tc .vmem S1x4096x3 .f32) (h3 : a3.IsWhole) (a4 : Memref sig .tc .vmem S1x4096x3 .f32) (h4 : a4.IsWhole) (a5 : Memref sig .tc .vmem S12x64 .f32) (h5 : a5.IsWhole) (a6 : Memref sig .tc .vmem S64 .f32) (h6 : a6.IsWhole) (a7 : Memref sig .tc .vmem S1x64 .f32) (h7 : a7.IsWhole) (a8 : Memref sig .tc .vmem S1x64 .f32) (h8 : a8.IsWhole) (hc : cond0_0 i)
    (x0 x1 x2 : Vec F S1x4096x3 .f32) (x3 : Vec F S12x64 .f32) (x4 : Vec F S64 .f32) :
    out0_A_5 c i a2 h2 a3 h3 a4 h4 a5 h5 a6 h6 a7 h7 a8 h8 hc x0 x1 x2 x3 x4 = k0_pay5 x0 x1 x2 x3 x4 k0_pay2 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S1x64) hz2, View.readCov_unit_zero (S := S1x64) _ hz2]
  simp only [View.readAt_eq_ld, h2.read_unread, h3.read_unread, h4.read_unread, h5.read_unread, h6.read_unread,
    View.ld_unit_zero (S := S1x4096x3) hz3, View.ld_unit_zero (S := S12x64) hz2, View.ld_unit_zero (S := S64) hz1, View.ld_unit_zero (S := S1x64) hz2]

/-- After the first point, the second running row. -/
theorem out_A_6 (c : Dev nD) (i : grid0.Coords) (a2 : Memref sig .tc .vmem S1x4096x3 .f32) (h2 : a2.IsWhole) (a3 : Memref sig .tc .vmem S1x4096x3 .f32) (h3 : a3.IsWhole) (a4 : Memref sig .tc .vmem S1x4096x3 .f32) (h4 : a4.IsWhole) (a5 : Memref sig .tc .vmem S12x64 .f32) (h5 : a5.IsWhole) (a6 : Memref sig .tc .vmem S64 .f32) (h6 : a6.IsWhole) (a7 : Memref sig .tc .vmem S1x64 .f32) (h7 : a7.IsWhole) (a8 : Memref sig .tc .vmem S1x64 .f32) (h8 : a8.IsWhole) (hc : cond0_0 i)
    (x0 x1 x2 : Vec F S1x4096x3 .f32) (x3 : Vec F S12x64 .f32) (x4 : Vec F S64 .f32) :
    out0_A_6 c i a2 h2 a3 h3 a4 h4 a5 h5 a6 h6 a7 h7 a8 h8 hc x0 x1 x2 x3 x4 = k0_pay1 (k0_pay6 k0_pay3) (k0_pay7 x0 x1 x2 x3 x4) := by
  unfold out0_A_6
  rw [View.read_writes_eq_canon _ _ _ (cover0_A_6 c i a2 h2 a3 h3 a4 h4 a5 h5 a6 h6 a7 h7 a8 h8 hc x0 x1 x2 x3 x4)]
  unfold kernelRun0_A
  dsimp only
  sl_unfold_words
  rw [View.canon_cons_unit_zero (S := S1x64) hz2, View.readCov_unit_zero (S := S1x64) _ hz2]
  simp only [View.readAt_eq_ld, h2.read_unread, h3.read_unread, h4.read_unread, h5.read_unread, h6.read_unread,
    View.ld_unit_zero (S := S1x4096x3) hz3, View.ld_unit_zero (S := S12x64) hz2, View.ld_unit_zero (S := S64) hz1, View.ld_unit_zero (S := S1x64) hz2]

end Pieces

variable (V : (c : Dev nD) → (b : Ref sig .tc) → Buf (Elt Ideal) ((c : Thread nD τ).loc b))

/-- The first layer's pre-activation of point n of ring p, channel o, from the arrays as the region finds them: the
    sum over the point's twelve features of feature times weight, plus the bias. -/
def y (c : Dev nD) (p : Fin 16) (n : Fin 65536) (o : Fin 64) : EReal :=
  (∑ k : Fin 12, featPt (fun e => (V c main_arg0 : S16x65536x3.Idx → EReal) (ix3 p n e)) (fun e => (V c main_v2 : S16x65536x3.Idx → EReal) (ix3 p n e)) (fun e => (V c main_v3 : S16x65536x3.Idx → EReal) (ix3 p n e)) k * (V c main_v0 : S12x64.Idx → EReal) (ix2 k o)) + (V c main_arg2 : S64.Idx → EReal) (ix1 o)

/-! ## The stored rows at one channel -/

/-- The row stored into the first running row: the row read before, plus the block's column sums. -/
theorem pay5_apply (x0 x1 x2 : Vec Ideal S1x4096x3 .f32) (x3 : Vec Ideal S12x64 .f32) (x4 : Vec Ideal S64 .f32)
    (acc : Vec Ideal S1x64 .f32) (u : Fin 1) (o : Fin 64) :
    k0_pay5 x0 x1 x2 x3 x4 acc (ix2 u o) = acc (ix2 u o) + ∑ r : Fin 4096, k0_pay4 x0 x1 x2 x3 x4 (ix2 r o) := by
  unfold k0_pay5
  refine (addf_apply _ _ _).trans (congrArg₂ (· + ·) ?_ ?_)
  · exact congrFun (shapeCast_self acc _) (ix2 u o)
  · exact (shapeCast_a_1a_apply _ _ u o).trans (colsum4096 _ _ _ _ o)

/-- The row stored into the second running row: the row read before, plus the column sums of the given block. -/
theorem pay1_apply (acc : FVec Ideal S1x64 .f32) (X : FVec Ideal S4096x64 .f32) (u : Fin 1) (o : Fin 64) :
    k0_pay1 acc X (ix2 u o) = acc (ix2 u o) + ∑ r : Fin 4096, X (ix2 r o) := by
  unfold k0_pay1
  exact (addf_apply _ _ _).trans (congrArg (acc (ix2 u o) + ·) ((shapeCast_a_1a_apply _ _ u o).trans (colsum4096 _ _ _ _ o)))

theorem pay6_eq (v : Vec Ideal S1x64 .f32) : k0_pay6 v = v := by
  unfold k0_pay6; exact shapeCast_self v _

theorem pay7_apply (x0 x1 x2 : Vec Ideal S1x4096x3 .f32) (x3 : Vec Ideal S12x64 .f32) (x4 : Vec Ideal S64 .f32)
    (r : Fin 4096) (o : Fin 64) :
    k0_pay7 x0 x1 x2 x3 x4 (ix2 r o) = k0_pay4 x0 x1 x2 x3 x4 (ix2 r o) * k0_pay4 x0 x1 x2 x3 x4 (ix2 r o) := by
  unfold k0_pay7; exact mulf_apply _ _ _

theorem pay2_zero (i : S1x64.Idx) : (k0_pay2 : FVec Ideal S1x64 .f32) i = 0 := by
  unfold k0_pay2; exact zero_f32
theorem pay3_zero (i : S1x64.Idx) : (k0_pay3 : FVec Ideal S1x64 .f32) i = 0 := by
  unfold k0_pay3; exact zero_f32

/-! ## Which rows each point holds -/

/-- The index maps over the grid: at point t the three point blocks are block t mod 16 of ring t / 16; every
    other window holds its whole array. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row r of the points' block at point t is point 4096 (t mod 16) + r of ring t / 16. -/
theorem blk0_apply (c : Dev nD) (t : Fin cfg0.N) (u : Fin 1) (r : Fin 4096) (e : Fin 3) (p : Fin 16) (n : Fin 65536)
    (hp : p.val = t.val / 16) (hn : n.val = 4096 * (t.val % 16) + r.val) :
    (iblk0 V c 0 t : Vec Ideal S1x4096x3 .f32) (ix3 u r e) = (V c main_arg0 : S16x65536x3.Idx → EReal) (ix3 p n e) := by
  obtain ⟨e0, e1, e2, -⟩ := idx_facts t
  unfold iblk0
  rw [View.read_apply]
  show (V c main_arg0 : S16x65536x3.Idx → EReal) (((cfg0.win 0).blk t).view.emb (ix3 u r e)) = _
  refine congrArg (V c main_arg0 : S16x65536x3.Idx → EReal) ?_
  funext a; apply Fin.ext
  match a with
  | ⟨0, _⟩ => show win0_0.index t (0 : Fin 3) * 1 + 1 * u.val = p.val; have := u.isLt; omega
  | ⟨1, _⟩ => show win0_0.index t (1 : Fin 3) * 4096 + 1 * r.val = n.val; omega
  | ⟨2, _⟩ => show win0_0.index t (2 : Fin 3) * 3 + 1 * e.val = e.val; omega

/-- The same for the block of predecessors. -/
theorem blk1_apply (c : Dev nD) (t : Fin cfg0.N) (u : Fin 1) (r : Fin 4096) (e : Fin 3) (p : Fin 16) (n : Fin 65536)
    (hp : p.val = t.val / 16) (hn : n.val = 4096 * (t.val % 16) + r.val) :
    (iblk0 V c 1 t : Vec Ideal S1x4096x3 .f32) (ix3 u r e) = (V c main_v2 : S16x65536x3.Idx → EReal) (ix3 p n e) := by
  obtain ⟨-, -, -, e0, e1, e2, -⟩ := idx_facts t
  unfold iblk0
  rw [View.read_apply]
  show (V c main_v2 : S16x65536x3.Idx → EReal) (((cfg0.win 1).blk t).view.emb (ix3 u r e)) = _
  refine congrArg (V c main_v2 : S16x65536x3.Idx → EReal) ?_
  funext a; apply Fin.ext
  match a with
  | ⟨0, _⟩ => show win0_1.index t (0 : Fin 3) * 1 + 1 * u.val = p.val; have := u.isLt; omega
  | ⟨1, _⟩ => show win0_1.index t (1 : Fin 3) * 4096 + 1 * r.val = n.val; omega
  | ⟨2, _⟩ => show win0_1.index t (2 : Fin 3) * 3 + 1 * e.val = e.val; omega

/-- The same for the block of successors. -/
theorem blk2_apply (c : Dev nD) (t : Fin cfg0.N) (u : Fin 1) (r : Fin 4096) (e : Fin 3) (p : Fin 16) (n : Fin 65536)
    (hp : p.val = t.val / 16) (hn : n.val = 4096 * (t.val % 16) + r.val) :
    (iblk0 V c 2 t : Vec Ideal S1x4096x3 .f32) (ix3 u r e) = (V c main_v3 : S16x65536x3.Idx → EReal) (ix3 p n e) := by
  obtain ⟨-, -, -, -, -, -, e0, e1, e2, -⟩ := idx_facts t
  unfold iblk0
  rw [View.read_apply]
  show (V c main_v3 : S16x65536x3.Idx → EReal) (((cfg0.win 2).blk t).view.emb (ix3 u r e)) = _
  refine congrArg (V c main_v3 : S16x65536x3.Idx → EReal) ?_
  funext a; apply Fin.ext
  match a with
  | ⟨0, _⟩ => show win0_2.index t (0 : Fin 3) * 1 + 1 * u.val = p.val; have := u.isLt; omega
  | ⟨1, _⟩ => show win0_2.index t (1 : Fin 3) * 4096 + 1 * r.val = n.val; omega
  | ⟨2, _⟩ => show win0_2.index t (2 : Fin 3) * 3 + 1 * e.val = e.val; omega

/-- The weights' block is the whole matrix at every point. -/
theorem blk3_eq (c : Dev nD) (t : Fin cfg0.N) :
    (iblk0 V c 3 t : Vec Ideal S12x64 .f32) = (V c main_v0 : S12x64.Idx → EReal) := by
  obtain ⟨-, -, -, -, -, -, -, -, -, e0, e1, -⟩ := idx_facts t
  funext j
  unfold iblk0
  rw [View.read_apply]
  show (V c main_v0 : S12x64.Idx → EReal) (((cfg0.win 3).blk t).view.emb j) = _
  refine congrArg (V c main_v0 : S12x64.Idx → EReal) ?_
  funext a; apply Fin.ext
  match a with
  | ⟨0, _⟩ => show win0_3.index t (0 : Fin 2) * 12 + 1 * (j 0).val = (j 0).val; omega
  | ⟨1, _⟩ => show win0_3.index t (1 : Fin 2) * 64 + 1 * (j 1).val = (j 1).val; omega

/-- The bias's block is the whole vector at every point. -/
theorem blk4_eq (c : Dev nD) (t : Fin cfg0.N) :
    (iblk0 V c 4 t : Vec Ideal S64 .f32) = (V c main_arg2 : S64.Idx → EReal) := by
  obtain ⟨-, -, -, -, -, -, -, -, -, -, -, e0, -⟩ := idx_facts t
  funext j
  unfold iblk0
  rw [View.read_apply]
  show (V c main_arg2 : S64.Idx → EReal) (((cfg0.win 4).blk t).view.emb j) = _
  refine congrArg (V c main_arg2 : S64.Idx → EReal) ?_
  funext a; apply Fin.ext
  match a with
  | ⟨0, _⟩ => show win0_4.index t (0 : Fin 1) * 64 + 1 * (j 0).val = (j 0).val; omega

/-- The block's pre-activation at point t: a [4096, 64] array. -/
def pre4 (c : Dev nD) (t : Fin cfg0.N) : FVec Ideal S4096x64 .f32 :=
  k0_pay4 (iblk0 V c 0 t) (iblk0 V c 1 t) (iblk0 V c 2 t) (iblk0 V c 3 t) (iblk0 V c 4 t)

/-- Row r of the block's pre-activation at point t is the pre-activation of point 4096 (t mod 16) + r of ring t / 16. -/
theorem pre4_eq (c : Dev nD) (t : Fin cfg0.N) (r : Fin 4096) (o : Fin 64) (p : Fin 16) (n : Fin 65536)
    (hp : p.val = t.val / 16) (hn : n.val = 4096 * (t.val % 16) + r.val) :
    pre4 V c t (ix2 r o) = y V c p n o := by
  unfold pre4
  refine (y1_apply _ _ _ _ _ r o).trans ?_
  unfold y
  have e0 : (fun e => (iblk0 V c 0 t : Vec Ideal S1x4096x3 .f32) (ix3 (0 : Fin 1) r e))
      = fun e => (V c main_arg0 : S16x65536x3.Idx → EReal) (ix3 p n e) := funext fun e => blk0_apply V c t 0 r e p n hp hn
  have e1 : (fun e => (iblk0 V c 1 t : Vec Ideal S1x4096x3 .f32) (ix3 (0 : Fin 1) r e))
      = fun e => (V c main_v2 : S16x65536x3.Idx → EReal) (ix3 p n e) := funext fun e => blk1_apply V c t 0 r e p n hp hn
  have e2 : (fun e => (iblk0 V c 2 t : Vec Ideal S1x4096x3 .f32) (ix3 (0 : Fin 1) r e))
      = fun e => (V c main_v3 : S16x65536x3.Idx → EReal) (ix3 p n e) := funext fun e => blk2_apply V c t 0 r e p n hp hn
  refine congrArg₂ (· + ·) (Finset.sum_congr rfl fun k _ => congrArg₂ (· * ·) ?_ ?_) ?_
  · exact (congrArg (fun f => featPt f _ _ k) e0).trans ((congrArg (fun f => featPt _ f _ k) e1).trans (congrArg (fun f => featPt _ _ f k) e2))
  · exact congrFun (blk3_eq V c t) (ix2 k o)
  · exact congrFun (blk4_eq V c t) (ix1 o)

/-! ## The running rows, point by point -/

/-- At the first point both rows start from the stored zero rows. -/
theorem outs_A (c : Dev nD) (t : Fin cfg0.N) (h0 : t.val % 256 = 0) :
    outsAt0 V c t.val t.isLt
      = (k0_pay5 (iblk0 V c 0 t) (iblk0 V c 1 t) (iblk0 V c 2 t) (iblk0 V c 3 t) (iblk0 V c 4 t) (k0_pay2 (F := Ideal)), k0_pay1 (k0_pay6 (k0_pay3 (F := Ideal))) (k0_pay7 (iblk0 V c 0 t) (iblk0 V c 1 t) (iblk0 V c 2 t) (iblk0 V c 3 t) (iblk0 V c 4 t))) :=
  (outsAt0_A V c t h0).trans (congrArg₂ Prod.mk
    (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t))
    (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)))

/-- At every later point both rows continue from what the point before left. -/
theorem outs_B (c : Dev nD) (t : Fin cfg0.N) (h0 : ¬t.val % 256 = 0) :
    outsAt0 V c t.val t.isLt
      = (k0_pay5 (iblk0 V c 0 t) (iblk0 V c 1 t) (iblk0 V c 2 t) (iblk0 V c 3 t) (iblk0 V c 4 t) (outsAt0 V c (t.val - 1) (Nat.lt_of_le_of_lt (Nat.sub_le _ _) t.isLt)).1, k0_pay1 (k0_pay6 (outsAt0 V c (t.val - 1) (Nat.lt_of_le_of_lt (Nat.sub_le _ _) t.isLt)).2) (k0_pay7 (iblk0 V c 0 t) (iblk0 V c 1 t) (iblk0 V c 2 t) (iblk0 V c 3 t) (iblk0 V c 4 t))) :=
  (outsAt0_B V c t h0).trans (congrArg₂ Prod.mk
    (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2)
    (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2))

/-- The block sum of channel o at the point numbered n (zero past the grid). -/
def g5 (c : Dev nD) (o : Fin 64) (n : ℕ) : EReal :=
  if h : n < cfg0.N then ∑ r : Fin 4096, pre4 V c ⟨n, h⟩ (ix2 r o) else 0

/-- The block sum of squares of channel o at the point numbered n (zero past the grid). -/
def g6 (c : Dev nD) (o : Fin 64) (n : ℕ) : EReal :=
  if h : n < cfg0.N then ∑ r : Fin 4096, pre4 V c ⟨n, h⟩ (ix2 r o) * pre4 V c ⟨n, h⟩ (ix2 r o) else 0

/-- After the point numbered n the two running rows hold, at channel o, the sums over the points 0 … n of the block
    sums and of the block sums of squares: by induction on the point, from zero at the first. -/
theorem run_eq (c : Dev nD) (u : Fin 1) (o : Fin 64) : ∀ (n : ℕ) (h : n < cfg0.N),
    (outsAt0 V c n h).1 (ix2 u o) = ∑ t ∈ Finset.range (n + 1), g5 V c o t
      ∧ (outsAt0 V c n h).2 (ix2 u o) = ∑ t ∈ Finset.range (n + 1), g6 V c o t
  | 0, h => by
    have e := outs_A V c ⟨0, h⟩ rfl
    constructor
    · refine (congrFun (congrArg Prod.fst e) (ix2 u o)).trans ?_
      refine (pay5_apply _ _ _ _ _ _ u o).trans ?_
      rw [pay2_zero, zero_add, Finset.sum_range_one]
      unfold g5; rw [dif_pos h]; rfl
    · refine (congrFun (congrArg Prod.snd e) (ix2 u o)).trans ?_
      refine (pay1_apply _ _ u o).trans ?_
      rw [pay6_eq, pay3_zero, zero_add, Finset.sum_range_one]
      unfold g6; rw [dif_pos h]
      exact Finset.sum_congr rfl fun r _ => pay7_apply _ _ _ _ _ r o
  | n + 1, h => by
    have hN : cfg0.N = 256 := N_0
    have hB : ¬(⟨n + 1, h⟩ : Fin cfg0.N).val % 256 = 0 := by dsimp only; omega
    have e := outs_B V c ⟨n + 1, h⟩ hB
    obtain ⟨ih5, ih6⟩ := run_eq c u o n (Nat.lt_of_succ_lt h)
    constructor
    · refine (congrFun (congrArg Prod.fst e) (ix2 u o)).trans ?_
      refine (pay5_apply _ _ _ _ _ _ u o).trans ?_
      rw [Finset.sum_range_succ _ (n + 1)]
      refine congrArg₂ (· + ·) ih5 ?_
      unfold g5; rw [dif_pos h]; rfl
    · refine (congrFun (congrArg Prod.snd e) (ix2 u o)).trans ?_
      refine (pay1_apply _ _ u o).trans ?_
      rw [pay6_eq, Finset.sum_range_succ _ (n + 1)]
      refine congrArg₂ (· + ·) ih6 ?_
      unfold g6; rw [dif_pos h]
      exact Finset.sum_congr rfl fun r _ => pay7_apply _ _ _ _ _ r o

/-! ## Regrouping the points -/

theorem sum_fin_mul {M : Type*} [AddCommMonoid M] (m n : ℕ) (g : Fin (m * n) → M) :
    ∑ i, g i = ∑ a : Fin m, ∑ b : Fin n, g (finProdFinEquiv (a, b)) := by
  rw [← Fintype.sum_prod_type (f := fun x : Fin m × Fin n => g (finProdFinEquiv x))]
  exact (Equiv.sum_comp finProdFinEquiv g).symm

/-- 256 blocks of 4096 rows, block t holding rows 4096 (t mod 16) … of ring t / 16, are the 16 rings of 65536
    points: a sum over blocks and rows is the sum over rings and points. -/
theorem regroup {M : Type*} [AddCommMonoid M] (f : Fin 16 → Fin 65536 → M) :
    ∑ t : Fin 256, ∑ r : Fin 4096,
        f ⟨t.val / 16, by have := t.isLt; omega⟩ ⟨4096 * (t.val % 16) + r.val, by have := r.isLt; omega⟩
      = ∑ p : Fin 16, ∑ n : Fin 65536, f p n := by
  rw [sum_fin_mul 16 16]
  refine Finset.sum_congr rfl fun p _ => ?_
  rw [sum_fin_mul 16 4096 (f p)]
  refine Finset.sum_congr rfl fun q _ => Finset.sum_congr rfl fun r _ => ?_
  have hp := p.isLt; have hq := q.isLt; have hr := r.isLt
  have e1 : ((finProdFinEquiv (p, q) : Fin (16 * 16)) : ℕ) = q.val + 16 * p.val := rfl
  have e2 : ((finProdFinEquiv (q, r) : Fin (16 * 4096)) : ℕ) = r.val + 4096 * q.val := rfl
  congr 1
  · exact Fin.ext (by show ((finProdFinEquiv (p, q) : Fin (16 * 16)) : ℕ) / 16 = p.val; rw [e1]; omega)
  · exact Fin.ext (by show 4096 * (((finProdFinEquiv (p, q) : Fin (16 * 16)) : ℕ) % 16) + r.val = ((finProdFinEquiv (q, r) : Fin (16 * 4096)) : ℕ); rw [e1, e2]; omega)

/-! ## The two result arrays -/

theorem h255 : 255 < cfg0.N := by rw [show cfg0.N = 256 from N_0]; decide

theorem outsAt_congr (c : Dev nD) (n k : ℕ) (hn : n < cfg0.N) (hk : k < cfg0.N) (e : n = k) :
    outsAt0 V c n hn = outsAt0 V c k hk := by subst e; rfl

/-- The rows after the last point, as contents of the two result arrays (each one block, the whole array). -/
abbrev res5 (c : Dev nD) : Buf (Elt Ideal) ((c : Thread nD τ).loc main_v4_0) := (outsAt0 V c 255 h255).1
abbrev res6 (c : Dev nD) : Buf (Elt Ideal) ((c : Thread nD τ).loc main_v4_1) := (outsAt0 V c 255 h255).2

/-- The one write-back of the first row, at the last point, writes it. -/
theorem flushed5_eq (c : Dev nD) (t : Fin cfg0.N) (hf : (cfg0.win 5).flush t = true) :
    (dat0 V c).flushed 5 t = ((cfg0.win 5).blk t).view.read (Elt Ideal) (res5 V c) := by
  have hN : cfg0.N = 256 := N_0
  have h3 : t.val = 255 := by have := (flush0_5 t).mp hf; have := t.isLt; omega
  obtain ⟨-, -, -, -, -, -, -, -, -, -, -, -, e0, e1, -⟩ := idx_facts t
  show (cfg0.win 5).cut (grid0.coords t) ((dat0 V c).after 5 t) = _
  rw [after0_5, outsAt_congr V c t.val 255 t.isLt h255 h3]
  refine funext fun (j : S1x64.Idx) => ?_
  obtain ⟨u, o, rfl⟩ : ∃ (u : Fin 1) (o : Fin 64), j = ix2 u o := ⟨j 0, j 1, eq_ix2 j⟩
  have hemb : ((cfg0.win 5).blk t).view.emb (ix2 u o) = ix2 u o := by
    funext a; apply Fin.ext
    match a with
    | ⟨0, _⟩ => show win0_5.index t (0 : Fin 2) * 1 + 1 * u.val = u.val; omega
    | ⟨1, _⟩ => show win0_5.index t (1 : Fin 2) * 64 + 1 * o.val = o.val; omega
  show (outsAt0 V c 255 h255).1 (ix2 u o) = res5 V c (((cfg0.win 5).blk t).view.emb (ix2 u o))
  rw [hemb]

/-- The one write-back of the second row, at the last point, writes it. -/
theorem flushed6_eq (c : Dev nD) (t : Fin cfg0.N) (hf : (cfg0.win 6).flush t = true) :
    (dat0 V c).flushed 6 t = ((cfg0.win 6).blk t).view.read (Elt Ideal) (res6 V c) := by
  have hN : cfg0.N = 256 := N_0
  have h3 : t.val = 255 := by have := (flush0_6 t).mp hf; have := t.isLt; omega
  obtain ⟨-, -, -, -, -, -, -, -, -, -, -, -, -, -, e0, e1⟩ := idx_facts t
  show (cfg0.win 6).cut (grid0.coords t) ((dat0 V c).after 6 t) = _
  rw [after0_6, outsAt_congr V c t.val 255 t.isLt h255 h3]
  refine funext fun (j : S1x64.Idx) => ?_
  obtain ⟨u, o, rfl⟩ : ∃ (u : Fin 1) (o : Fin 64), j = ix2 u o := ⟨j 0, j 1, eq_ix2 j⟩
  have hemb : ((cfg0.win 6).blk t).view.emb (ix2 u o) = ix2 u o := by
    funext a; apply Fin.ext
    match a with
    | ⟨0, _⟩ => show win0_6.index t (0 : Fin 2) * 1 + 1 * u.val = u.val; omega
    | ⟨1, _⟩ => show win0_6.index t (1 : Fin 2) * 64 + 1 * o.val = o.val; omega
  show (outsAt0 V c 255 h255).2 (ix2 u o) = res6 V c (((cfg0.win 6).blk t).view.emb (ix2 u o))
  rw [hemb]

/-- The last point's block of the first result array is the whole array. -/
theorem cover5 (i : S1x64.Idx) :
    ∃ t : Fin cfg0.N, (cfg0.win 5).flush t = true ∧ i ∈ ((cfg0.win 5).blk t).view.set := by
  obtain ⟨-, -, -, -, -, -, -, -, -, -, -, -, e0, e1, -⟩ := idx_facts ⟨255, h255⟩
  have h0 : (i 0).val < 1 := (i 0).isLt
  have h1 : (i 1).val < 64 := (i 1).isLt
  refine ⟨⟨255, h255⟩, (flush0_5 _).mpr rfl, ?_⟩
  show i ∈ ((View.whole main_v4_0).slice (win0_5.rect ⟨255, h255⟩)).set
  rw [View.set_slice_whole, Rect.mem_set_unit]
  intro a
  match a with
  | ⟨0, _⟩ => show win0_5.index ⟨255, h255⟩ (0 : Fin 2) * 1 ≤ (i 0).val ∧ (i 0).val < win0_5.index ⟨255, h255⟩ (0 : Fin 2) * 1 + 1; omega
  | ⟨1, _⟩ => show win0_5.index ⟨255, h255⟩ (1 : Fin 2) * 64 ≤ (i 1).val ∧ (i 1).val < win0_5.index ⟨255, h255⟩ (1 : Fin 2) * 64 + 64; omega

/-- The last point's block of the second result array is the whole array. -/
theorem cover6 (i : S1x64.Idx) :
    ∃ t : Fin cfg0.N, (cfg0.win 6).flush t = true ∧ i ∈ ((cfg0.win 6).blk t).view.set := by
  obtain ⟨-, -, -, -, -, -, -, -, -, -, -, -, -, -, e0, e1⟩ := idx_facts ⟨255, h255⟩
  have h0 : (i 0).val < 1 := (i 0).isLt
  have h1 : (i 1).val < 64 := (i 1).isLt
  refine ⟨⟨255, h255⟩, (flush0_6 _).mpr rfl, ?_⟩
  show i ∈ ((View.whole main_v4_1).slice (win0_6.rect ⟨255, h255⟩)).set
  rw [View.set_slice_whole, Rect.mem_set_unit]
  intro a
  match a with
  | ⟨0, _⟩ => show win0_6.index ⟨255, h255⟩ (0 : Fin 2) * 1 ≤ (i 0).val ∧ (i 0).val < win0_6.index ⟨255, h255⟩ (0 : Fin 2) * 1 + 1; omega
  | ⟨1, _⟩ => show win0_6.index ⟨255, h255⟩ (1 : Fin 2) * 64 ≤ (i 1).val ∧ (i 1).val < win0_6.index ⟨255, h255⟩ (1 : Fin 2) * 64 + 64; omega

theorem final5 (c : Dev nD) : (dat0 V c).arrAt 5 cfg0.N = res5 V c :=
  (dat0 V c).arrAt_eq_of_cover 5 (res5 V c) (flushed5_eq V c) cover5

theorem final6 (c : Dev nD) : (dat0 V c).arrAt 6 cfg0.N = res6 V c :=
  (dat0 V c).arrAt_eq_of_cover 6 (res6 V c) (flushed6_eq V c) cover6

/-- The sum over all 256 points of the block sums is the sum over every ring and point. -/
theorem total5 (c : Dev nD) (o : Fin 64) :
    ∑ t ∈ Finset.range 256, g5 V c o t = ∑ p : Fin 16, ∑ n : Fin 65536, y V c p n o := by
  refine (Fin.sum_univ_eq_sum_range (fun t => g5 V c o t) 256).symm.trans ?_
  refine Eq.trans ?_ (regroup fun p n => y V c p n o)
  refine Finset.sum_congr rfl fun t _ => ?_
  have ht : t.val < cfg0.N := by rw [show cfg0.N = 256 from N_0]; exact t.isLt
  unfold g5; rw [dif_pos ht]
  exact Finset.sum_congr rfl fun r _ => pre4_eq V c ⟨t.val, ht⟩ r o _ _ rfl rfl

/-- The same for the squares. -/
theorem total6 (c : Dev nD) (o : Fin 64) :
    ∑ t ∈ Finset.range 256, g6 V c o t = ∑ p : Fin 16, ∑ n : Fin 65536, y V c p n o * y V c p n o := by
  refine (Fin.sum_univ_eq_sum_range (fun t => g6 V c o t) 256).symm.trans ?_
  refine Eq.trans ?_ (regroup fun p n => y V c p n o * y V c p n o)
  refine Finset.sum_congr rfl fun t _ => ?_
  have ht : t.val < cfg0.N := by rw [show cfg0.N = 256 from N_0]; exact t.isLt
  unfold g6; rw [dif_pos ht]
  refine Finset.sum_congr rfl fun r _ => ?_
  have e := pre4_eq V c ⟨t.val, ht⟩ r o ⟨t.val / 16, by have := t.isLt; omega⟩
    ⟨4096 * (t.val % 16) + r.val, by have := t.isLt; have := r.isLt; omega⟩ rfl rfl
  exact congrArg₂ (· * ·) e e

/-- The first result array after the region: per channel, the sum of the pre-activation over every ring and point. -/
theorem final_sum (c : Dev nD) (o : Fin 64) :
    ((dat0 V c).arrAt 5 cfg0.N : S1x64.Idx → EReal) (ix2 (0 : Fin 1) o) = ∑ p : Fin 16, ∑ n : Fin 65536, y V c p n o :=
  (congrFun (final5 V c) (ix2 (0 : Fin 1) o)).trans (((run_eq V c 0 o 255 h255).1).trans (total5 V c o))

/-- The second result array after the region: per channel, the sum of the squared pre-activation. -/
theorem final_sumsq (c : Dev nD) (o : Fin 64) :
    ((dat0 V c).arrAt 6 cfg0.N : S1x64.Idx → EReal) (ix2 (0 : Fin 1) o) = ∑ p : Fin 16, ∑ n : Fin 65536, y V c p n o * y V c p n o :=
  (congrFun (final6 V c) (ix2 (0 : Fin 1) o)).trans (((run_eq V c 0 o 255 h255).2).trans (total6 V c o))

end Cert.KernelIdeal.KReg0

end
-- ==== Proof.KReg1.lean ====
/-
  The first apply region: what its result array holds when the region is left.

  The grid has 16 x 16 points; point t = 16 p + q reads the block of 4096 points n = 4096 q + r of ring p from the
  three point arrays (the points, their predecessors, their successors), the whole [12, 64] weights, the bias, and one
  scale and one shift per channel, and writes the block of the same place of the result. Every entry of the result
  lies in exactly one point's block, so the result array is ONE function of the arrays the region finds: at (p, n, o)
  the first layer's pre-activation times the scale of channel o plus its shift, clamped at zero.
-/
import proofs.«120732_j28406913696569_2_alg».proof.Proof.Gen.KernelIdeal.Frame
import proofs.«120732_j28406913696569_2_alg».proof.Proof.KPay1
import Idealize.ShloMosaic.Lib.Pipeline.Value
import Idealize.ShloMosaic.Lib.Tactic

set_option maxRecDepth 16384

noncomputable section
open scoped BigOperators

namespace Cert.KernelIdeal.KReg1

open Cert.KernelIdeal Cert.KernelIdeal.Gen Cert.KernelIdeal.KPay
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The first layer's pre-activation of the arrays the region finds, at point (p, n), channel o. -/
def y (c : Dev nD) (p : Fin 16) (n : Fin 65536) (o : Fin 64) : EReal :=
  (∑ k : Fin 12, featPt (fun e => (V c main_arg0 : S16x65536x3.Idx → EReal) (ix3 p n e))
      (fun e => (V c main_v2 : S16x65536x3.Idx → EReal) (ix3 p n e))
      (fun e => (V c main_v3 : S16x65536x3.Idx → EReal) (ix3 p n e)) k * (V c main_v0 : S12x64.Idx → EReal) (ix2 k o))
    + (V c main_arg2 : S64.Idx → EReal) (ix1 o)

/-- The result array as one function of the arrays the region finds. -/
def G (c : Dev nD) : S16x65536x64.Idx → EReal := fun i =>
  max (y V c (i 0) (i 1) (i 2) * (V c main_v16 : S64.Idx → EReal) (ix1 (i 2)) + (V c main_v18 : S64.Idx → EReal) (ix1 (i 2))) 0

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Where each window's block sits at point t: the three point arrays and the result at (t / 16, t % 16, 0), the
    weights, bias, scale and shift at the origin. Decided over the 256 points. -/
theorem idx_facts : ∀ t : Fin cfg1.N,
    win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = t.val % 16 ∧ win1_1.index t (2 : Fin 3) = 0
    ∧ win1_2.index t (0 : Fin 3) = t.val / 16 ∧ win1_2.index t (1 : Fin 3) = t.val % 16 ∧ win1_2.index t (2 : Fin 3) = 0
    ∧ win1_7.index t (0 : Fin 3) = t.val / 16 ∧ win1_7.index t (1 : Fin 3) = t.val % 16 ∧ win1_7.index t (2 : Fin 3) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0 :=
  (by decide +kernel : ∀ t : Fin grid1.N, _)

/-- Every block index (p, q) is some point's. -/
theorem idx_onto : ∀ (p q : Fin 16), ∃ t : Fin cfg1.N, t.val = 16 * p.val + q.val :=
  (by decide +kernel : ∀ (p q : Fin 16), ∃ t : Fin grid1.N, t.val = 16 * p.val + q.val)

/-! ## The windows' blocks, read where they sit -/

theorem blk_x (c : Dev nD) (t : Fin cfg1.N) (r : Fin 4096) (e : Fin 3) (P : Fin 16) (N : Fin 65536)
    (hP : P.val = t.val / 16) (hN : N.val = (t.val % 16) * 4096 + r.val) :
    iblk1 V c 0 t (ix3 (0 : Fin 1) r e) = (V c main_arg0 : S16x65536x3.Idx → EReal) (ix3 P N e) := by
  have hf := idx_facts t
  unfold iblk1
  rw [View.read_apply]
  show (V c main_arg0 : S16x65536x3.Idx → EReal) (((cfg1.win 0).blk t).view.emb (ix3 (0 : Fin 1) r e)) = _
  refine congrArg _ (funext fun a => Fin.ext ?_)
  match a with
  | ⟨0, _⟩ => show win1_0.index t (0 : Fin 3) * 1 + 1 * 0 = P.val; omega
  | ⟨1, _⟩ => show win1_0.index t (1 : Fin 3) * 4096 + 1 * r.val = N.val; omega
  | ⟨2, _⟩ => show win1_0.index t (2 : Fin 3) * 3 + 1 * e.val = e.val; omega

theorem blk_xp (c : Dev nD) (t : Fin cfg1.N) (r : Fin 4096) (e : Fin 3) (P : Fin 16) (N : Fin 65536)
    (hP : P.val = t.val / 16) (hN : N.val = (t.val % 16) * 4096 + r.val) :
    iblk1 V c 1 t (ix3 (0 : Fin 1) r e) = (V c main_v2 : S16x65536x3.Idx → EReal) (ix3 P N e) := by
  have hf := idx_facts t
  unfold iblk1
  rw [View.read_apply]
  show (V c main_v2 : S16x65536x3.Idx → EReal) (((cfg1.win 1).blk t).view.emb (ix3 (0 : Fin 1) r e)) = _
  refine congrArg _ (funext fun a => Fin.ext ?_)
  match a with
  | ⟨0, _⟩ => show win1_1.index t (0 : Fin 3) * 1 + 1 * 0 = P.val; omega
  | ⟨1, _⟩ => show win1_1.index t (1 : Fin 3) * 4096 + 1 * r.val = N.val; omega
  | ⟨2, _⟩ => show win1_1.index t (2 : Fin 3) * 3 + 1 * e.val = e.val; omega

theorem blk_xn (c : Dev nD) (t : Fin cfg1.N) (r : Fin 4096) (e : Fin 3) (P : Fin 16) (N : Fin 65536)
    (hP : P.val = t.val / 16) (hN : N.val = (t.val % 16) * 4096 + r.val) :
    iblk1 V c 2 t (ix3 (0 : Fin 1) r e) = (V c main_v3 : S16x65536x3.Idx → EReal) (ix3 P N e) := by
  have hf := idx_facts t
  unfold iblk1
  rw [View.read_apply]
  show (V c main_v3 : S16x65536x3.Idx → EReal) (((cfg1.win 2).blk t).view.emb (ix3 (0 : Fin 1) r e)) = _
  refine congrArg _ (funext fun a => Fin.ext ?_)
  match a with
  | ⟨0, _⟩ => show win1_2.index t (0 : Fin 3) * 1 + 1 * 0 = P.val; omega
  | ⟨1, _⟩ => show win1_2.index t (1 : Fin 3) * 4096 + 1 * r.val = N.val; omega
  | ⟨2, _⟩ => show win1_2.index t (2 : Fin 3) * 3 + 1 * e.val = e.val; omega

theorem blk_w (c : Dev nD) (t : Fin cfg1.N) (k : Fin 12) (o : Fin 64) :
    iblk1 V c 3 t (ix2 k o) = (V c main_v0 : S12x64.Idx → EReal) (ix2 k o) := by
  have hf := idx_facts t
  unfold iblk1
  rw [View.read_apply]
  show (V c main_v0 : S12x64.Idx → EReal) (((cfg1.win 3).blk t).view.emb (ix2 k o)) = _
  refine congrArg _ (funext fun a => Fin.ext ?_)
  match a with
  | ⟨0, _⟩ => show win1_3.index t (0 : Fin 2) * 12 + 1 * k.val = k.val; omega
  | ⟨1, _⟩ => show win1_3.index t (1 : Fin 2) * 64 + 1 * o.val = o.val; omega

theorem blk_b (c : Dev nD) (t : Fin cfg1.N) (o : Fin 64) :
    iblk1 V c 4 t (ix1 o) = (V c main_arg2 : S64.Idx → EReal) (ix1 o) := by
  have hf := idx_facts t
  unfold iblk1
  rw [View.read_apply]
  show (V c main_arg2 : S64.Idx → EReal) (((cfg1.win 4).blk t).view.emb (ix1 o)) = _
  refine congrArg _ (funext fun a => Fin.ext ?_)
  match a with
  | ⟨0, _⟩ => show win1_4.index t (0 : Fin 1) * 64 + 1 * o.val = o.val; omega

theorem blk_sc (c : Dev nD) (t : Fin cfg1.N) (o : Fin 64) :
    iblk1 V c 5 t (ix1 o) = (V c main_v16 : S64.Idx → EReal) (ix1 o) := by
  have hf := idx_facts t
  unfold iblk1
  rw [View.read_apply]
  show (V c main_v16 : S64.Idx → EReal) (((cfg1.win 5).blk t).view.emb (ix1 o)) = _
  refine congrArg _ (funext fun a => Fin.ext ?_)
  match a with
  | ⟨0, _⟩ => show win1_5.index t (0 : Fin 1) * 64 + 1 * o.val = o.val; omega

theorem blk_sh (c : Dev nD) (t : Fin cfg1.N) (o : Fin 64) :
    iblk1 V c 6 t (ix1 o) = (V c main_v18 : S64.Idx → EReal) (ix1 o) := by
  have hf := idx_facts t
  unfold iblk1
  rw [View.read_apply]
  show (V c main_v18 : S64.Idx → EReal) (((cfg1.win 6).blk t).view.emb (ix1 o)) = _
  refine congrArg _ (funext fun a => Fin.ext ?_)
  match a with
  | ⟨0, _⟩ => show win1_6.index t (0 : Fin 1) * 64 + 1 * o.val = o.val; omega

/-- The result's block at point t sits at (t / 16, 4096 (t % 16) + r, o). -/
theorem emb_out (t : Fin cfg1.N) (r : Fin 4096) (o : Fin 64) (P : Fin 16) (N : Fin 65536)
    (hP : P.val = t.val / 16) (hN : N.val = (t.val % 16) * 4096 + r.val) :
    (((cfg1.win 7).blk t).view.emb (ix3 (0 : Fin 1) r o) : S16x65536x64.Idx) = ix3 P N o := by
  have hf := idx_facts t
  funext a; apply Fin.ext
  match a with
  | ⟨0, _⟩ => show win1_7.index t (0 : Fin 3) * 1 + 1 * 0 = P.val; omega
  | ⟨1, _⟩ => show win1_7.index t (1 : Fin 3) * 4096 + 1 * r.val = N.val; omega
  | ⟨2, _⟩ => show win1_7.index t (2 : Fin 3) * 64 + 1 * o.val = o.val; omega

/-! ## What a point writes back, and the array -/

/-- What point t writes back is its block of `G`. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz3]
  simp only [View.ld_unit_zero (S := S1x4096x3) hz3, View.ld_unit_zero (S := S12x64) hz2, View.ld_unit_zero (S := S64) hz1]
  funext j
  obtain ⟨u, r, o, rfl⟩ : ∃ (u : Fin 1) (r : Fin 4096) (o : Fin 64), j = ix3 u r o := ⟨j 0, j 1, j 2, eq_ix3 j⟩
  obtain rfl : u = 0 := Subsingleton.elim _ _
  have hN : cfg1.N = 256 := N_1
  have ht : t.val < 256 := hN ▸ t.isLt
  let P : Fin 16 := ⟨t.val / 16, by omega⟩
  let N : Fin 65536 := ⟨(t.val % 16) * 4096 + r.val, by have := r.isLt; omega⟩
  show k1_pay1 (iblk1 V c 0 t) (iblk1 V c 1 t) (iblk1 V c 2 t) (iblk1 V c 3 t) (iblk1 V c 4 t) (iblk1 V c 5 t) (iblk1 V c 6 t) (ix3 (0 : Fin 1) r o)
      = G V c (((cfg1.win 7).blk t).view.emb (ix3 (0 : Fin 1) r o))
  rw [emb_out t r o P N rfl rfl]
  refine (store1_apply _ _ _ _ _ _ _ r o).trans ?_
  show max (_ * _ + _) 0 = max (y V c P N o * _ + _) 0
  rw [blk_sc V c t o, blk_sh V c t o]
  refine congrArg (fun z => max (z * _ + _) 0) ?_
  refine (y1_apply _ _ _ _ _ r o).trans ?_
  unfold y
  rw [blk_b V c t o]
  refine congrArg (· + _) (Finset.sum_congr rfl fun k _ => ?_)
  rw [blk_w V c t k o]
  have e0 : (fun e : Fin 3 => iblk1 V c 0 t (ix3 (0 : Fin 1) r e)) = fun e => (V c main_arg0 : S16x65536x3.Idx → EReal) (ix3 P N e) :=
    funext fun e => blk_x V c t r e P N rfl rfl
  have e1 : (fun e : Fin 3 => iblk1 V c 1 t (ix3 (0 : Fin 1) r e)) = fun e => (V c main_v2 : S16x65536x3.Idx → EReal) (ix3 P N e) :=
    funext fun e => blk_xp V c t r e P N rfl rfl
  have e2 : (fun e : Fin 3 => iblk1 V c 2 t (ix3 (0 : Fin 1) r e)) = fun e => (V c main_v3 : S16x65536x3.Idx → EReal) (ix3 P N e) :=
    funext fun e => blk_xn V c t r e P N rfl rfl
  rw [e0, e1, e2]

/-- An entry is in point t's block iff each coordinate is in the block's range on its axis. -/
theorem mem_blk (t : Fin cfg1.N) (i : S16x65536x64.Idx) :
    i ∈ ((cfg1.win 7).blk t).view.set ↔ ∀ a : Fin 3, win1_7.index t a * S1x4096x64.size a ≤ (i a).val
      ∧ (i a).val < win1_7.index t a * S1x4096x64.size a + S1x4096x64.size a := by
  show i ∈ ((View.whole main_v19).slice (win1_7.rect t)).set ↔ _
  rw [View.set_slice_whole, Rect.mem_set_unit]
  exact Iff.rfl

/-- Every entry (p, n, o) of the result lies in the block of point 16 p + n / 4096, which is written back. -/
theorem cover (i : S16x65536x64.Idx) :
    ∃ t : Fin cfg1.N, (cfg1.win 7).flush t = true ∧ i ∈ ((cfg1.win 7).blk t).view.set := by
  have h0 : (i 0).val < 16 := (i 0).isLt
  have h1 : (i 1).val < 65536 := (i 1).isLt
  have h2 : (i 2).val < 64 := (i 2).isLt
  obtain ⟨t, ht⟩ := idx_onto ⟨(i 0).val, h0⟩ ⟨(i 1).val / 4096, by omega⟩
  have ht' : t.val = 16 * (i 0).val + (i 1).val / 4096 := ht
  have hf := idx_facts t
  refine ⟨t, flush1_7 t, ?_⟩
  rw [mem_blk]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 4096 ≤ (i 1).val ∧ (i 1).val < win1_7.index t (1 : Fin 3) * 4096 + 4096; omega
  | ⟨2, _⟩ => show win1_7.index t (2 : Fin 3) * 64 ≤ (i 2).val ∧ (i 2).val < win1_7.index t (2 : Fin 3) * 64 + 64; omega

/-- The result array when the region is left. -/
theorem final_arr (c : Dev nD) : (dat1 V c).arrAt 7 cfg1.N = G V c :=
  (dat1 V c).arrAt_eq_of_cover 7 (G V c) (fun t _ => flushed_eq V c t) cover

/-- The same, entry by entry. -/
theorem final (c : Dev nD) (p : Fin 16) (n : Fin 65536) (o : Fin 64) :
    Cert.BNSpec.cur3 ((dat1 V c).arrAt 7 cfg1.N) p n o
      = max (y V c p n o * Cert.BNSpec.cur1 (V c main_v16) o + Cert.BNSpec.cur1 (V c main_v18) o) 0 := by
  rw [final_arr]; rfl

end Cert.KernelIdeal.KReg1

end
-- ==== Proof.KHost.lean ====
import proofs.«120732_j28406913696569_2_alg».proof.Proof.Gen.KernelIdeal.Launch
import proofs.«120732_j28406913696569_2_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.Lib.Tactic

/-!
# What the host stretches between the regions compute

Between its four regions the program runs short stretches of array operations.

* Two transposes: the two weight matrices with rows and columns exchanged.
* Two ring rolls: the array of points with each ring rolled by one place, forward
  (the last point first) and backward (the first point last), each built as a
  concatenation of two slices.
* Twice, a stretch that turns a row of channel sums \(S\) and a row of channel sums of
  squares \(Q\) into a per-channel scale and shift of a folded batch normalisation:
  mean \(= S / c\), variance \(= Q / c - \text{mean}\cdot\text{mean}\),
  scale \(= g \cdot (\text{variance} + \varepsilon)^{-1/2}\),
  shift \(= \beta - \text{mean}\cdot\text{scale}\), in exactly this order of operations,
  with \(c\) the number of points and \(\varepsilon\) the small constant of the
  specification.

Each statement reads one array after a stretch, from arbitrary contents before it, as
that mathematics; the last part records which arrays a stretch leaves untouched.
-/

noncomputable section

namespace Cert.KernelIdeal.KHost

open Cert.KernelIdeal Cert.KernelIdeal.Gen Idealize.ShloMosaic Idealize.ShloMosaic.ValueIdx Cert.BNSpec

/-! ### The folded normalisation's per-channel numbers -/

/-- The mean of a channel from its sum. -/
def meanK (S : Fin 64 → EReal) (o : Fin 64) : EReal := Ideal.div (S o) cnt
/-- The variance of a channel from its sum and its sum of squares: mean of squares minus
    square of the mean. -/
def varK (S Q : Fin 64 → EReal) (o : Fin 64) : EReal := Ideal.div (Q o) cnt - meanK S o * meanK S o
/-- The scale of a channel: gain times the inverse root of variance plus the small constant. -/
def scaleK (S Q g : Fin 64 → EReal) (o : Fin 64) : EReal := g o * Ideal.rsqrt (varK S Q o + eps)
/-- The shift of a channel: offset minus mean times scale. -/
def shiftK (S Q g β : Fin 64 → EReal) (o : Fin 64) : EReal := β o - meanK S o * scaleK S Q g o

/-! ### The rolled rings -/

/-- Each ring rolled forward by one: its last point, then its first 65535. -/
def rollP (X : FVec Ideal S16x65536x3 .f32) : FVec Ideal S16x65536x3 .f32 :=
  concatenate S16x65536x3 1 [⟨S16x1x3, extractStridedSlice S16x1x3 ![0, 65535, 0] X slices_S16x65536x3_S16x1x3_0_65535_0⟩, ⟨S16x65535x3, extractStridedSlice S16x65535x3 ![0, 0, 0] X slices_S16x65536x3_S16x65535x3_0_0_0⟩] concatenates_S16x1x3_S16x65535x3_S16x65536x3_d1

/-- Each ring rolled backward by one: its points 1 to 65535, then point 0. -/
def rollN (X : FVec Ideal S16x65536x3 .f32) : FVec Ideal S16x65536x3 .f32 :=
  concatenate S16x65536x3 1 [⟨S16x65535x3, extractStridedSlice S16x65535x3 ![0, 1, 0] X slices_S16x65536x3_S16x65535x3_0_1_0⟩, ⟨S16x1x3, extractStridedSlice S16x1x3 ![0, 0, 0] X slices_S16x65536x3_S16x1x3_0_0_0⟩] concatenates_S16x65535x3_S16x1x3_S16x65536x3_d1

/-! ### The scale and the shift as array terms, read at a channel -/

/-- The array term of the scale, read at channel \(o\), is the scale of the rows' entries. -/
theorem scale_term (S Q : FVec Ideal S1x64 .f32) (g : FVec Ideal S64 .f32) (o : Fin 64) :
    mulf g (Host.rsqrt (addf
        (subf (Host.divf (shapeCast S64 Q shapeCasts_S1x64_S64) (broadcastInDim S64 ![] bcast_S_S64 (constant (F := Ideal) S_ .f32 0x49800000#32)))
          (mulf (Host.divf (shapeCast S64 S shapeCasts_S1x64_S64) (broadcastInDim S64 ![] bcast_S_S64 (constant (F := Ideal) S_ .f32 0x49800000#32)))
                (Host.divf (shapeCast S64 S shapeCasts_S1x64_S64) (broadcastInDim S64 ![] bcast_S_S64 (constant (F := Ideal) S_ .f32 0x49800000#32)))))
        (broadcastInDim S64 ![] bcast_S_S64 (constant (F := Ideal) S_ .f32 0x3727C5AC#32)))) (ix1 o)
      = scaleK (fun o => S (ix2 (0 : Fin 1) o)) (fun o => Q (ix2 (0 : Fin 1) o)) (fun o => g (ix1 o)) o := by
  show g (ix1 o) * Ideal.rsqrt ((Ideal.div (shapeCast S64 Q shapeCasts_S1x64_S64 (ix1 o)) cnt
      - Ideal.div (shapeCast S64 S shapeCasts_S1x64_S64 (ix1 o)) cnt * Ideal.div (shapeCast S64 S shapeCasts_S1x64_S64 (ix1 o)) cnt) + eps) = _
  rw [shapeCast_1a_a_apply, shapeCast_1a_a_apply]
  rfl

/-- The array term of the shift, read at channel \(o\), is the shift of the rows' entries. -/
theorem shift_term (S Q : FVec Ideal S1x64 .f32) (g β : FVec Ideal S64 .f32) (o : Fin 64) :
    subf β (mulf (Host.divf (shapeCast S64 S shapeCasts_S1x64_S64) (broadcastInDim S64 ![] bcast_S_S64 (constant (F := Ideal) S_ .f32 0x49800000#32)))
      (mulf g (Host.rsqrt (addf
        (subf (Host.divf (shapeCast S64 Q shapeCasts_S1x64_S64) (broadcastInDim S64 ![] bcast_S_S64 (constant (F := Ideal) S_ .f32 0x49800000#32)))
          (mulf (Host.divf (shapeCast S64 S shapeCasts_S1x64_S64) (broadcastInDim S64 ![] bcast_S_S64 (constant (F := Ideal) S_ .f32 0x49800000#32)))
                (Host.divf (shapeCast S64 S shapeCasts_S1x64_S64) (broadcastInDim S64 ![] bcast_S_S64 (constant (F := Ideal) S_ .f32 0x49800000#32)))))
        (broadcastInDim S64 ![] bcast_S_S64 (constant (F := Ideal) S_ .f32 0x3727C5AC#32)))))) (ix1 o)
      = shiftK (fun o => S (ix2 (0 : Fin 1) o)) (fun o => Q (ix2 (0 : Fin 1) o)) (fun o => g (ix1 o)) (fun o => β (ix1 o)) o := by
  show β (ix1 o) - Ideal.div (shapeCast S64 S shapeCasts_S1x64_S64 (ix1 o)) cnt
      * (g (ix1 o) * Ideal.rsqrt ((Ideal.div (shapeCast S64 Q shapeCasts_S1x64_S64 (ix1 o)) cnt
      - Ideal.div (shapeCast S64 S shapeCasts_S1x64_S64 (ix1 o)) cnt * Ideal.div (shapeCast S64 S shapeCasts_S1x64_S64 (ix1 o)) cnt) + eps)) = _
  rw [shapeCast_1a_a_apply, shapeCast_1a_a_apply]
  rfl

variable (W : Valuation τ sig (Elt Ideal))

/-! ### The transposes -/

/-- After the transposes, the first weight matrix is read with its coordinates exchanged. -/
theorem v0_apply (k : Fin 12) (o : Fin 64) :
    (StableHlo.after (hostOps0 (F := Ideal)) W (Proc.devRef .tc main_v0) : S12x64.Idx → EReal) (ix2 k o)
      = (W (Proc.devRef .tc main_arg1) : S64x12.Idx → EReal) (ix2 o k) := by
  have e : (StableHlo.after (hostOps0 (F := Ideal)) W (Proc.devRef .tc main_v0) : S12x64.Idx → EReal)
      = transpose S12x64 [1, 0] (W (Proc.devRef .tc main_arg1) : S64x12.Idx → EReal) transposes_S64x12_S12x64_1_0 := by
    after_results
  rw [e]
  exact transpose_ix2_apply _ _ k o

/-- After the transposes, the second weight matrix is read with its coordinates exchanged. -/
theorem v1_apply (k o : Fin 64) :
    (StableHlo.after (hostOps0 (F := Ideal)) W (Proc.devRef .tc main_v1) : S64x64.Idx → EReal) (ix2 k o)
      = (W (Proc.devRef .tc main_arg5) : S64x64.Idx → EReal) (ix2 o k) := by
  have e : (StableHlo.after (hostOps0 (F := Ideal)) W (Proc.devRef .tc main_v1) : S64x64.Idx → EReal)
      = transpose S64x64 [1, 0] (W (Proc.devRef .tc main_arg5) : S64x64.Idx → EReal) transposes_S64x64_S64x64_1_0 := by
    after_results
  rw [e]
  exact transpose_ix2_apply _ _ k o

/-! ### The rolls -/

/-- After the first roll stretch, its result is the array of points rolled forward. -/
theorem v2_eq :
    (StableHlo.after (hostOps0_1 (F := Ideal)) W (Proc.devRef .tc main_v2) : S16x65536x3.Idx → EReal)
      = rollP (W (Proc.devRef .tc main_arg0) : S16x65536x3.Idx → EReal) := by
  after_results; rfl

/-- After the second roll stretch, its result is the array of points rolled backward. -/
theorem v3_eq :
    (StableHlo.after (hostOps0_2 (F := Ideal)) W (Proc.devRef .tc main_v3) : S16x65536x3.Idx → EReal)
      = rollN (W (Proc.devRef .tc main_arg0) : S16x65536x3.Idx → EReal) := by
  after_results; rfl

/-! ### Scale and shift of the two layers -/

/-- First layer: the scale array at channel \(o\). -/
theorem scale1_apply (o : Fin 64) :
    (StableHlo.after (hostOps1 (F := Ideal)) W (Proc.devRef .tc main_v16) : S64.Idx → EReal) (ix1 o)
      = scaleK (fun o => (W (Proc.devRef .tc main_v4_0) : S1x64.Idx → EReal) (ix2 (0 : Fin 1) o))
               (fun o => (W (Proc.devRef .tc main_v4_1) : S1x64.Idx → EReal) (ix2 (0 : Fin 1) o))
               (fun o => (W (Proc.devRef .tc main_arg3) : S64.Idx → EReal) (ix1 o)) o := by
  after_results
  exact scale_term _ _ _ o

/-- First layer: the shift array at channel \(o\). -/
theorem shift1_apply (o : Fin 64) :
    (StableHlo.after (hostOps1 (F := Ideal)) W (Proc.devRef .tc main_v18) : S64.Idx → EReal) (ix1 o)
      = shiftK (fun o => (W (Proc.devRef .tc main_v4_0) : S1x64.Idx → EReal) (ix2 (0 : Fin 1) o))
               (fun o => (W (Proc.devRef .tc main_v4_1) : S1x64.Idx → EReal) (ix2 (0 : Fin 1) o))
               (fun o => (W (Proc.devRef .tc main_arg3) : S64.Idx → EReal) (ix1 o))
               (fun o => (W (Proc.devRef .tc main_arg4) : S64.Idx → EReal) (ix1 o)) o := by
  after_results_simp
  exact shift_term _ _ _ _ o

/-- Second layer: the scale array at channel \(o\). -/
theorem scale3_apply (o : Fin 64) :
    (StableHlo.after (hostOps3 (F := Ideal)) W (Proc.devRef .tc main_v32) : S64.Idx → EReal) (ix1 o)
      = scaleK (fun o => (W (Proc.devRef .tc main_v20_0) : S1x64.Idx → EReal) (ix2 (0 : Fin 1) o))
               (fun o => (W (Proc.devRef .tc main_v20_1) : S1x64.Idx → EReal) (ix2 (0 : Fin 1) o))
               (fun o => (W (Proc.devRef .tc main_arg7) : S64.Idx → EReal) (ix1 o)) o := by
  after_results
  exact scale_term _ _ _ o

/-- Second layer: the shift array at channel \(o\). -/
theorem shift3_apply (o : Fin 64) :
    (StableHlo.after (hostOps3 (F := Ideal)) W (Proc.devRef .tc main_v34) : S64.Idx → EReal) (ix1 o)
      = shiftK (fun o => (W (Proc.devRef .tc main_v20_0) : S1x64.Idx → EReal) (ix2 (0 : Fin 1) o))
               (fun o => (W (Proc.devRef .tc main_v20_1) : S1x64.Idx → EReal) (ix2 (0 : Fin 1) o))
               (fun o => (W (Proc.devRef .tc main_arg7) : S64.Idx → EReal) (ix1 o))
               (fun o => (W (Proc.devRef .tc main_arg8) : S64.Idx → EReal) (ix1 o)) o := by
  after_results_simp
  exact shift_term _ _ _ _ o

end Cert.KernelIdeal.KHost

end
-- ==== Proof.KWalk.lean ====
/-
  Which buffer holds what when each region, and each stretch of host operations between regions, is entered.

  The program is a chain: two transposes, two ring rolls, the first statistics region, seventeen host operations that
  turn its two rows of sums into a scale and a shift, the first apply region, the second statistics region, seventeen
  host operations again, the second apply region. A buffer that a stretch does not write, and that a region does not
  write back, holds at the next boundary what it held at the previous one; so every argument array still holds its
  launch contents wherever it is read, the transposed weights and the rolled copies hold what the first stretches
  computed, and the first apply region's result is what both later regions read.
-/
import proofs.«120732_j28406913696569_2_alg».proof.Proof.Gen.KernelIdeal.Frame

set_option maxRecDepth 16384

noncomputable section

namespace Cert.KernelIdeal.KWalk

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A stretch of host operations leaves a buffer none of its operations writes as it found it. -/
macro "not_written" : tactic => `(tactic| (
  refine StableHlo.after_of_forall_not_mem _ _ (List.forall_iff_forall_mem.mp ?_)
  simp only [hostOps0, hostOps0_1, hostOps0_2, hostOps1, hostOps3, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (c : Dev nD)

/-! ## Through the first three stretches (transposes, rolls) -/

theorem W1_arg0 : W1 m ρ c (Proc.devRef .tc main_arg0) = m ((c : Thread nD τ).loc main_arg0) :=
  (show W1 m ρ c (Proc.devRef .tc main_arg0) = W0 m ρ c (Proc.devRef .tc main_arg0) from by not_written).trans rfl
theorem W2_arg0 : W2 m ρ c (Proc.devRef .tc main_arg0) = m ((c : Thread nD τ).loc main_arg0) :=
  (show W2 m ρ c (Proc.devRef .tc main_arg0) = W1 m ρ c (Proc.devRef .tc main_arg0) from by not_written).trans (W1_arg0 m ρ c)
theorem W3_arg0 : W3 m ρ c (Proc.devRef .tc main_arg0) = m ((c : Thread nD τ).loc main_arg0) :=
  (show W3 m ρ c (Proc.devRef .tc main_arg0) = W2 m ρ c (Proc.devRef .tc main_arg0) from by not_written).trans (W2_arg0 m ρ c)

theorem W3_arg2 : W3 m ρ c (Proc.devRef .tc main_arg2) = m ((c : Thread nD τ).loc main_arg2) :=
  calc W3 m ρ c (Proc.devRef .tc main_arg2)
    _ = W2 m ρ c (Proc.devRef .tc main_arg2) := by not_written
    _ = W1 m ρ c (Proc.devRef .tc main_arg2) := by not_written
    _ = W0 m ρ c (Proc.devRef .tc main_arg2) := by not_written
    _ = m ((c : Thread nD τ).loc main_arg2) := rfl
theorem W3_arg3 : W3 m ρ c (Proc.devRef .tc main_arg3) = m ((c : Thread nD τ).loc main_arg3) :=
  calc W3 m ρ c (Proc.devRef .tc main_arg3)
    _ = W2 m ρ c (Proc.devRef .tc main_arg3) := by not_written
    _ = W1 m ρ c (Proc.devRef .tc main_arg3) := by not_written
    _ = W0 m ρ c (Proc.devRef .tc main_arg3) := by not_written
    _ = m ((c : Thread nD τ).loc main_arg3) := rfl
theorem W3_arg4 : W3 m ρ c (Proc.devRef .tc main_arg4) = m ((c : Thread nD τ).loc main_arg4) :=
  calc W3 m ρ c (Proc.devRef .tc main_arg4)
    _ = W2 m ρ c (Proc.devRef .tc main_arg4) := by not_written
    _ = W1 m ρ c (Proc.devRef .tc main_arg4) := by not_written
    _ = W0 m ρ c (Proc.devRef .tc main_arg4) := by not_written
    _ = m ((c : Thread nD τ).loc main_arg4) := rfl
theorem W3_arg6 : W3 m ρ c (Proc.devRef .tc main_arg6) = m ((c : Thread nD τ).loc main_arg6) :=
  calc W3 m ρ c (Proc.devRef .tc main_arg6)
    _ = W2 m ρ c (Proc.devRef .tc main_arg6) := by not_written
    _ = W1 m ρ c (Proc.devRef .tc main_arg6) := by not_written
    _ = W0 m ρ c (Proc.devRef .tc main_arg6) := by not_written
    _ = m ((c : Thread nD τ).loc main_arg6) := rfl
theorem W3_arg7 : W3 m ρ c (Proc.devRef .tc main_arg7) = m ((c : Thread nD τ).loc main_arg7) :=
  calc W3 m ρ c (Proc.devRef .tc main_arg7)
    _ = W2 m ρ c (Proc.devRef .tc main_arg7) := by not_written
    _ = W1 m ρ c (Proc.devRef .tc main_arg7) := by not_written
    _ = W0 m ρ c (Proc.devRef .tc main_arg7) := by not_written
    _ = m ((c : Thread nD τ).loc main_arg7) := rfl
theorem W3_arg8 : W3 m ρ c (Proc.devRef .tc main_arg8) = m ((c : Thread nD τ).loc main_arg8) :=
  calc W3 m ρ c (Proc.devRef .tc main_arg8)
    _ = W2 m ρ c (Proc.devRef .tc main_arg8) := by not_written
    _ = W1 m ρ c (Proc.devRef .tc main_arg8) := by not_written
    _ = W0 m ρ c (Proc.devRef .tc main_arg8) := by not_written
    _ = m ((c : Thread nD τ).loc main_arg8) := rfl

/-- The transposed first-layer weights reach the first region as the first stretch left them. -/
theorem W3_v0 : W3 m ρ c (Proc.devRef .tc main_v0) = W1 m ρ c (Proc.devRef .tc main_v0) :=
  calc W3 m ρ c (Proc.devRef .tc main_v0)
    _ = W2 m ρ c (Proc.devRef .tc main_v0) := by not_written
    _ = W1 m ρ c (Proc.devRef .tc main_v0) := by not_written
/-- The transposed second-layer weights likewise. -/
theorem W3_v1 : W3 m ρ c (Proc.devRef .tc main_v1) = W1 m ρ c (Proc.devRef .tc main_v1) :=
  calc W3 m ρ c (Proc.devRef .tc main_v1)
    _ = W2 m ρ c (Proc.devRef .tc main_v1) := by not_written
    _ = W1 m ρ c (Proc.devRef .tc main_v1) := by not_written
/-- The predecessor copy reaches the first region as the second stretch left it. -/
theorem W3_v2 : W3 m ρ c (Proc.devRef .tc main_v2) = W2 m ρ c (Proc.devRef .tc main_v2) := by not_written

/-! ## Across the first statistics region and the stretch after it -/

/-- An array the first statistics region only reads is unchanged by it. -/
theorem W4_in (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))

theorem W5_arg0 : W5 m ρ c (Proc.devRef .tc main_arg0) = W3 m ρ c (Proc.devRef .tc main_arg0) :=
  (show W5 m ρ c (Proc.devRef .tc main_arg0) = W4 m ρ c (Proc.devRef .tc main_arg0) from by not_written).trans (W4_in m ρ c 0 rfl)
theorem W5_v2 : W5 m ρ c (Proc.devRef .tc main_v2) = W3 m ρ c (Proc.devRef .tc main_v2) :=
  (show W5 m ρ c (Proc.devRef .tc main_v2) = W4 m ρ c (Proc.devRef .tc main_v2) from by not_written).trans (W4_in m ρ c 1 rfl)
theorem W5_v3 : W5 m ρ c (Proc.devRef .tc main_v3) = W3 m ρ c (Proc.devRef .tc main_v3) :=
  (show W5 m ρ c (Proc.devRef .tc main_v3) = W4 m ρ c (Proc.devRef .tc main_v3) from by not_written).trans (W4_in m ρ c 2 rfl)
theorem W5_v0 : W5 m ρ c (Proc.devRef .tc main_v0) = W3 m ρ c (Proc.devRef .tc main_v0) :=
  (show W5 m ρ c (Proc.devRef .tc main_v0) = W4 m ρ c (Proc.devRef .tc main_v0) from by not_written).trans (W4_in m ρ c 3 rfl)
theorem W5_arg2 : W5 m ρ c (Proc.devRef .tc main_arg2) = W3 m ρ c (Proc.devRef .tc main_arg2) :=
  (show W5 m ρ c (Proc.devRef .tc main_arg2) = W4 m ρ c (Proc.devRef .tc main_arg2) from by not_written).trans (W4_in m ρ c 4 rfl)

theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)

/-! ## Across the first apply region, the second statistics region and the stretch after it -/

/-- An array the first apply region only reads is unchanged by it. -/
theorem W6_in (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
/-- An array the second statistics region only reads is unchanged by it. -/
theorem W7_in (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hw _).trans (A_eq2 (V6 m ρ) c w))

theorem W6_v1 : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by not_written
    _ = W3 m ρ c (Proc.devRef .tc main_v1) := W4_of_ne m ρ c main_v1 (by decide)
    _ = W1 m ρ c (Proc.devRef .tc main_v1) := W3_v1 m ρ c

theorem W6_arg6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by not_written
    _ = W3 m ρ c (Proc.devRef .tc main_arg6) := W4_of_ne m ρ c main_arg6 (by decide)
    _ = m ((c : Thread nD τ).loc main_arg6) := W3_arg6 m ρ c
theorem W6_arg7 : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by not_written
    _ = W3 m ρ c (Proc.devRef .tc main_arg7) := W4_of_ne m ρ c main_arg7 (by decide)
    _ = m ((c : Thread nD τ).loc main_arg7) := W3_arg7 m ρ c
theorem W6_arg8 : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by not_written
    _ = W3 m ρ c (Proc.devRef .tc main_arg8) := W4_of_ne m ρ c main_arg8 (by decide)
    _ = m ((c : Thread nD τ).loc main_arg8) := W3_arg8 m ρ c

theorem W7_arg7 : W7 m ρ c (Proc.devRef .tc main_arg7) = m ((c : Thread nD τ).loc main_arg7) :=
  (W7_of_ne m ρ c main_arg7 (by decide)).trans (W6_arg7 m ρ c)
theorem W7_arg8 : W7 m ρ c (Proc.devRef .tc main_arg8) = m ((c : Thread nD τ).loc main_arg8) :=
  (W7_of_ne m ρ c main_arg8 (by decide)).trans (W6_arg8 m ρ c)

theorem W8_v19 : W8 m ρ c (Proc.devRef .tc main_v19) = W6 m ρ c (Proc.devRef .tc main_v19) :=
  (show W8 m ρ c (Proc.devRef .tc main_v19) = W7 m ρ c (Proc.devRef .tc main_v19) from by not_written).trans (W7_in m ρ c 0 rfl)
theorem W8_v1 : W8 m ρ c (Proc.devRef .tc main_v1) = W6 m ρ c (Proc.devRef .tc main_v1) :=
  (show W8 m ρ c (Proc.devRef .tc main_v1) = W7 m ρ c (Proc.devRef .tc main_v1) from by not_written).trans (W7_in m ρ c 1 rfl)
theorem W8_arg6 : W8 m ρ c (Proc.devRef .tc main_arg6) = W6 m ρ c (Proc.devRef .tc main_arg6) :=
  (show W8 m ρ c (Proc.devRef .tc main_arg6) = W7 m ρ c (Proc.devRef .tc main_arg6) from by not_written).trans (W7_in m ρ c 2 rfl)

end Cert.KernelIdeal.KWalk

end
-- ==== Proof.KChainA.lean ====
/-
  The first layer of the kernel program, boundary by boundary, in the specification's words.

  Write X for the array of points as launched, Xp and Xn for its two rolled copies, W1 and b1 for the first layer's
  weights and bias. Wherever a region reads them, the point arrays hold X, Xp, Xn; the weights are held transposed, so
  entry (k, o) of the buffer is entry (o, k) of W1; the bias buffer holds b1. So the pre-activation both first-layer
  regions compute at (p, n, o) is the specification's: the sum over the twelve features of (p, n) times row o of W1,
  plus b1 o.
-/
import proofs.«120732_j28406913696569_2_alg».proof.Proof.KReg1
import proofs.«120732_j28406913696569_2_alg».proof.Proof.KHost
import proofs.«120732_j28406913696569_2_alg».proof.Proof.KWalk

set_option maxRecDepth 16384

noncomputable section
open scoped BigOperators

namespace Cert.KernelIdeal.KChain

open Cert.KernelIdeal Cert.KernelIdeal.Gen Cert.KernelIdeal.KPay Cert.BNSpec
open Idealize.ShloMosaic Idealize.ShloMosaic.ValueIdx Idealize.ShloMosaic.TcCoe Idealize.SL.Sem

/-- The pre-activation a first-layer region computes, when the arrays it finds are the points, their rolled copies,
    the transposed weights and the bias. -/
theorem y_of (V : (c : Dev nD) → (b : Ref sig .tc) → Buf (Elt Ideal) ((c : Thread nD τ).loc b)) (c : Dev nD)
    (X Xp Xn : S16x65536x3.Idx → EReal) (W1 : S64x12.Idx → EReal) (b1 : S64.Idx → EReal)
    (hx : (V c main_arg0 : S16x65536x3.Idx → EReal) = X) (hxp : (V c main_v2 : S16x65536x3.Idx → EReal) = Xp)
    (hxn : (V c main_v3 : S16x65536x3.Idx → EReal) = Xn)
    (hw : ∀ (k : Fin 12) (o : Fin 64), (V c main_v0 : S12x64.Idx → EReal) (ix2 k o) = W1 (ix2 o k))
    (hb : (V c main_arg2 : S64.Idx → EReal) = b1) (p : Fin 16) (n : Fin 65536) (o : Fin 64) :
    KReg1.y V c p n o = pre (feat (cur3 X) (cur3 Xp) (cur3 Xn)) (cur2 W1) (cur1 b1) p n o := by
  unfold KReg1.y pre
  rw [hx, hxp, hxn, hb]
  refine congrArg (· + _) (Finset.sum_congr rfl fun k _ => ?_)
  rw [hw k o]
  rfl

variable (m : (ℓ : Loc nD τ sig) → Buf (Elt Ideal) ℓ) (ρ : Dev nD → PrngReg) (c : Dev nD)

/-- The points as launched. -/
abbrev aX : S16x65536x3.Idx → EReal := m ((c : Thread nD τ).loc main_arg0)
/-- The first layer's pre-activation of the launched arrays. -/
def y1 : Fin 16 → Fin 65536 → Fin 64 → EReal :=
  pre (feat (cur3 (aX m c)) (cur3 (KHost.rollP (aX m c))) (cur3 (KHost.rollN (aX m c))))
    (cur2 (m ((c : Thread nD τ).loc main_arg1) : S64x12.Idx → EReal)) (cur1 (m ((c : Thread nD τ).loc main_arg2) : S64.Idx → EReal))

/-! ## What the first statistics region finds -/

theorem V3_x : (V3 m ρ c main_arg0 : S16x65536x3.Idx → EReal) = aX m c := KWalk.W3_arg0 m ρ c
theorem V3_xp : (V3 m ρ c main_v2 : S16x65536x3.Idx → EReal) = KHost.rollP (aX m c) :=
  (KWalk.W3_v2 m ρ c).trans ((KHost.v2_eq (W1 m ρ c)).trans (congrArg KHost.rollP (KWalk.W1_arg0 m ρ c)))
theorem V3_xn : (V3 m ρ c main_v3 : S16x65536x3.Idx → EReal) = KHost.rollN (aX m c) :=
  (KHost.v3_eq (W2 m ρ c)).trans (congrArg KHost.rollN (KWalk.W2_arg0 m ρ c))
theorem V3_w (k : Fin 12) (o : Fin 64) :
    (V3 m ρ c main_v0 : S12x64.Idx → EReal) (ix2 k o) = (m ((c : Thread nD τ).loc main_arg1) : S64x12.Idx → EReal) (ix2 o k) :=
  (congrFun (KWalk.W3_v0 m ρ c) (ix2 k o)).trans (KHost.v0_apply (W0 m ρ c) k o)
theorem V3_b : (V3 m ρ c main_arg2 : S64.Idx → EReal) = m ((c : Thread nD τ).loc main_arg2) := KWalk.W3_arg2 m ρ c

/-- The first statistics region's pre-activation is the specification's. -/
theorem y_V3 (p : Fin 16) (n : Fin 65536) (o : Fin 64) : KReg1.y (V3 m ρ) c p n o = y1 m c p n o :=
  y_of (V3 m ρ) c _ _ _ _ _ (V3_x m ρ c) (V3_xp m ρ c) (V3_xn m ρ c) (V3_w m ρ c) (V3_b m ρ c) p n o

/-! ## What the first apply region finds -/

theorem V5_x : (V5 m ρ c main_arg0 : S16x65536x3.Idx → EReal) = aX m c := (KWalk.W5_arg0 m ρ c).trans (V3_x m ρ c)
theorem V5_xp : (V5 m ρ c main_v2 : S16x65536x3.Idx → EReal) = KHost.rollP (aX m c) := (KWalk.W5_v2 m ρ c).trans (V3_xp m ρ c)
theorem V5_xn : (V5 m ρ c main_v3 : S16x65536x3.Idx → EReal) = KHost.rollN (aX m c) := (KWalk.W5_v3 m ρ c).trans (V3_xn m ρ c)
theorem V5_w (k : Fin 12) (o : Fin 64) :
    (V5 m ρ c main_v0 : S12x64.Idx → EReal) (ix2 k o) = (m ((c : Thread nD τ).loc main_arg1) : S64x12.Idx → EReal) (ix2 o k) :=
  (congrFun (KWalk.W5_v0 m ρ c) (ix2 k o)).trans (V3_w m ρ c k o)
theorem V5_b : (V5 m ρ c main_arg2 : S64.Idx → EReal) = m ((c : Thread nD τ).loc main_arg2) := (KWalk.W5_arg2 m ρ c).trans (V3_b m ρ c)

/-- The first apply region's pre-activation is the specification's. -/
theorem y_V5 (p : Fin 16) (n : Fin 65536) (o : Fin 64) : KReg1.y (V5 m ρ) c p n o = y1 m c p n o :=
  y_of (V5 m ρ) c _ _ _ _ _ (V5_x m ρ c) (V5_xp m ρ c) (V5_xn m ρ c) (V5_w m ρ c) (V5_b m ρ c) p n o

end Cert.KernelIdeal.KChain

end
-- ==== Proof.KChainB.lean ====
/-
  The first layer's statistics, scale and shift, and its result, in the specification's words.

  The first statistics region leaves in its two rows the sums over all 16 · 65536 points of the pre-activation and
  of its square, channel by channel. The host operations after it divide both by the number of points, take the
  variance as mean of squares minus square of mean, and fold gain, inverse root and mean into one scale and one
  shift per channel: the folded form's. The first apply region then writes the folded normalisation of the
  pre-activation, clamped at zero.
-/
import proofs.«120732_j28406913696569_2_alg».proof.Proof.KReg0
import proofs.«120732_j28406913696569_2_alg».proof.Proof.KChainA

set_option maxRecDepth 16384

noncomputable section
open scoped BigOperators

namespace Cert.KernelIdeal.KChain

open Cert.KernelIdeal Cert.KernelIdeal.Gen Cert.KernelIdeal.KPay Cert.BNSpec
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The first layer's gain and offset as launched. -/
abbrev g1 : Fin 64 → EReal := cur1 (m ((c : Thread nD τ).loc main_arg3) : S64.Idx → EReal)
abbrev β1 : Fin 64 → EReal := cur1 (m ((c : Thread nD τ).loc main_arg4) : S64.Idx → EReal)

/-- The row of sums the first statistics region leaves. -/
theorem W4_S (o : Fin 64) : cur2 (W4 m ρ c (Proc.devRef .tc main_v4_0)) (0 : Fin 1) o = tot (y1 m c) o := by
  have h : cur2 (W4 m ρ c (Proc.devRef .tc main_v4_0)) (0 : Fin 1) o
      = ∑ p : Fin 16, ∑ n : Fin 65536, KReg0.y (V3 m ρ) c p n o :=
    (congrFun (W4_arr m ρ c 5) (ix2 (0 : Fin 1) o)).trans (KReg0.final_sum (V3 m ρ) c o)
  rw [h]
  unfold tot
  exact Finset.sum_congr rfl fun p _ => Finset.sum_congr rfl fun n _ => y_V3 m ρ c p n o

/-- The row of sums of squares it leaves. -/
theorem W4_Q (o : Fin 64) :
    cur2 (W4 m ρ c (Proc.devRef .tc main_v4_1)) (0 : Fin 1) o = tot (fun p n o => y1 m c p n o * y1 m c p n o) o := by
  have h : cur2 (W4 m ρ c (Proc.devRef .tc main_v4_1)) (0 : Fin 1) o
      = ∑ p : Fin 16, ∑ n : Fin 65536, KReg0.y (V3 m ρ) c p n o * KReg0.y (V3 m ρ) c p n o :=
    (congrFun (W4_arr m ρ c 6) (ix2 (0 : Fin 1) o)).trans (KReg0.final_sumsq (V3 m ρ) c o)
  rw [h]
  unfold tot
  refine Finset.sum_congr rfl fun p _ => Finset.sum_congr rfl fun n _ => ?_
  show KReg1.y (V3 m ρ) c p n o * KReg1.y (V3 m ρ) c p n o = _
  rw [y_V3 m ρ c p n o]

/-- The scale the first apply region finds is the folded form's. -/
theorem V5_sc (o : Fin 64) : cur1 (V5 m ρ c main_v16) o = scaleOf (y1 m c) (g1 m c) o := by
  refine (KHost.scale1_apply (W4 m ρ c) o).trans ?_
  rw [show (fun o => (W4 m ρ c (Proc.devRef .tc main_v4_0) : S1x64.Idx → EReal) (ix2 (0 : Fin 1) o)) = tot (y1 m c) from funext (W4_S m ρ c),
    show (fun o => (W4 m ρ c (Proc.devRef .tc main_v4_1) : S1x64.Idx → EReal) (ix2 (0 : Fin 1) o))
      = tot (fun p n o => y1 m c p n o * y1 m c p n o) from funext (W4_Q m ρ c),
    show (W4 m ρ c (Proc.devRef .tc main_arg3) : S64.Idx → EReal) = (m ((c : Thread nD τ).loc main_arg3) : S64.Idx → EReal) from KWalk.W4_arg3 m ρ c]
  rfl

/-- The shift it finds is the folded form's. -/
theorem V5_sh (o : Fin 64) : cur1 (V5 m ρ c main_v18) o = shiftOf (y1 m c) (g1 m c) (β1 m c) o := by
  refine (KHost.shift1_apply (W4 m ρ c) o).trans ?_
  rw [show (fun o => (W4 m ρ c (Proc.devRef .tc main_v4_0) : S1x64.Idx → EReal) (ix2 (0 : Fin 1) o)) = tot (y1 m c) from funext (W4_S m ρ c),
    show (fun o => (W4 m ρ c (Proc.devRef .tc main_v4_1) : S1x64.Idx → EReal) (ix2 (0 : Fin 1) o))
      = tot (fun p n o => y1 m c p n o * y1 m c p n o) from funext (W4_Q m ρ c),
    show (W4 m ρ c (Proc.devRef .tc main_arg3) : S64.Idx → EReal) = (m ((c : Thread nD τ).loc main_arg3) : S64.Idx → EReal) from KWalk.W4_arg3 m ρ c,
    show (W4 m ρ c (Proc.devRef .tc main_arg4) : S64.Idx → EReal) = (m ((c : Thread nD τ).loc main_arg4) : S64.Idx → EReal) from KWalk.W4_arg4 m ρ c]
  rfl

/-- The first layer's result. -/
def h1 : Fin 16 → Fin 65536 → Fin 64 → EReal := bnFolded (y1 m c) (g1 m c) (β1 m c)

/-- What the first apply region leaves in its result array. -/
theorem W6_h (p : Fin 16) (n : Fin 65536) (o : Fin 64) :
    cur3 (W6 m ρ c (Proc.devRef .tc main_v19)) p n o = h1 m c p n o := by
  refine (congrFun (W6_arr m ρ c 7) (ix3 p n o)).trans ((KReg1.final (V5 m ρ) c p n o).trans ?_)
  rw [y_V5 m ρ c p n o, V5_sc m ρ c o, V5_sh m ρ c o]
  rfl

end Cert.KernelIdeal.KChain

end
-- ==== Proof.KChainC.lean ====
/-
  The second layer of the kernel program, and its result, in the specification's words.

  The second statistics region and the second apply region read the first layer's result, the second weights held
  transposed, and the second bias; so the pre-activation they compute at (p, n, o) is the sum over the 64 channels of
  the first layer's result at (p, n) times row o of the second weights, plus the second bias. The statistics region
  leaves the sums of it and of its square; the host operations fold them, with the second gain and offset, into a
  scale and a shift; the apply region writes the folded normalisation clamped at zero. That is the specification's
  two layers in the folded form.
-/
import proofs.«120732_j28406913696569_2_alg».proof.Proof.KReg2
import proofs.«120732_j28406913696569_2_alg».proof.Proof.KReg3
import proofs.«120732_j28406913696569_2_alg».proof.Proof.KChainB

set_option maxRecDepth 16384

noncomputable section
open scoped BigOperators

namespace Cert.KernelIdeal.KChain

open Cert.KernelIdeal Cert.KernelIdeal.Gen Cert.KernelIdeal.KPay Cert.BNSpec
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The second layer's weights, bias, gain and offset as launched. -/
abbrev w2 : Fin 64 → Fin 64 → EReal := cur2 (m ((c : Thread nD τ).loc main_arg5) : S64x64.Idx → EReal)
abbrev b2 : Fin 64 → EReal := cur1 (m ((c : Thread nD τ).loc main_arg6) : S64.Idx → EReal)
abbrev g2 : Fin 64 → EReal := cur1 (m ((c : Thread nD τ).loc main_arg7) : S64.Idx → EReal)
abbrev β2 : Fin 64 → EReal := cur1 (m ((c : Thread nD τ).loc main_arg8) : S64.Idx → EReal)

/-- The second layer's pre-activation. -/
def y2 : Fin 16 → Fin 65536 → Fin 64 → EReal := pre (h1 m c) (w2 m c) (b2 m c)

/-- The transposed second weights, wherever they are read after the first stretch. -/
theorem W6_w (k o : Fin 64) : cur2 (W6 m ρ c (Proc.devRef .tc main_v1)) k o = w2 m c o k :=
  (congrFun (KWalk.W6_v1 m ρ c) (ix2 k o)).trans (KHost.v1_apply (W0 m ρ c) k o)

/-- The second statistics region's pre-activation is the specification's. -/
theorem y_V6 (p : Fin 16) (n : Fin 65536) (o : Fin 64) : KReg2.y (V6 m ρ) c p n o = y2 m c p n o := by
  unfold KReg2.y y2 pre
  refine congrArg₂ (· + ·) (Finset.sum_congr rfl fun k _ => congrArg₂ (· * ·) (W6_h m ρ c p n k) (W6_w m ρ c k o)) ?_
  exact congrFun (KWalk.W6_arg6 m ρ c) (ix1 o)

/-- The row of sums the second statistics region leaves. -/
theorem W7_S (o : Fin 64) : cur2 (W7 m ρ c (Proc.devRef .tc main_v20_0)) (0 : Fin 1) o = tot (y2 m c) o := by
  have h : cur2 (W7 m ρ c (Proc.devRef .tc main_v20_0)) (0 : Fin 1) o
      = ∑ p : Fin 16, ∑ n : Fin 65536, KReg2.y (V6 m ρ) c p n o :=
    (congrFun (W7_arr m ρ c 3) (ix2 (0 : Fin 1) o)).trans (KReg2.final_sum (V6 m ρ) c o)
  rw [h]
  unfold tot
  exact Finset.sum_congr rfl fun p _ => Finset.sum_congr rfl fun n _ => y_V6 m ρ c p n o

/-- The row of sums of squares it leaves. -/
theorem W7_Q (o : Fin 64) :
    cur2 (W7 m ρ c (Proc.devRef .tc main_v20_1)) (0 : Fin 1) o = tot (fun p n o => y2 m c p n o * y2 m c p n o) o := by
  have h : cur2 (W7 m ρ c (Proc.devRef .tc main_v20_1)) (0 : Fin 1) o
      = ∑ p : Fin 16, ∑ n : Fin 65536, KReg2.y (V6 m ρ) c p n o * KReg2.y (V6 m ρ) c p n o :=
    (congrFun (W7_arr m ρ c 4) (ix2 (0 : Fin 1) o)).trans (KReg2.final_sumsq (V6 m ρ) c o)
  rw [h]
  unfold tot
  refine Finset.sum_congr rfl fun p _ => Finset.sum_congr rfl fun n _ => ?_
  rw [y_V6 m ρ c p n o]

/-- The scale the second apply region finds is the folded form's. -/
theorem V8_sc (o : Fin 64) : cur1 (V8 m ρ c main_v32) o = scaleOf (y2 m c) (g2 m c) o := by
  refine (KHost.scale3_apply (W7 m ρ c) o).trans ?_
  rw [show (fun o => (W7 m ρ c (Proc.devRef .tc main_v20_0) : S1x64.Idx → EReal) (ix2 (0 : Fin 1) o)) = tot (y2 m c) from funext (W7_S m ρ c),
    show (fun o => (W7 m ρ c (Proc.devRef .tc main_v20_1) : S1x64.Idx → EReal) (ix2 (0 : Fin 1) o))
      = tot (fun p n o => y2 m c p n o * y2 m c p n o) from funext (W7_Q m ρ c),
    show (W7 m ρ c (Proc.devRef .tc main_arg7) : S64.Idx → EReal) = (m ((c : Thread nD τ).loc main_arg7) : S64.Idx → EReal) from KWalk.W7_arg7 m ρ c]
  rfl

/-- The shift it finds is the folded form's. -/
theorem V8_sh (o : Fin 64) : cur1 (V8 m ρ c main_v34) o = shiftOf (y2 m c) (g2 m c) (β2 m c) o := by
  refine (KHost.shift3_apply (W7 m ρ c) o).trans ?_
  rw [show (fun o => (W7 m ρ c (Proc.devRef .tc main_v20_0) : S1x64.Idx → EReal) (ix2 (0 : Fin 1) o)) = tot (y2 m c) from funext (W7_S m ρ c),
    show (fun o => (W7 m ρ c (Proc.devRef .tc main_v20_1) : S1x64.Idx → EReal) (ix2 (0 : Fin 1) o))
      = tot (fun p n o => y2 m c p n o * y2 m c p n o) from funext (W7_Q m ρ c),
    show (W7 m ρ c (Proc.devRef .tc main_arg7) : S64.Idx → EReal) = (m ((c : Thread nD τ).loc main_arg7) : S64.Idx → EReal) from KWalk.W7_arg7 m ρ c,
    show (W7 m ρ c (Proc.devRef .tc main_arg8) : S64.Idx → EReal) = (m ((c : Thread nD τ).loc main_arg8) : S64.Idx → EReal) from KWalk.W7_arg8 m ρ c]
  rfl

/-- THE VALUE: the result array at the last boundary is the specification's two layers in the folded form, of the
    argument arrays as launched and the two rolled copies of the points. -/
theorem value (p : Fin 16) (n : Fin 65536) (o : Fin 64) :
    cur3 (W9 m ρ c (Proc.devRef .tc main_v35)) p n o
      = outFolded (cur3 (aX m c)) (cur3 (KHost.rollP (aX m c))) (cur3 (KHost.rollN (aX m c)))
          (cur2 (m ((c : Thread nD τ).loc main_arg1) : S64x12.Idx → EReal)) (cur1 (m ((c : Thread nD τ).loc main_arg2) : S64.Idx → EReal)) (g1 m c) (β1 m c) (w2 m c) (b2 m c) (g2 m c) (β2 m c) p n o := by
  refine (congrFun (W9_arr m ρ c 5) (ix3 p n o)).trans ((KReg3.final (V8 m ρ) c p n o).trans ?_)
  have hy : (∑ k : Fin 64, cur3 (V8 m ρ c main_v19) p n k * cur2 (V8 m ρ c main_v1) k o) + cur1 (V8 m ρ c main_arg6) o = y2 m c p n o := by
    unfold y2 pre
    refine congrArg₂ (· + ·) (Finset.sum_congr rfl fun k _ => congrArg₂ (· * ·) ?_ ?_) ?_
    · exact (congrFun (KWalk.W8_v19 m ρ c) (ix3 p n k)).trans (W6_h m ρ c p n k)
    · exact (congrFun (KWalk.W8_v1 m ρ c) (ix2 k o)).trans (W6_w m ρ c k o)
    · exact (congrFun (KWalk.W8_arg6 m ρ c) (ix1 o)).trans (congrFun (KWalk.W6_arg6 m ρ c) (ix1 o))
  rw [hy, V8_sc m ρ c o, V8_sh m ρ c o]
  rfl

end Cert.KernelIdeal.KChain

end
-- ==== Proof.RefTerm.lean ====
import proofs.«120732_j28406913696569_2_alg».proof.ReferenceIdeal
import Idealize.ShloMosaic.PureOps.Ideal

/-!
The value the reference program computes, as one pure term of its nine argument arrays.

The program is a two-layer per-point perceptron over rings of points: each point is
joined with its differences to the two neighbouring points of its ring, a linear map
takes the twelve features to sixty-four channels, each channel is normalised by its
mean and variance over all 2^20 points, scaled, shifted and clamped at zero; a second
linear map and the same normalisation follow.  The definitions below name the layers
in the order the program evaluates them.
-/

noncomputable section

namespace Cert.ReferenceIdeal.RefTerm

open Idealize.ShloMosaic Cert.ReferenceIdeal

variable [Facts]
open Facts₀ Facts

abbrev X3  := FVec Ideal S16x65536x3 .f32
abbrev A64 := FVec Ideal S16x65536x64 .f32
abbrev V64 := FVec Ideal S64 .f32

/-- The ring rolled forward by one: the last point of each ring, then the first 65535. -/
def rollP (X : X3) : X3 := concatenate S16x65536x3 1 [⟨S16x1x3, extractStridedSlice S16x1x3 ![0, 65535, 0] X slices_S16x65536x3_S16x1x3_0_65535_0⟩, ⟨S16x65535x3, extractStridedSlice S16x65535x3 ![0, 0, 0] X slices_S16x65536x3_S16x65535x3_0_0_0⟩] concatenates_S16x1x3_S16x65535x3_S16x65536x3_d1

/-- The ring rolled backward by one: points 1 … 65535, then point 0. -/
def rollN (X : X3) : X3 := concatenate S16x65536x3 1 [⟨S16x65535x3, extractStridedSlice S16x65535x3 ![0, 1, 0] X slices_S16x65536x3_S16x65535x3_0_1_0⟩, ⟨S16x1x3, extractStridedSlice S16x1x3 ![0, 0, 0] X slices_S16x65536x3_S16x1x3_0_0_0⟩] concatenates_S16x65535x3_S16x1x3_S16x65536x3_d1

/-- The twelve features of a point: its coordinates, the two differences to its neighbours,
    and the difference of those (stated over the two rolled copies, which a reader may keep opaque). -/
def feat (X Xp Xn : X3) : FVec Ideal S16x65536x12 .f32 := concatenate S16x65536x12 2 [⟨S16x65536x3, X⟩, ⟨S16x65536x3, subf X Xp⟩, ⟨S16x65536x3, subf X Xn⟩, ⟨S16x65536x3, subf (subf X Xp) (subf X Xn)⟩] concatenates_S16x65536x3_S16x65536x3_S16x65536x3_S16x65536x3_S16x65536x12_d2

/-- A per-channel vector spread over every point. -/
def bc64 (v : V64) : A64 := broadcastInDim S16x65536x64 ![0, 1, 2] bcast_S1x1x64_S16x65536x64_0_1_2 (broadcastInDim S1x1x64 ![2] bcast_S64_S1x1x64_2 v)

/-- The number of points, 2^20, as a scalar. -/
def cntS : FVec Ideal S_ .f32 := constant (F := Ideal) S_ .f32 0x49800000#32

/-- Zero as a scalar. -/
def zeroS : FVec Ideal S_ .f32 := constant (F := Ideal) S_ .f32 0x00000000#32

/-- The sum over batch and points, per channel, from zero. -/
def sum01 (y : A64) : V64 := Host.reduceAdd (F := Ideal) y zeroS reducesTo_S16x65536x64_S64_d0_1 h_S_

/-- The mean over batch and points, per channel. -/
def mean (y : A64) : V64 := Host.divf (F := Ideal) (sum01 y) (broadcastInDim S64 ![] bcast_S_S64 cntS)

/-- The variance over batch and points, per channel: the mean of the squared deviations,
    the divisor being the count less the correction 0, and a not-a-number where that
    divisor is not positive. -/
def var (y : A64) : V64 :=
  let mu3 : FVec Ideal S1x1x64 .f32 := Host.divf (F := Ideal) (broadcastInDim S1x1x64 ![2] bcast_S64_S1x1x64_2 (sum01 y)) (broadcastInDim S1x1x64 ![] bcast_S_S1x1x64 cntS)
  let d : A64 := subf y (broadcastInDim S16x65536x64 ![0, 1, 2] bcast_S1x1x64_S16x65536x64_0_1_2 mu3)
  let nrm : FVec Ideal S_ .f32 := subf cntS (sitofp .f32 (constantI S_ 32 0#32))
  select (broadcastInDim S64 ![] bcast_S_S64 (cmpf .ogt nrm zeroS))
    (Host.divf (F := Ideal) (sum01 (mulf d d)) (broadcastInDim S64 ![] bcast_S_S64 nrm))
    (broadcastInDim S64 ![] bcast_S_S64 (id (constant (F := Ideal) S_ .f32 0x7FC00000#32)))

/-- Centre, multiply by the inverse root of the variance plus a small constant, gain, offset, clamp at zero. -/
def bnrelu (y : A64) (g β : V64) : A64 :=
  maximumf (addf (mulf (mulf (subf y (bc64 (mean y))) (bc64 (Host.rsqrt (F := Ideal) (addf (var y) (broadcastInDim S64 ![] bcast_S_S64 (constant (F := Ideal) S_ .f32 0x3727C5AC#32)))))) (bc64 g)) (bc64 β))
    (broadcastInDim S16x65536x64 ![] bcast_S_S16x65536x64 zeroS)

/-- The first linear layer: twelve features to sixty-four channels, plus the bias. -/
def lin1 (h : FVec Ideal S16x65536x12 .f32) (W : FVec Ideal S64x12 .f32) (b : V64) : A64 := addf (Host.dotGeneral (F := Ideal) dot_S16x65536x12_S64x12_S16x65536x64_2_1_01_0_n_n none h W) (bc64 b)

/-- The second linear layer: sixty-four channels to sixty-four, plus the bias. -/
def lin2 (h : A64) (W : FVec Ideal S64x64 .f32) (b : V64) : A64 := addf (Host.dotGeneral (F := Ideal) dot_S16x65536x64_S64x64_S16x65536x64_2_1_01_0_n_n none h W) (bc64 b)

/-- The program's result as one term of its nine arguments. -/
def out (X : X3) (W1 : FVec Ideal S64x12 .f32) (b1 g1 β1 : V64) (W2 : FVec Ideal S64x64 .f32) (b2 g2 β2 : V64) : A64 :=
  bnrelu (lin2 (bnrelu (lin1 (feat X (rollP X) (rollN X)) W1 b1) g1 β1) W2 b2) g2 β2

end Cert.ReferenceIdeal.RefTerm

end
-- ==== Proof.RefRun.Ops.lean ====
import proofs.«120732_j28406913696569_2_alg».proof.Proof.Gen.ReferenceIdeal
import Idealize.ShloMosaic.Lib.StableHlo.Run

/-!
The reference program as a straight line of array operations.

The program's entry function calls local functions; a call executes the callee's body over the
buffers of that call.  Putting each body in place of its call leaves one sequence of operations,
listed here in order, and the program is the run of that sequence.
-/

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The program's 112 operations in order, each local function's own listed where it is called,
    over the buffers of that call. -/
abbrev ops : List (HloOp τ sig (Elt F)) :=
  [ StableHlo.TRef.unary (.of main_arg0 : TRef sig ⟨S16x65536x3, .f32⟩) main_call0.v0 (extractStridedSlice S16x1x3 ![0, 65535, 0] · slices_S16x65536x3_S16x1x3_0_65535_0),
    StableHlo.TRef.unary (.of main_arg0 : TRef sig ⟨S16x65536x3, .f32⟩) main_call0.v1 (extractStridedSlice S16x65535x3 ![0, 0, 0] · slices_S16x65536x3_S16x65535x3_0_0_0),
    StableHlo.TRef.binary main_call0.v0 main_call0.v1 main_call0.v2 (fun a b => concatenate S16x65536x3 1 [⟨S16x1x3, a⟩, ⟨S16x65535x3, b⟩] concatenates_S16x1x3_S16x65535x3_S16x65536x3_d1),
    StableHlo.TRef.unary (.of main_arg0 : TRef sig ⟨S16x65536x3, .f32⟩) main_call1.v0 (extractStridedSlice S16x65535x3 ![0, 1, 0] · slices_S16x65536x3_S16x65535x3_0_1_0),
    StableHlo.TRef.unary (.of main_arg0 : TRef sig ⟨S16x65536x3, .f32⟩) main_call1.v1 (extractStridedSlice S16x1x3 ![0, 0, 0] · slices_S16x65536x3_S16x1x3_0_0_0),
    StableHlo.TRef.binary main_call1.v0 main_call1.v1 main_call1.v2 (fun a b => concatenate S16x65536x3 1 [⟨S16x65535x3, a⟩, ⟨S16x1x3, b⟩] concatenates_S16x65535x3_S16x1x3_S16x65536x3_d1),
    StableHlo.binary main_arg0 main_v0 main_v2 (subf : (⟨S16x65536x3, .f32⟩ : BufTy).Contents (Elt F) → (⟨S16x65536x3, .f32⟩ : BufTy).Contents (Elt F) → (⟨S16x65536x3, .f32⟩ : BufTy).Contents (Elt F)),
    StableHlo.binary main_arg0 main_v1 main_v3 (subf : (⟨S16x65536x3, .f32⟩ : BufTy).Contents (Elt F) → (⟨S16x65536x3, .f32⟩ : BufTy).Contents (Elt F) → (⟨S16x65536x3, .f32⟩ : BufTy).Contents (Elt F)),
    StableHlo.binary main_v2 main_v3 main_v4 (subf : (⟨S16x65536x3, .f32⟩ : BufTy).Contents (Elt F) → (⟨S16x65536x3, .f32⟩ : BufTy).Contents (Elt F) → (⟨S16x65536x3, .f32⟩ : BufTy).Contents (Elt F)),
    StableHlo.nary ![main_arg0, main_v2, main_v3, main_v4] main_v5 (fun u => concatenate S16x65536x12 2 [⟨S16x65536x3, u 0⟩, ⟨S16x65536x3, u 1⟩, ⟨S16x65536x3, u 2⟩, ⟨S16x65536x3, u 3⟩] concatenates_S16x65536x3_S16x65536x3_S16x65536x3_S16x65536x3_S16x65536x12_d2),
    StableHlo.binary main_v5 main_arg1 main_v6 ((fun l r => Host.dotGeneral dot_S16x65536x12_S64x12_S16x65536x64_2_1_01_0_n_n none l r) : (⟨S16x65536x12, .f32⟩ : BufTy).Contents (Elt F) → (⟨S64x12, .f32⟩ : BufTy).Contents (Elt F) → (⟨S16x65536x64, .f32⟩ : BufTy).Contents (Elt F)),
    StableHlo.unary main_arg2 main_v7 (broadcastInDim S1x1x64 ![2] bcast_S64_S1x1x64_2 : (⟨S64, .f32⟩ : BufTy).Contents (Elt F) → (⟨S1x1x64, .f32⟩ : BufTy).Contents (Elt F)),
    StableHlo.unary main_v7 main_v8 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v6 main_v8 main_v9 (addf : (⟨S16x65536x64, .f32⟩ : BufTy).Contents (Elt F) → (⟨S16x65536x64, .f32⟩ : BufTy).Contents (Elt F) → (⟨S16x65536x64, .f32⟩ : BufTy).Contents (Elt F)),
    StableHlo.nullary main_cst (constant S_ .f32 0x00000000#32),
    StableHlo.binary main_v9 main_cst main_v10 ((fun x v => Host.reduceAdd x v reducesTo_S16x65536x64_S64_d0_1 h_S_) : (⟨S16x65536x64, .f32⟩ : BufTy).Contents (Elt F) → (⟨S_, .f32⟩ : BufTy).Contents (Elt F) → (⟨S64, .f32⟩ : BufTy).Contents (Elt F)),
    StableHlo.nullary main_cst_0 (constant S_ .f32 0x49800000#32),
    StableHlo.unary main_cst_0 main_v11 (broadcastInDim S64 ![] bcast_S_S64 : (⟨S_, .f32⟩ : BufTy).Contents (Elt F) → (⟨S64, .f32⟩ : BufTy).Contents (Elt F)),
    StableHlo.binary main_v10 main_v11 main_v12 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call2.cst (constant S_ .f32 0x00000000#32),
    StableHlo.TRef.binary (.of main_v9 : TRef sig ⟨S16x65536x64, .f32⟩) main_call2.cst main_call2.v0 (fun x v => Host.reduceAdd x v reducesTo_S16x65536x64_S64_d0_1 h_S_),
    StableHlo.TRef.unary main_call2.v0 main_call2.v1 (broadcastInDim S1x1x64 ![2] bcast_S64_S1x1x64_2),
    StableHlo.TRef.nullary main_call2.cst_0 (constant S_ .f32 0x49800000#32),
    StableHlo.TRef.unary main_call2.cst_0 main_call2.v2 (broadcastInDim S1x1x64 ![] bcast_S_S1x1x64),
    StableHlo.TRef.binary main_call2.v1 main_call2.v2 main_call2.v3 Host.divf,
    StableHlo.TRef.unary main_call2.v3 main_call2.v4 (broadcastInDim S16x65536x64 ![0, 1, 2] bcast_S1x1x64_S16x65536x64_0_1_2),
    StableHlo.TRef.binary (.of main_v9 : TRef sig ⟨S16x65536x64, .f32⟩) main_call2.v4 main_call2.v5 subf,
    StableHlo.TRef.binary main_call2.v5 main_call2.v5 main_call2.v6 mulf,
    StableHlo.TRef.unary (.of main_c : TRef sig ⟨S_, .i32⟩) main_call2.v7 (sitofp .f32),
    StableHlo.TRef.nullary main_call2.cst_1 (constant S_ .f32 0x49800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S16x65536x64_S64_d0_1 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v12 main_v14 (broadcastInDim S1x1x64 ![2] bcast_S64_S1x1x64_2 : (⟨S64, .f32⟩ : BufTy).Contents (Elt F) → (⟨S1x1x64, .f32⟩ : BufTy).Contents (Elt F)),
    StableHlo.unary main_v14 main_v15 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v9 main_v15 main_v16 (subf : (⟨S16x65536x64, .f32⟩ : BufTy).Contents (Elt F) → (⟨S16x65536x64, .f32⟩ : BufTy).Contents (Elt F) → (⟨S16x65536x64, .f32⟩ : BufTy).Contents (Elt F)),
    StableHlo.nullary main_cst_1 (constant S_ .f32 0x3727C5AC#32),
    StableHlo.unary main_cst_1 main_v17 (broadcastInDim S64 ![] bcast_S_S64 : (⟨S_, .f32⟩ : BufTy).Contents (Elt F) → (⟨S64, .f32⟩ : BufTy).Contents (Elt F)),
    StableHlo.binary main_v13 main_v17 main_v18 (addf : (⟨S64, .f32⟩ : BufTy).Contents (Elt F) → (⟨S64, .f32⟩ : BufTy).Contents (Elt F) → (⟨S64, .f32⟩ : BufTy).Contents (Elt F)),
    StableHlo.unary main_v18 main_v19 (Host.rsqrt : (⟨S64, .f32⟩ : BufTy).Contents (Elt F) → (⟨S64, .f32⟩ : BufTy).Contents (Elt F)),
    StableHlo.unary main_v19 main_v20 (broadcastInDim S1x1x64 ![2] bcast_S64_S1x1x64_2 : (⟨S64, .f32⟩ : BufTy).Contents (Elt F) → (⟨S1x1x64, .f32⟩ : BufTy).Contents (Elt F)),
    StableHlo.unary main_v20 main_v21 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v16 main_v21 main_v22 (mulf : (⟨S16x65536x64, .f32⟩ : BufTy).Contents (Elt F) → (⟨S16x65536x64, .f32⟩ : BufTy).Contents (Elt F) → (⟨S16x65536x64, .f32⟩ : BufTy).Contents (Elt F)),
    StableHlo.unary main_arg3 main_v23 (broadcastInDim S1x1x64 ![2] bcast_S64_S1x1x64_2 : (⟨S64, .f32⟩ : BufTy).Contents (Elt F) → (⟨S1x1x64, .f32⟩ : BufTy).Contents (Elt F)),
    StableHlo.unary main_v23 main_v24 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v22 main_v24 main_v25 (mulf : (⟨S16x65536x64, .f32⟩ : BufTy).Contents (Elt F) → (⟨S16x65536x64, .f32⟩ : BufTy).Contents (Elt F) → (⟨S16x65536x64, .f32⟩ : BufTy).Contents (Elt F)),
    StableHlo.unary main_arg4 main_v26 (broadcastInDim S1x1x64 ![2] bcast_S64_S1x1x64_2 : (⟨S64, .f32⟩ : BufTy).Contents (Elt F) → (⟨S1x1x64, .f32⟩ : BufTy).Contents (Elt F)),
    StableHlo.unary main_v26 main_v27 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v25 main_v27 main_v28 (addf : (⟨S16x65536x64, .f32⟩ : BufTy).Contents (Elt F) → (⟨S16x65536x64, .f32⟩ : BufTy).Contents (Elt F) → (⟨S16x65536x64, .f32⟩ : BufTy).Contents (Elt F)),
    StableHlo.TRef.nullary main_call3.cst (constant S_ .f32 0x00000000#32),
    StableHlo.TRef.unary main_call3.cst main_call3.v0 (broadcastInDim S16x65536x64 ![] bcast_S_S16x65536x64),
    StableHlo.TRef.binary (.of main_v28 : TRef sig ⟨S16x65536x64, .f32⟩) main_call3.v0 main_call3.v1 maximumf,
    StableHlo.binary main_v29 main_arg5 main_v30 ((fun l r => Host.dotGeneral dot_S16x65536x64_S64x64_S16x65536x64_2_1_01_0_n_n none l r) : (⟨S16x65536x64, .f32⟩ : BufTy).Contents (Elt F) → (⟨S64x64, .f32⟩ : BufTy).Contents (Elt F) → (⟨S16x65536x64, .f32⟩ : BufTy).Contents (Elt F)),
    StableHlo.unary main_arg6 main_v31 (broadcastInDim S1x1x64 ![2] bcast_S64_S1x1x64_2 : (⟨S64, .f32⟩ : BufTy).Contents (Elt F) → (⟨S1x1x64, .f32⟩ : BufTy).Contents (Elt F)),
    StableHlo.unary main_v31 main_v32 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v30 main_v32 main_v33 (addf : (⟨S16x65536x64, .f32⟩ : BufTy).Contents (Elt F) → (⟨S16x65536x64, .f32⟩ : BufTy).Contents (Elt F) → (⟨S16x65536x64, .f32⟩ : BufTy).Contents (Elt F)),
    StableHlo.nullary main_cst_2 (constant S_ .f32 0x00000000#32),
    StableHlo.binary main_v33 main_cst_2 main_v34 ((fun x v => Host.reduceAdd x v reducesTo_S16x65536x64_S64_d0_1 h_S_) : (⟨S16x65536x64, .f32⟩ : BufTy).Contents (Elt F) → (⟨S_, .f32⟩ : BufTy).Contents (Elt F) → (⟨S64, .f32⟩ : BufTy).Contents (Elt F)),
    StableHlo.nullary main_cst_3 (constant S_ .f32 0x49800000#32),
    StableHlo.unary main_cst_3 main_v35 (broadcastInDim S64 ![] bcast_S_S64 : (⟨S_, .f32⟩ : BufTy).Contents (Elt F) → (⟨S64, .f32⟩ : BufTy).Contents (Elt F)),
    StableHlo.binary main_v34 main_v35 main_v36 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call4.cst (constant S_ .f32 0x00000000#32),
    StableHlo.TRef.binary (.of main_v33 : TRef sig ⟨S16x65536x64, .f32⟩) main_call4.cst main_call4.v0 (fun x v => Host.reduceAdd x v reducesTo_S16x65536x64_S64_d0_1 h_S_),
    StableHlo.TRef.unary main_call4.v0 main_call4.v1 (broadcastInDim S1x1x64 ![2] bcast_S64_S1x1x64_2),
    StableHlo.TRef.nullary main_call4.cst_0 (constant S_ .f32 0x49800000#32),
    StableHlo.TRef.unary main_call4.cst_0 main_call4.v2 (broadcastInDim S1x1x64 ![] bcast_S_S1x1x64),
    StableHlo.TRef.binary main_call4.v1 main_call4.v2 main_call4.v3 Host.divf,
    StableHlo.TRef.unary main_call4.v3 main_call4.v4 (broadcastInDim S16x65536x64 ![0, 1, 2] bcast_S1x1x64_S16x65536x64_0_1_2),
    StableHlo.TRef.binary (.of main_v33 : TRef sig ⟨S16x65536x64, .f32⟩) main_call4.v4 main_call4.v5 subf,
    StableHlo.TRef.binary main_call4.v5 main_call4.v5 main_call4.v6 mulf,
    StableHlo.TRef.unary (.of main_c_4 : TRef sig ⟨S_, .i32⟩) main_call4.v7 (sitofp .f32),
    StableHlo.TRef.nullary main_call4.cst_1 (constant S_ .f32 0x49800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S16x65536x64_S64_d0_1 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v36 main_v38 (broadcastInDim S1x1x64 ![2] bcast_S64_S1x1x64_2 : (⟨S64, .f32⟩ : BufTy).Contents (Elt F) → (⟨S1x1x64, .f32⟩ : BufTy).Contents (Elt F)),
    StableHlo.unary main_v38 main_v39 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v33 main_v39 main_v40 (subf : (⟨S16x65536x64, .f32⟩ : BufTy).Contents (Elt F) → (⟨S16x65536x64, .f32⟩ : BufTy).Contents (Elt F) → (⟨S16x65536x64, .f32⟩ : BufTy).Contents (Elt F)),
    StableHlo.nullary main_cst_5 (constant S_ .f32 0x3727C5AC#32),
    StableHlo.unary main_cst_5 main_v41 (broadcastInDim S64 ![] bcast_S_S64 : (⟨S_, .f32⟩ : BufTy).Contents (Elt F) → (⟨S64, .f32⟩ : BufTy).Contents (Elt F)),
    StableHlo.binary main_v37 main_v41 main_v42 (addf : (⟨S64, .f32⟩ : BufTy).Contents (Elt F) → (⟨S64, .f32⟩ : BufTy).Contents (Elt F) → (⟨S64, .f32⟩ : BufTy).Contents (Elt F)),
    StableHlo.unary main_v42 main_v43 (Host.rsqrt : (⟨S64, .f32⟩ : BufTy).Contents (Elt F) → (⟨S64, .f32⟩ : BufTy).Contents (Elt F)),
    StableHlo.unary main_v43 main_v44 (broadcastInDim S1x1x64 ![2] bcast_S64_S1x1x64_2 : (⟨S64, .f32⟩ : BufTy).Contents (Elt F) → (⟨S1x1x64, .f32⟩ : BufTy).Contents (Elt F)),
    StableHlo.unary main_v44 main_v45 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v40 main_v45 main_v46 (mulf : (⟨S16x65536x64, .f32⟩ : BufTy).Contents (Elt F) → (⟨S16x65536x64, .f32⟩ : BufTy).Contents (Elt F) → (⟨S16x65536x64, .f32⟩ : BufTy).Contents (Elt F)),
    StableHlo.unary main_arg7 main_v47 (broadcastInDim S1x1x64 ![2] bcast_S64_S1x1x64_2 : (⟨S64, .f32⟩ : BufTy).Contents (Elt F) → (⟨S1x1x64, .f32⟩ : BufTy).Contents (Elt F)),
    StableHlo.unary main_v47 main_v48 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v46 main_v48 main_v49 (mulf : (⟨S16x65536x64, .f32⟩ : BufTy).Contents (Elt F) → (⟨S16x65536x64, .f32⟩ : BufTy).Contents (Elt F) → (⟨S16x65536x64, .f32⟩ : BufTy).Contents (Elt F)),
    StableHlo.unary main_arg8 main_v50 (broadcastInDim S1x1x64 ![2] bcast_S64_S1x1x64_2 : (⟨S64, .f32⟩ : BufTy).Contents (Elt F) → (⟨S1x1x64, .f32⟩ : BufTy).Contents (Elt F)),
    StableHlo.unary main_v50 main_v51 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v49 main_v51 main_v52 (addf : (⟨S16x65536x64, .f32⟩ : BufTy).Contents (Elt F) → (⟨S16x65536x64, .f32⟩ : BufTy).Contents (Elt F) → (⟨S16x65536x64, .f32⟩ : BufTy).Contents (Elt F)),
    StableHlo.TRef.nullary main_call5.cst (constant S_ .f32 0x00000000#32),
    StableHlo.TRef.unary main_call5.cst main_call5.v0 (broadcastInDim S16x65536x64 ![] bcast_S_S16x65536x64),
    StableHlo.TRef.binary (.of main_v52 : TRef sig ⟨S16x65536x64, .f32⟩) main_call5.v0 main_call5.v1 maximumf ]

set_option maxRecDepth 8192 in
set_option maxHeartbeats 4000000 in
/-- The program is that straight line: with the local functions' bodies put in place of their calls
    and the sequencing re-associated, both sides are the same chain of steps. -/
theorem main_eq (c : Dev nD) : main (F := F) c = seq ops := by
  simp only [main, main_part0, main_part1, fn_roll_static.body, fn_roll_static_0.body, fn_var.body, fn_where.body, fn_relu.body,
    seq, bind_assoc, pure_bind]

/-- No buffer of the program is scoped to a region. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation touches buffers of the one compute core only. -/
theorem ops_sub : (ops : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., binary_bufs_sub .., binary_bufs_sub .., nary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub ..⟩

end Cert.ReferenceIdeal.RefRun

end
-- ==== Proof.RefRun.Args.lean ====
import proofs.«120732_j28406913696569_2_alg».proof.Proof.RefRun.Ops

/-!
The argument buffers after the straight line.

Every operation writes a buffer of its own, none of them an argument's, so each argument
buffer holds at the end what it held at launch.
-/

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

set_option maxRecDepth 8192 in
set_option maxHeartbeats 4000000 in
/-- No operation writes argument 0: it holds at the end what it held at launch. -/
theorem arg0_eq (V : Valuation τ sig (Elt F)) :
    after (ops (F := F)) V (main_arg0 : DevRef τ sig) = V (main_arg0 : DevRef τ sig) := by
  after_results_simp

set_option maxRecDepth 8192 in
set_option maxHeartbeats 4000000 in
/-- No operation writes argument 1: it holds at the end what it held at launch. -/
theorem arg1_eq (V : Valuation τ sig (Elt F)) :
    after (ops (F := F)) V (main_arg1 : DevRef τ sig) = V (main_arg1 : DevRef τ sig) := by
  after_results_simp

set_option maxRecDepth 8192 in
set_option maxHeartbeats 4000000 in
/-- No operation writes argument 2: it holds at the end what it held at launch. -/
theorem arg2_eq (V : Valuation τ sig (Elt F)) :
    after (ops (F := F)) V (main_arg2 : DevRef τ sig) = V (main_arg2 : DevRef τ sig) := by
  after_results_simp

set_option maxRecDepth 8192 in
set_option maxHeartbeats 4000000 in
/-- No operation writes argument 3: it holds at the end what it held at launch. -/
theorem arg3_eq (V : Valuation τ sig (Elt F)) :
    after (ops (F := F)) V (main_arg3 : DevRef τ sig) = V (main_arg3 : DevRef τ sig) := by
  after_results_simp

set_option maxRecDepth 8192 in
set_option maxHeartbeats 4000000 in
/-- No operation writes argument 4: it holds at the end what it held at launch. -/
theorem arg4_eq (V : Valuation τ sig (Elt F)) :
    after (ops (F := F)) V (main_arg4 : DevRef τ sig) = V (main_arg4 : DevRef τ sig) := by
  after_results_simp

set_option maxRecDepth 8192 in
set_option maxHeartbeats 4000000 in
/-- No operation writes argument 5: it holds at the end what it held at launch. -/
theorem arg5_eq (V : Valuation τ sig (Elt F)) :
    after (ops (F := F)) V (main_arg5 : DevRef τ sig) = V (main_arg5 : DevRef τ sig) := by
  after_results_simp

set_option maxRecDepth 8192 in
set_option maxHeartbeats 4000000 in
/-- No operation writes argument 6: it holds at the end what it held at launch. -/
theorem arg6_eq (V : Valuation τ sig (Elt F)) :
    after (ops (F := F)) V (main_arg6 : DevRef τ sig) = V (main_arg6 : DevRef τ sig) := by
  after_results_simp

set_option maxRecDepth 8192 in
set_option maxHeartbeats 4000000 in
/-- No operation writes argument 7: it holds at the end what it held at launch. -/
theorem arg7_eq (V : Valuation τ sig (Elt F)) :
    after (ops (F := F)) V (main_arg7 : DevRef τ sig) = V (main_arg7 : DevRef τ sig) := by
  after_results_simp

set_option maxRecDepth 8192 in
set_option maxHeartbeats 4000000 in
/-- No operation writes argument 8: it holds at the end what it held at launch. -/
theorem arg8_eq (V : Valuation τ sig (Elt F)) :
    after (ops (F := F)) V (main_arg8 : DevRef τ sig) = V (main_arg8 : DevRef τ sig) := by
  after_results_simp

end Cert.ReferenceIdeal.RefRun

end
-- ==== Proof.RefRun.Out.lean ====
import proofs.«120732_j28406913696569_2_alg».proof.Proof.RefTerm
import proofs.«120732_j28406913696569_2_alg».proof.Proof.RefRun.Ops
import proofs.«120732_j28406913696569_2_alg».proof.Proof.RefRun.Args

/-!
What the result buffer holds after the straight line.

Folding the operations over any contents and reading the result buffer gives, operation by
operation, the value of each buffer as a function of the buffers it reads; composed down to
the argument buffers this is the layered term `RefTerm.out`, whose layers are the same
operations in the same order.
-/

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

set_option maxRecDepth 8192 in
set_option maxHeartbeats 4000000 in
/-- After the operations the result buffer holds `RefTerm.out` of the nine arguments' contents:
    each operation's value at its own result buffer is its function of what it reads, and a buffer
    it does not write keeps what it held; what is left is the layered term itself, by computation. -/
theorem out_eq (V : Valuation τ sig (Elt Ideal)) :
    after (ops (F := Ideal)) V (main_v53 : DevRef τ sig)
      = RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

end Cert.ReferenceIdeal.RefRun

end
-- ==== Proof.RefRun.lean ====
import proofs.«120732_j28406913696569_2_alg».proof.Proof.RefTerm
import proofs.«120732_j28406913696569_2_alg».proof.Proof.Gen.ReferenceIdeal
import proofs.«120732_j28406913696569_2_alg».proof.Proof.RefRun.Ops
import proofs.«120732_j28406913696569_2_alg».proof.Proof.RefRun.Out
import proofs.«120732_j28406913696569_2_alg».proof.Proof.RefRun.Args
import Idealize.ShloMosaic.Lib.StableHlo.Run
import Idealize.ShloMosaic.Lib.Tactic

/-!
The run of the reference program.

The program is a straight line of array operations: its entry function's own, and, at each
call of a local function, that function's operations over the buffers of the call.  Every fair
execution of such a line from any memory ends, with each buffer at the fold of the operations
over the contents at launch.  Read at the result buffer that fold is the layered term
`RefTerm.out` of the nine arguments; read at an argument buffer it is the argument, since no
operation writes one.
-/

noncomputable section

namespace Cert.ReferenceIdeal.RefRun

open Cert.ReferenceIdeal Idealize.ShloMosaic Idealize.ShloMosaic.TcCoe Idealize.SL.Sem Idealize.ShloMosaic.StableHlo

/-- From any memory with zero counters, every fair execution of the program ends; at the end the
    result buffer holds `RefTerm.out` of the nine arguments' contents at launch, and every argument
    buffer holds what it held at launch. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53)
        = RefTerm.out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v53).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

/-- The same run read at the arguments only: every argument buffer ends as it started. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun _ h c => (h c).2) (run m ρ)

end Cert.ReferenceIdeal.RefRun

end
-- ==== Proof.RefValueA.lean ====
import proofs.«120732_j28406913696569_2_alg».proof.ReferenceIdeal
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost

/-!
Single operations of the reference program read at one index, over the extended reals.

Each statement takes an array operation applied to arbitrary operands and says what its value is at the
index (p, n, o) — batch, point, channel — in terms of the operands' values at explicit indices:
a per-channel vector spread over all points reads the vector at the channel; a sum over batch and points
is the double sum over the two coordinates; a concatenation along the last axis reads the piece the
coordinate falls in; a contraction of the last axis of one operand with the last axis of the other is
the sum of products over that axis.
-/

noncomputable section

open scoped BigOperators

namespace Cert.ReferenceIdeal.RefValue

open Idealize.ShloMosaic Idealize.ShloMosaic.ValueIdx Cert.ReferenceIdeal

/-! ## A per-channel vector spread over every point -/

/-- A vector of 64 channels laid along the last axis of a [1, 1, 64] array and then repeated over batch and
    points reads, at (p, n, o), the vector at o. -/
theorem bc_apply (h1 : S64.BroadcastsInDim S1x1x64 (![2] : Fin 1 → Fin S1x1x64.rank))
    (h2 : S1x1x64.BroadcastsInDim S16x65536x64 (![0, 1, 2] : Fin 3 → Fin S16x65536x64.rank))
    (v : FVec Ideal S64 .f32) (p : Fin 16) (n : Fin 65536) (o : Fin 64) :
    broadcastInDim S16x65536x64 ![0, 1, 2] h2 (broadcastInDim S1x1x64 ![2] h1 v) (ix3 p n o) = v (ix1 o) := by
  refine (broadcastInDim_apply _ h2 _ (ix3 p n o) (ix3 (0 : Fin 1) (0 : Fin 1) o) ?_).trans ?_
  · intro a
    match a with
    | ⟨0, _⟩ => rfl
    | ⟨1, _⟩ => rfl
    | ⟨2, _⟩ => rfl
  · refine broadcastInDim_apply _ h1 _ (ix3 (0 : Fin 1) (0 : Fin 1) o) (ix1 o) ?_
    intro a
    match a with
    | ⟨0, _⟩ => rfl

/-- The same vector laid along the last axis of a [1, 1, 64] array reads, at (0, 0, o), the vector at o. -/
theorem bc1_apply (h1 : S64.BroadcastsInDim S1x1x64 (![2] : Fin 1 → Fin S1x1x64.rank))
    (v : FVec Ideal S64 .f32) (o : Fin 64) :
    broadcastInDim S1x1x64 ![2] h1 v (ix3 (0 : Fin 1) (0 : Fin 1) o) = v (ix1 o) := by
  refine broadcastInDim_apply _ h1 _ (ix3 (0 : Fin 1) (0 : Fin 1) o) (ix1 o) ?_
  intro a
  match a with
  | ⟨0, _⟩ => rfl

/-- A [1, 1, 64] array repeated over batch and points reads, at (p, n, o), the array at (0, 0, o). -/
theorem bc3_apply (h2 : S1x1x64.BroadcastsInDim S16x65536x64 (![0, 1, 2] : Fin 3 → Fin S16x65536x64.rank))
    (w : FVec Ideal S1x1x64 .f32) (p : Fin 16) (n : Fin 65536) (o : Fin 64) :
    broadcastInDim S16x65536x64 ![0, 1, 2] h2 w (ix3 p n o) = w (ix3 (0 : Fin 1) (0 : Fin 1) o) := by
  refine broadcastInDim_apply _ h2 _ (ix3 p n o) (ix3 (0 : Fin 1) (0 : Fin 1) o) ?_
  intro a
  match a with
  | ⟨0, _⟩ => rfl
  | ⟨1, _⟩ => rfl
  | ⟨2, _⟩ => rfl

/-! ## The sum over batch and points -/

/-- Dropping the first two coordinates of a rank-3 index gives the index whose one coordinate is the third. -/
theorem drop01_val {n0 n1 n2 : Nat} (h : (⟨3, ![n0, n1, n2]⟩ : Shape).ReducesTo [0, 1] ⟨1, ![n2]⟩)
    (i : (⟨3, ![n0, n1, n2]⟩ : Shape).Idx) : ((h.drop i 0 : Fin _) : Nat) = ((i 2 : Fin _) : Nat) :=
  Shape.ReducesTo.drop_apply_val_of_eq h i 0 2 Nat.one_pos rfl

/-- The indices that drop to channel o are exactly the (p, n, o); summing over them is the double sum over
    batch and points. -/
theorem hostReduceAdd01 {n0 n1 n2 : Nat} (h : (⟨3, ![n0, n1, n2]⟩ : Shape).ReducesTo [0, 1] ⟨1, ![n2]⟩)
    (y : (⟨3, ![n0, n1, n2]⟩ : Shape).Idx → EReal) (init : EReal) (o : Fin n2) :
    Ideal.hostReduceAdd h y init (ix1 o) = init + ∑ p : Fin n0, ∑ n : Fin n1, y (ix3 p n o) := by
  unfold Ideal.hostReduceAdd
  refine congrArg (init + ·) ?_
  rw [← Fintype.sum_prod_type' (f := fun (p : Fin n0) (n : Fin n1) => y (ix3 p n o))]
  have key : ∀ i : (⟨3, ![n0, n1, n2]⟩ : Shape).Idx, h.drop i = ix1 o → i = ix3 (i 0) (i 1) o := by
    intro i hi
    have hv := drop01_val h i
    rw [hi] at hv
    funext a
    match a with
    | ⟨0, _⟩ => rfl
    | ⟨1, _⟩ => rfl
    | ⟨2, _⟩ => exact Fin.ext hv.symm
  refine Finset.sum_nbij' (fun i => (i 0, i 1)) (fun pn => ix3 pn.1 pn.2 o) ?_ ?_ ?_ ?_ ?_
  · intro i _; exact Finset.mem_univ _
  · intro pn _
    refine Finset.mem_filter.mpr ⟨Finset.mem_univ _, ?_⟩
    funext b
    match b with
    | ⟨0, _⟩ => exact Fin.ext (drop01_val h (ix3 pn.1 pn.2 o))
  · intro i hi
    exact (key i (Finset.mem_filter.mp hi).2).symm
  · intro pn _; rfl
  · intro i hi
    exact congrArg y (key i (Finset.mem_filter.mp hi).2)

/-! ## The twelve features: a concatenation along the last axis -/

/-- Four [16, 65536, 3] arrays joined along the last axis read, at (p, n, f), the array number f / 3 at
    coordinate f % 3. -/
theorem concat4_apply (h : Shape.Concatenates [S16x65536x3, S16x65536x3, S16x65536x3, S16x65536x3] S16x65536x12 2)
    (x0 x1 x2 x3 : FVec Ideal S16x65536x3 .f32) (p : Fin 16) (n : Fin 65536) (f : Fin 12) :
    concatenate S16x65536x12 2 [⟨S16x65536x3, x0⟩, ⟨S16x65536x3, x1⟩, ⟨S16x65536x3, x2⟩, ⟨S16x65536x3, x3⟩] h (ix3 p n f)
      = (if f.val < 3 then x0 (ix3 p n (⟨f.val % 3, Nat.mod_lt _ (by decide)⟩ : Fin 3))
        else if f.val < 6 then x1 (ix3 p n (⟨f.val % 3, Nat.mod_lt _ (by decide)⟩ : Fin 3))
        else if f.val < 9 then x2 (ix3 p n (⟨f.val % 3, Nat.mod_lt _ (by decide)⟩ : Fin 3))
        else x3 (ix3 p n (⟨f.val % 3, Nat.mod_lt _ (by decide)⟩ : Fin 3))) := by
  have hf := f.isLt
  have hi : ∀ b : Fin S16x65536x3.rank, b.cast (rfl : S16x65536x3.rank = S16x65536x12.rank) ≠ (2 : Fin S16x65536x12.rank) →
      ((ix3 p n (⟨f.val % 3, Nat.mod_lt _ (by decide)⟩ : Fin 3) : S16x65536x3.Idx) b).val
        = ((ix3 p n f : S16x65536x12.Idx) (b.cast rfl)).val := by
    intro b hb
    match b with
    | ⟨0, _⟩ => rfl
    | ⟨1, _⟩ => rfl
    | ⟨2, _⟩ => exact absurd rfl hb
  have cp := concatenate_apply_piece (2 : Fin S16x65536x12.rank)
    [⟨S16x65536x3, x0⟩, ⟨S16x65536x3, x1⟩, ⟨S16x65536x3, x2⟩, ⟨S16x65536x3, x3⟩] h (ix3 p n f)
  by_cases h3 : f.val < 3
  · rw [if_pos h3]
    refine cp 0 (by show 0 < 4; omega) S16x65536x3 x0 rfl rfl 0 rfl
      (ix3 p n (⟨f.val % 3, Nat.mod_lt _ (by decide)⟩ : Fin 3)) hi ?_
    show 0 + f.val % 3 = f.val
    omega
  · rw [if_neg h3]
    by_cases h6 : f.val < 6
    · rw [if_pos h6]
      refine cp 1 (by show 1 < 4; omega) S16x65536x3 x1 rfl rfl 3 rfl
        (ix3 p n (⟨f.val % 3, Nat.mod_lt _ (by decide)⟩ : Fin 3)) hi ?_
      show 3 + f.val % 3 = f.val
      omega
    · rw [if_neg h6]
      by_cases h9 : f.val < 9
      · rw [if_pos h9]
        refine cp 2 (by show 2 < 4; omega) S16x65536x3 x2 rfl rfl 6 rfl
          (ix3 p n (⟨f.val % 3, Nat.mod_lt _ (by decide)⟩ : Fin 3)) hi ?_
        show 6 + f.val % 3 = f.val
        omega
      · rw [if_neg h9]
        refine cp 3 (by show 3 < 4; omega) S16x65536x3 x3 rfl rfl 9 rfl
          (ix3 p n (⟨f.val % 3, Nat.mod_lt _ (by decide)⟩ : Fin 3)) hi ?_
        show 9 + f.val % 3 = f.val
        omega

/-! ## The linear maps: a contraction of the last axis of each operand -/

section Dots
variable [Facts₀]

/-- The first map at (p, n, o): the sum over the twelve features of feature times weight. -/
theorem dot1_apply (h : FVec Ideal S16x65536x12 .f32) (W : FVec Ideal S64x12 .f32) (p : Fin 16) (n : Fin 65536) (o : Fin 64) :
    Host.dotGeneral (F := Ideal) dot_S16x65536x12_S64x12_S16x65536x64_2_1_01_0_n_n none h W (ix3 p n o)
      = ∑ k : Fin 12, h (ix3 p n k) * W (ix2 o k) := by
  simp only [Host.dotGeneral]
  refine (Ideal.dotGeneral_apply _ _ _ h W (ix3 p n o)).trans ?_
  rw [← Equiv.sum_comp (contrEquiv1 dot_S16x65536x12_S64x12_S16x65536x64_2_1_01_0_n_n 12 rfl rfl).symm]
  refine Finset.sum_congr rfl fun k _ => ?_
  have hl : dot_S16x65536x12_S64x12_S16x65536x64_2_1_01_0_n_n.lhsIdx (ix3 p n o)
      ((contrEquiv1 dot_S16x65536x12_S64x12_S16x65536x64_2_1_01_0_n_n 12 rfl rfl).symm k) = ix3 p n k := by
    funext a
    refine Fin.ext ?_
    match a with
    | ⟨0, _⟩ => rfl
    | ⟨1, _⟩ => rfl
    | ⟨2, _⟩ =>
      exact (DotDims.lhsIdx_val_of_single dot_S16x65536x12_S64x12_S16x65536x64_2_1_01_0_n_n (cl := 2) rfl _ _).trans
        (contrEquiv1_symm_val _ 12 rfl rfl k)
  have hr : dot_S16x65536x12_S64x12_S16x65536x64_2_1_01_0_n_n.rhsIdx (ix3 p n o)
      ((contrEquiv1 dot_S16x65536x12_S64x12_S16x65536x64_2_1_01_0_n_n 12 rfl rfl).symm k) = ix2 o k := by
    funext a
    refine Fin.ext ?_
    match a with
    | ⟨0, _⟩ => rfl
    | ⟨1, _⟩ =>
      exact (DotDims.rhsIdx_val_of_single dot_S16x65536x12_S64x12_S16x65536x64_2_1_01_0_n_n (cr := 1) rfl _ _).trans
        (contrEquiv1_symm_val _ 12 rfl rfl k)
  rw [hl, hr]

/-- The second map at (p, n, o): the sum over the 64 input channels of input times weight. -/
theorem dot2_apply (h : FVec Ideal S16x65536x64 .f32) (W : FVec Ideal S64x64 .f32) (p : Fin 16) (n : Fin 65536) (o : Fin 64) :
    Host.dotGeneral (F := Ideal) dot_S16x65536x64_S64x64_S16x65536x64_2_1_01_0_n_n none h W (ix3 p n o)
      = ∑ k : Fin 64, h (ix3 p n k) * W (ix2 o k) := by
  simp only [Host.dotGeneral]
  refine (Ideal.dotGeneral_apply _ _ _ h W (ix3 p n o)).trans ?_
  rw [← Equiv.sum_comp (contrEquiv1 dot_S16x65536x64_S64x64_S16x65536x64_2_1_01_0_n_n 64 rfl rfl).symm]
  refine Finset.sum_congr rfl fun k _ => ?_
  have hl : dot_S16x65536x64_S64x64_S16x65536x64_2_1_01_0_n_n.lhsIdx (ix3 p n o)
      ((contrEquiv1 dot_S16x65536x64_S64x64_S16x65536x64_2_1_01_0_n_n 64 rfl rfl).symm k) = ix3 p n k := by
    funext a
    refine Fin.ext ?_
    match a with
    | ⟨0, _⟩ => rfl
    | ⟨1, _⟩ => rfl
    | ⟨2, _⟩ =>
      exact (DotDims.lhsIdx_val_of_single dot_S16x65536x64_S64x64_S16x65536x64_2_1_01_0_n_n (cl := 2) rfl _ _).trans
        (contrEquiv1_symm_val _ 64 rfl rfl k)
  have hr : dot_S16x65536x64_S64x64_S16x65536x64_2_1_01_0_n_n.rhsIdx (ix3 p n o)
      ((contrEquiv1 dot_S16x65536x64_S64x64_S16x65536x64_2_1_01_0_n_n 64 rfl rfl).symm k) = ix2 o k := by
    funext a
    refine Fin.ext ?_
    match a with
    | ⟨0, _⟩ => rfl
    | ⟨1, _⟩ =>
      exact (DotDims.rhsIdx_val_of_single dot_S16x65536x64_S64x64_S16x65536x64_2_1_01_0_n_n (cr := 1) rfl _ _).trans
        (contrEquiv1_symm_val _ 64 rfl rfl k)
  rw [hl, hr]

end Dots

end Cert.ReferenceIdeal.RefValue

end
-- ==== Proof.RefValueB.lean ====
import proofs.«120732_j28406913696569_2_alg».proof.Proof.RefTerm
import proofs.«120732_j28406913696569_2_alg».proof.Proof.Spec
import proofs.«120732_j28406913696569_2_alg».proof.Proof.RefValueA

/-!
The layers of the reference program read at one index.

Every statement is about an arbitrary array `y` whose entry at (p, n, o) is `f p n o` for a function `f` of
the three coordinates, so that the second layer reuses what is proved for the first: the sum, the mean and
the variance of a channel of `y` are those of `f`, and the normalised, scaled, shifted and clamped array reads
the centred normalisation of `f`. The count 2^20 the program divides by is positive, so the guard of its
variance takes the quotient; the correction it subtracts from the count is the integer zero.
-/

noncomputable section

open scoped BigOperators

namespace Cert.ReferenceIdeal.RefValue

open Idealize.ShloMosaic Idealize.ShloMosaic.ValueIdx Cert.ReferenceIdeal Cert.BNSpec

variable [Facts]
open Facts₀ Facts

/-! ## The count -/

/-- The word `0x49800000` is the real 2^20. -/
theorem cnt_val : Ideal.ofBits .f32 0x49800000#32 = ((1048576 : ℝ) : EReal) := by
  simp [Ideal.ofBits, Ideal.ieee, -EReal.coe_mul]; norm_num

/-- The count is positive. -/
theorem cnt_pos : (0 : EReal) < Ideal.ofBits .f32 0x49800000#32 := by
  rw [cnt_val]; exact_mod_cast (by norm_num : (0 : ℝ) < 1048576)

/-- The integer zero converted is the float zero. -/
theorem sitofp_zero32 : (FloatOps.sitofp (F := Ideal) .f32 (0#32 : BitVec 32)) = 0 := by
  show ((((0#32 : BitVec 32).toInt : ℤ) : ℝ) : EReal) = 0
  simp

/-- The count less the correction zero is the count. -/
theorem nrm_val : (subf RefTerm.cntS (sitofp .f32 (constantI S_ 32 0#32)) : FVec Ideal S_ .f32) ix0 = cnt := by
  show Ideal.ofBits .f32 0x49800000#32 - FloatOps.sitofp (F := Ideal) .f32 (0#32 : BitVec 32) = cnt
  rw [sitofp_zero32, sub_zero]; rfl

/-- The guard "count less correction is above zero" holds. -/
theorem guard_one : (cmpf .ogt (subf RefTerm.cntS (sitofp .f32 (constantI S_ 32 0#32)) : FVec Ideal S_ .f32) RefTerm.zeroS) ix0 = 1#1 := by
  rw [cmpf_apply, nrm_val]
  show BitVec.ofBool (decide (Ideal.ofBits .f32 0x00000000#32 < Ideal.ofBits .f32 0x49800000#32)) = 1#1
  rw [Ideal.ofBits_zero_f32, decide_eq_true cnt_pos]; rfl

/-! ## A per-channel vector spread over every point -/

theorem bc64_apply (v : RefTerm.V64) (p : Fin 16) (n : Fin 65536) (o : Fin 64) :
    RefTerm.bc64 v (ix3 p n o) = v (ix1 o) := bc_apply _ _ v p n o

/-! ## Sum, mean and variance of a channel -/

/-- The sum over batch and points of channel o. -/
theorem sum01_apply (y : RefTerm.A64) (o : Fin 64) :
    RefTerm.sum01 y (ix1 o) = ∑ p : Fin 16, ∑ n : Fin 65536, y (ix3 p n o) := by
  refine (hostReduceAdd_apply y RefTerm.zeroS reducesTo_S16x65536x64_S64_d0_1 h_S_ (ix1 o)).trans ?_
  refine (hostReduceAdd01 reducesTo_S16x65536x64_S64_d0_1 y _ o).trans ?_
  show Ideal.ofBits .f32 0x00000000#32 + _ = _
  rw [Ideal.ofBits_zero_f32, zero_add]

variable (y : RefTerm.A64) (f : Fin 16 → Fin 65536 → Fin 64 → EReal) (hy : ∀ p n o, y (ix3 p n o) = f p n o)
include hy

theorem sum01_of (o : Fin 64) : RefTerm.sum01 y (ix1 o) = tot f o := by
  rw [sum01_apply]
  exact Finset.sum_congr rfl fun p _ => Finset.sum_congr rfl fun n _ => hy p n o

theorem mean_of (o : Fin 64) : RefTerm.mean y (ix1 o) = meanOf f o := by
  unfold RefTerm.mean
  rw [hostDivf_apply, broadcastInDim_scalar_apply, sum01_of y f hy]
  rfl

/-- The mean as the variance computes it, through the [1, 1, 64] layout. -/
theorem mu3_of (o : Fin 64) :
    (Host.divf (F := Ideal) (broadcastInDim S1x1x64 ![2] bcast_S64_S1x1x64_2 (RefTerm.sum01 y))
      (broadcastInDim S1x1x64 ![] bcast_S_S1x1x64 RefTerm.cntS) : FVec Ideal S1x1x64 .f32) (ix3 (0 : Fin 1) (0 : Fin 1) o) = meanOf f o := by
  rw [hostDivf_apply, bc1_apply, broadcastInDim_scalar_apply, sum01_of y f hy]
  rfl

theorem var_of (o : Fin 64) : RefTerm.var y (ix1 o) = varCentred f o := by
  unfold RefTerm.var
  dsimp only
  rw [select_apply, broadcastInDim_scalar_apply, guard_one, select_one, hostDivf_apply, broadcastInDim_scalar_apply, nrm_val]
  unfold varCentred
  refine congrArg (fun t => Ideal.div t cnt) ?_
  refine sum01_of _ _ (fun p n o => ?_) o
  rw [mulf_apply, subf_apply, bc3_apply, mu3_of y f hy, hy]

/-! ## Normalise, scale, shift, clamp -/

theorem bnrelu_of (g β : RefTerm.V64) (p : Fin 16) (n : Fin 65536) (o : Fin 64) :
    RefTerm.bnrelu y g β (ix3 p n o) = bnCentred f (cur1 g) (cur1 β) p n o := by
  unfold RefTerm.bnrelu
  rw [maximumf_apply, addf_apply, mulf_apply, mulf_apply, subf_apply, bc64_apply, bc64_apply, bc64_apply, bc64_apply,
    broadcastInDim_scalar_apply, mean_of y f hy, hy]
  show max ((f p n o - meanOf f o)
      * Ideal.rsqrt (RefTerm.var y (ix1 o) + broadcastInDim S64 ![] bcast_S_S64 (constant (F := Ideal) S_ .f32 0x3727C5AC#32) (ix1 o))
      * g (ix1 o) + β (ix1 o)) (Ideal.ofBits .f32 0x00000000#32) = _
  rw [var_of y f hy, broadcastInDim_scalar_apply, Ideal.ofBits_zero_f32]
  rfl

omit hy

/-! ## The linear layers and the features -/

theorem lin1_of (h : FVec Ideal S16x65536x12 .f32) (fh : Fin 16 → Fin 65536 → Fin 12 → EReal)
    (hh : ∀ p n k, h (ix3 p n k) = fh p n k) (W : FVec Ideal S64x12 .f32) (b : RefTerm.V64)
    (p : Fin 16) (n : Fin 65536) (o : Fin 64) :
    RefTerm.lin1 h W b (ix3 p n o) = pre fh (cur2 W) (cur1 b) p n o := by
  unfold RefTerm.lin1
  rw [addf_apply, dot1_apply, bc64_apply]
  unfold pre
  exact congrArg (· + b (ix1 o)) (Finset.sum_congr rfl fun k _ => by rw [hh])

theorem lin2_of (h : RefTerm.A64) (fh : Fin 16 → Fin 65536 → Fin 64 → EReal)
    (hh : ∀ p n k, h (ix3 p n k) = fh p n k) (W : FVec Ideal S64x64 .f32) (b : RefTerm.V64)
    (p : Fin 16) (n : Fin 65536) (o : Fin 64) :
    RefTerm.lin2 h W b (ix3 p n o) = pre fh (cur2 W) (cur1 b) p n o := by
  unfold RefTerm.lin2
  rw [addf_apply, dot2_apply, bc64_apply]
  unfold pre
  exact congrArg (· + b (ix1 o)) (Finset.sum_congr rfl fun k _ => by rw [hh])

theorem feat_of (X Xp Xn : RefTerm.X3) (p : Fin 16) (n : Fin 65536) (k : Fin 12) :
    RefTerm.feat X Xp Xn (ix3 p n k) = feat (cur3 X) (cur3 Xp) (cur3 Xn) p n k := by
  unfold RefTerm.feat
  rw [concat4_apply]
  rfl

/-! ## The whole program -/

/-- The program's result at (p, n, o) is the two-layer specification in the centred form, over the input and
    its two rolled copies read by coordinates. -/
theorem out_apply (X : RefTerm.X3) (W1 : FVec Ideal S64x12 .f32) (b1 g1 β1 : RefTerm.V64) (W2 : FVec Ideal S64x64 .f32) (b2 g2 β2 : RefTerm.V64)
    (p : Fin 16) (n : Fin 65536) (o : Fin 64) :
    RefTerm.out X W1 b1 g1 β1 W2 b2 g2 β2 (ix3 p n o)
      = outCentred (cur3 X) (cur3 (RefTerm.rollP X)) (cur3 (RefTerm.rollN X)) (cur2 W1) (cur1 b1) (cur1 g1) (cur1 β1) (cur2 W2) (cur1 b2) (cur1 g2) (cur1 β2) p n o := by
  unfold RefTerm.out outCentred
  refine bnrelu_of _ _ (fun p n o => ?_) g2 β2 p n o
  refine lin2_of _ _ (fun p n k => ?_) W2 b2 p n o
  refine bnrelu_of _ _ (fun p n o => ?_) g1 β1 p n k
  refine lin1_of _ _ (fun p n k => ?_) W1 b1 p n o
  exact feat_of X _ _ p n k

end Cert.ReferenceIdeal.RefValue

end
-- ==== Proof.RefValue.lean ====
import proofs.«120732_j28406913696569_2_alg».proof.Proof.RefValueA
import proofs.«120732_j28406913696569_2_alg».proof.Proof.RefValueB

/-!
The reference program's result read at an index: `Cert.ReferenceIdeal.RefValue.out_apply` says that the result term
at (p, n, o) is the two-layer specification in the centred form (`Cert.BNSpec.outCentred`) over the input and its two
rolled copies read by coordinates. The single operations at an index are in the first module, the layers and the
statement in the second.
-/
-- ==== Proof.LibBatchNormFold.lean ====
import Idealize.ShloMosaic.PureOps.Ideal

/-!
# Batch normalisation over the extended reals: the centred and the folded form

A batch normalisation of a family of values can be written two ways.

* Centred: subtract the mean from each value, divide by the square root of the mean of
  the squared deviations (plus a positive constant), multiply by the gain, add the shift.
* Folded: compute the variance as the mean of the squares minus the square of the mean,
  fold the gain and the inverse root into one scale and the mean into one shift.

Over the extended reals the two forms differ at the infinities (an infinite input makes
one of them junk before the other), so the equality is stated for real inputs.  This
file proves that, when the divisor is the number of terms and is positive, the added
constant is positive, and every input is a real number, both forms denote one and the
same real number.

The mathematics is the classical identity
\( \frac1c \sum_j (y_j - \mu)^2 = \frac1c \sum_j y_j^2 - \mu^2 \) with
\( \mu = \frac1c \sum_j y_j \) and \( c \) the number of terms, together with the remark
that the left side, a mean of squares, is non-negative, so adding a positive constant
gives a positive number, whose inverse square root is an ordinary real.

The file also records that a finite sum of reals, and a dot product of reals plus a
real, are reals when read in the extended reals, and evaluates two single-precision
literals: the count \(2^{20}\) and a small positive constant.
-/

noncomputable section

namespace Cert.BatchNormFold

open scoped BigOperators
open Idealize.ShloMosaic

variable {ι : Type} [Fintype ι]

/-- A finite sum of reals, read in the extended reals, is the sum of the terms read in
    the extended reals: the inclusion of the reals commutes with finite sums. -/
theorem coe_sum (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A dot product of two real vectors plus a real, computed in the extended reals, is
    the real dot product plus that real. -/
theorem dot_add_real {K : Nat} (h W : Fin K → ℝ) (b : ℝ) :
    (∑ k : Fin K, (h k : EReal) * (W k : EReal)) + (b : EReal)
      = ((∑ k : Fin K, h k * W k + b : ℝ) : EReal) := by
  rw [EReal.coe_add, coe_sum]
  simp only [EReal.coe_mul]

/-! ### The real identities -/

/-- Expanding the squared deviations from any number \(m\): with \(c\) the number of
    terms, \(\sum_j (y_j - m)^2 = \sum_j y_j^2 - 2m\sum_j y_j + c\,m^2\). -/
theorem sum_sq_dev (c : ℝ) (hc : (Fintype.card ι : ℝ) = c) (m : ℝ) (y : ι → ℝ) :
    ∑ j, (y j - m) * (y j - m) = (∑ j, y j * y j) - 2 * m * (∑ j, y j) + c * (m * m) := by
  have h : ∀ j, (y j - m) * (y j - m) = y j * y j - 2 * m * y j + m * m := fun j => by ring
  simp only [h, Finset.sum_add_distrib, Finset.sum_sub_distrib, ← Finset.mul_sum, Finset.sum_const,
    Finset.card_univ, nsmul_eq_mul, hc]
  ring

/-- The variance two ways: the mean of the squared deviations from the mean is the mean
    of the squares minus the square of the mean, when the divisor is the number of
    terms (and is not zero). -/
theorem variance_eq (c : ℝ) (hc : (Fintype.card ι : ℝ) = c) (hc0 : 0 < c) (y : ι → ℝ) :
    (∑ j, (y j - (∑ j, y j) * (1 / c)) * (y j - (∑ j, y j) * (1 / c))) * (1 / c)
      = (∑ j, y j * y j) * (1 / c) - (∑ j, y j) * (1 / c) * ((∑ j, y j) * (1 / c)) := by
  rw [sum_sq_dev c hc]
  have hc' : c ≠ 0 := hc0.ne'
  field_simp
  ring

/-- A mean of squared deviations (from any number) with a positive divisor is
    non-negative. -/
theorem variance_nonneg (c : ℝ) (hc0 : 0 < c) (m : ℝ) (y : ι → ℝ) :
    0 ≤ (∑ j, (y j - m) * (y j - m)) * (1 / c) :=
  mul_nonneg (Finset.sum_nonneg fun j _ => mul_self_nonneg _) (by positivity)

/-- The inverse square root of a positive real is the ordinary real \(1/\sqrt r\). -/
theorem rsqrt_pos {r : ℝ} (hr : 0 < r) :
    Ideal.rsqrt (r : EReal) = (((Real.sqrt r)⁻¹ : ℝ) : EReal) := by
  rw [Ideal.rsqrt_coe, if_neg (not_lt.mpr hr.le), if_neg hr.ne']

/-- The mean of real values by a positive real divisor is a real: the sum times the
    reciprocal of the divisor. -/
theorem div_sum_coe (c : ℝ) (hc0 : 0 < c) (f : ι → ℝ) :
    Ideal.div (∑ j, (f j : EReal)) (c : EReal) = (((∑ j, f j) * (1 / c) : ℝ) : EReal) := by
  rw [Ideal.div_coe hc0.ne', ← coe_sum, ← EReal.coe_mul]

/-! ### The two forms -/

/-- The centred form: deviation from the mean, times the inverse root of the mean squared
    deviation plus \(\varepsilon\), times the gain, plus the shift. -/
def centred (C ε : EReal) (y : ι → EReal) (g β : EReal) (i : ι) : EReal :=
  ((y i - Ideal.div (∑ j, y j) C)
      * Ideal.rsqrt (Ideal.div (∑ j, (y j - Ideal.div (∑ j, y j) C) * (y j - Ideal.div (∑ j, y j) C)) C + ε)) * g + β

/-- The folded form: the value times one scale (gain times the inverse root of mean of
    squares minus squared mean plus \(\varepsilon\)), plus one shift (the shift minus the
    mean times that scale). -/
def folded (C ε : EReal) (y : ι → EReal) (g β : EReal) (i : ι) : EReal :=
  y i * (g * Ideal.rsqrt ((Ideal.div (∑ j, y j * y j) C - Ideal.div (∑ j, y j) C * Ideal.div (∑ j, y j) C) + ε))
    + (β - Ideal.div (∑ j, y j) C
            * (g * Ideal.rsqrt ((Ideal.div (∑ j, y j * y j) C - Ideal.div (∑ j, y j) C * Ideal.div (∑ j, y j) C) + ε)))

/-- On real inputs, with a positive divisor and a positive \(\varepsilon\), the centred
    form is the real number the same formula gives over the reals. -/
theorem centred_coe (c e : ℝ) (hc0 : 0 < c) (he : 0 < e) (y : ι → ℝ) (g β : ℝ) (i : ι) :
    centred (c : EReal) (e : EReal) (fun j => (y j : EReal)) (g : EReal) (β : EReal) i
      = (((y i - (∑ j, y j) * (1 / c))
            * (Real.sqrt ((∑ j, (y j - (∑ j, y j) * (1 / c)) * (y j - (∑ j, y j) * (1 / c))) * (1 / c) + e))⁻¹
            * g + β : ℝ) : EReal) := by
  have hμ := div_sum_coe c hc0 y
  have hv : Ideal.div (∑ j, ((y j : EReal) - (((∑ j, y j) * (1 / c) : ℝ) : EReal))
        * ((y j : EReal) - (((∑ j, y j) * (1 / c) : ℝ) : EReal))) (c : EReal)
      = (((∑ j, (y j - (∑ j, y j) * (1 / c)) * (y j - (∑ j, y j) * (1 / c))) * (1 / c) : ℝ) : EReal) := by
    simp only [← EReal.coe_sub, ← EReal.coe_mul]
    exact div_sum_coe c hc0 _
  have hpos : 0 < (∑ j, (y j - (∑ j, y j) * (1 / c)) * (y j - (∑ j, y j) * (1 / c))) * (1 / c) + e :=
    add_pos_of_nonneg_of_pos (variance_nonneg c hc0 _ y) he
  simp only [centred, hμ, hv]
  rw [← EReal.coe_add, rsqrt_pos hpos, ← EReal.coe_sub, ← EReal.coe_mul, ← EReal.coe_mul, ← EReal.coe_add]

/-- On real inputs, with the divisor the (positive) number of terms and a positive
    \(\varepsilon\), the folded form is the real number the same formula gives over the
    reals. -/
theorem folded_coe (c e : ℝ) (hc : (Fintype.card ι : ℝ) = c) (hc0 : 0 < c) (he : 0 < e)
    (y : ι → ℝ) (g β : ℝ) (i : ι) :
    folded (c : EReal) (e : EReal) (fun j => (y j : EReal)) (g : EReal) (β : EReal) i
      = ((y i * (g * (Real.sqrt (((∑ j, y j * y j) * (1 / c)
                - (∑ j, y j) * (1 / c) * ((∑ j, y j) * (1 / c))) + e))⁻¹)
          + (β - (∑ j, y j) * (1 / c) * (g * (Real.sqrt (((∑ j, y j * y j) * (1 / c)
                - (∑ j, y j) * (1 / c) * ((∑ j, y j) * (1 / c))) + e))⁻¹)) : ℝ) : EReal) := by
  have hμ := div_sum_coe c hc0 y
  have hq : Ideal.div (∑ j, (y j : EReal) * (y j : EReal)) (c : EReal)
      = (((∑ j, y j * y j) * (1 / c) : ℝ) : EReal) := by
    simp only [← EReal.coe_mul]
    exact div_sum_coe c hc0 _
  have hpos : 0 < ((∑ j, y j * y j) * (1 / c) - (∑ j, y j) * (1 / c) * ((∑ j, y j) * (1 / c))) + e := by
    rw [← variance_eq c hc hc0 y]
    exact add_pos_of_nonneg_of_pos (variance_nonneg c hc0 _ y) he
  simp only [folded, hμ, hq]
  rw [← EReal.coe_mul, ← EReal.coe_sub, ← EReal.coe_add, rsqrt_pos hpos]
  simp only [← EReal.coe_mul, ← EReal.coe_sub, ← EReal.coe_add]

/-- THE LAW: when the divisor is the number of terms (and positive), \(\varepsilon\) is
    positive and every input is a real, the centred and the folded form are one and the
    same real number. -/
theorem centred_folded_real (c e : ℝ) (hc : (Fintype.card ι : ℝ) = c) (hc0 : 0 < c) (he : 0 < e)
    (y : ι → ℝ) (g β : ℝ) (i : ι) :
    ∃ r : ℝ, centred (c : EReal) (e : EReal) (fun j => (y j : EReal)) (g : EReal) (β : EReal) i = (r : EReal)
           ∧ folded (c : EReal) (e : EReal) (fun j => (y j : EReal)) (g : EReal) (β : EReal) i = (r : EReal) := by
  refine ⟨_, centred_coe c e hc0 he y g β i, ?_⟩
  rw [folded_coe c e hc hc0 he y g β i, variance_eq c hc hc0 y, EReal.coe_eq_coe_iff]
  ring

/-! ### The two literals -/

/-- The single-precision pattern with exponent field 147 and zero fraction denotes
    \(2^{20} = 1048576\). -/
theorem ofBits_count : Ideal.ofBits .f32 0x49800000#32 = ((1048576 : ℝ) : EReal) := by
  simp [Ideal.ofBits, Ideal.ieee, -EReal.coe_mul]; norm_num

/-- The single-precision pattern with exponent field 110 and fraction 2606508 denotes the
    positive real \(10995116 \cdot 2^{-40}\) (about \(10^{-5}\)). -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

end Cert.BatchNormFold

end
-- ==== Proof.Law.lean ====
import proofs.«120732_j28406913696569_2_alg».proof.Proof.Spec
import proofs.«120732_j28406913696569_2_alg».proof.Proof.LibBatchNormFold

/-!
# Two normalised layers: the centred and the folded form agree on real inputs

The specification builds twelve features of each point of a batch of 16 rings of 65536
points, and applies two layers, each a pointwise linear map plus a bias followed by a
normalisation of every channel over all \(16 \cdot 65536 = 2^{20}\) points, an affine map
and a clamp at zero.  The normalisation is written in a centred and in a folded form.

When every input array holds real numbers the two forms give the same output.  The
argument goes layer by layer and keeps track of one invariant: every array met on the way
is real at every index.

* Features of reals are reals (differences of reals).
* A dot product of reals plus a real is a real.
* For one channel, the sum over points and rings is a sum over the \(2^{20}\) pairs
  (ring, point); the divisor both forms use is that number of pairs, and the small
  constant is positive, so the one-channel law applies: both forms are the same real.
  The clamp of a real at zero is a real.
* Hence after one layer the centred and folded arrays coincide and are real, which is
  what the next layer needs of its input.
-/

noncomputable section

open scoped BigOperators

namespace Cert.BNSpec

open Idealize.ShloMosaic Cert.BatchNormFold

/-! ### The invariant through the features and the linear map -/

/-- Each of the twelve features of real points is a real: it is a coordinate, a difference
    of two coordinates, or a difference of two such differences. -/
theorem feat_real (X Xp Xn : Fin 16 → Fin 65536 → Fin 3 → EReal)
    (hX : ∀ p n c, ∃ r : ℝ, X p n c = (r : EReal)) (hXp : ∀ p n c, ∃ r : ℝ, Xp p n c = (r : EReal))
    (hXn : ∀ p n c, ∃ r : ℝ, Xn p n c = (r : EReal)) :
    ∀ p n f, ∃ r : ℝ, feat X Xp Xn p n f = (r : EReal) := by
  intro p n f
  simp only [feat]
  generalize (⟨f.val % 3, _⟩ : Fin 3) = c
  obtain ⟨a, ha⟩ := hX p n c
  obtain ⟨b, hb⟩ := hXp p n c
  obtain ⟨d, hd⟩ := hXn p n c
  simp only [ha, hb, hd]
  split_ifs
  · exact ⟨a, rfl⟩
  · exact ⟨a - b, (EReal.coe_sub a b).symm⟩
  · exact ⟨a - d, (EReal.coe_sub a d).symm⟩
  · exact ⟨(a - b) - (a - d), by rw [EReal.coe_sub, EReal.coe_sub, EReal.coe_sub]⟩

/-- A linear map with real coefficients and a real bias sends real features to real
    channels. -/
theorem pre_real {K : Nat} (h : Fin 16 → Fin 65536 → Fin K → EReal) (W : Fin 64 → Fin K → EReal)
    (b : Fin 64 → EReal) (hh : ∀ p n k, ∃ r : ℝ, h p n k = (r : EReal))
    (hW : ∀ o k, ∃ r : ℝ, W o k = (r : EReal)) (hb : ∀ o, ∃ r : ℝ, b o = (r : EReal)) :
    ∀ p n o, ∃ r : ℝ, pre h W b p n o = (r : EReal) := by
  intro p n o
  choose hr hhr using fun k => hh p n k
  choose wr hwr using fun k => hW o k
  obtain ⟨br, hbr⟩ := hb o
  simp only [pre, hhr, hwr, hbr]
  exact ⟨_, dot_add_real hr wr br⟩

/-! ### One channel as a family over the pairs (ring, point) -/

/-- The sum of a channel over rings and points is one sum over the pairs. -/
theorem tot_eq (y : Fin 16 → Fin 65536 → Fin 64 → EReal) (o : Fin 64) :
    tot y o = ∑ q : Fin 16 × Fin 65536, y q.1 q.2 o :=
  (Fintype.sum_prod_type (fun q : Fin 16 × Fin 65536 => y q.1 q.2 o)).symm

/-- The number of pairs (ring, point) is \(2^{20}\). -/
theorem card_pairs : (Fintype.card (Fin 16 × Fin 65536) : ℝ) = 1048576 := by
  rw [Fintype.card_prod, Fintype.card_fin, Fintype.card_fin]
  norm_num

/-- The divisor is the real \(2^{20}\). -/
theorem cnt_eq : cnt = ((1048576 : ℝ) : EReal) := ofBits_count

/-- The centred normalisation of the specification is, channel by channel, the centred
    form of the one-channel law over the pairs (ring, point), clamped at zero. -/
theorem bnCentred_eq (y : Fin 16 → Fin 65536 → Fin 64 → EReal) (g β : Fin 64 → EReal)
    (p : Fin 16) (n : Fin 65536) (o : Fin 64) :
    bnCentred y g β p n o
      = max (centred cnt eps (fun q : Fin 16 × Fin 65536 => y q.1 q.2 o) (g o) (β o) (p, n)) 0 := by
  simp only [bnCentred, varCentred, meanOf, tot_eq, centred]

/-- The folded normalisation of the specification is, channel by channel, the folded form
    of the one-channel law over the pairs (ring, point), clamped at zero. -/
theorem bnFolded_eq (y : Fin 16 → Fin 65536 → Fin 64 → EReal) (g β : Fin 64 → EReal)
    (p : Fin 16) (n : Fin 65536) (o : Fin 64) :
    bnFolded y g β p n o
      = max (folded cnt eps (fun q : Fin 16 × Fin 65536 => y q.1 q.2 o) (g o) (β o) (p, n)) 0 := by
  simp only [bnFolded, scaleOf, shiftOf, varFolded, meanOf, tot_eq, folded]

/-! ### One layer -/

/-- The clamp at zero of a real is a real: the inclusion of the reals is monotone, so it
    commutes with the maximum. -/
theorem coe_max_zero (r : ℝ) : ((max r 0 : ℝ) : EReal) = max (r : EReal) 0 := by
  rw [← EReal.coe_zero]
  exact EReal.coe_strictMono.monotone.map_max

/-- On real channels with real gain and offset, the two normalisations give, at every
    index, one and the same real. -/
theorem layer_point (y : Fin 16 → Fin 65536 → Fin 64 → ℝ) (g β : Fin 64 → ℝ)
    (p : Fin 16) (n : Fin 65536) (o : Fin 64) :
    ∃ r : ℝ,
      bnCentred (fun p n o => (y p n o : EReal)) (fun o => (g o : EReal)) (fun o => (β o : EReal)) p n o = (r : EReal)
      ∧ bnFolded (fun p n o => (y p n o : EReal)) (fun o => (g o : EReal)) (fun o => (β o : EReal)) p n o = (r : EReal) := by
  obtain ⟨e, he, hE⟩ := ofBits_eps_pos
  have hE' : eps = (e : EReal) := hE
  obtain ⟨r, h1, h2⟩ := centred_folded_real (ι := Fin 16 × Fin 65536) 1048576 e card_pairs (by norm_num) he
    (fun q => y q.1 q.2 o) (g o) (β o) (p, n)
  refine ⟨max r 0, ?_, ?_⟩
  · rw [bnCentred_eq, cnt_eq, hE', coe_max_zero]
    exact congrArg (fun t => max t 0) h1
  · rw [bnFolded_eq, cnt_eq, hE', coe_max_zero]
    exact congrArg (fun t => max t 0) h2

/-- One layer: on channels that are real at every index, with real gain and offset, the
    centred and the folded normalisation are the same array, and that array is real at
    every index. -/
theorem layer (y : Fin 16 → Fin 65536 → Fin 64 → EReal) (g β : Fin 64 → EReal)
    (hy : ∀ p n o, ∃ r : ℝ, y p n o = (r : EReal)) (hg : ∀ o, ∃ r : ℝ, g o = (r : EReal))
    (hβ : ∀ o, ∃ r : ℝ, β o = (r : EReal)) :
    bnCentred y g β = bnFolded y g β ∧ ∀ p n o, ∃ r : ℝ, bnCentred y g β p n o = (r : EReal) := by
  choose yr hyr using hy
  choose gr hgr using hg
  choose βr hβr using hβ
  obtain rfl : y = fun p n o => (yr p n o : EReal) := by funext p n o; exact hyr p n o
  obtain rfl : g = fun o => (gr o : EReal) := funext hgr
  obtain rfl : β = fun o => (βr o : EReal) := funext hβr
  refine ⟨?_, fun p n o => ?_⟩
  · funext p n o
    obtain ⟨r, h1, h2⟩ := layer_point yr gr βr p n o
    exact h1.trans h2.symm
  · obtain ⟨r, h1, _⟩ := layer_point yr gr βr p n o
    exact ⟨r, h1⟩

/-! ### Two layers -/

/-- When every input array is real at every index, the two-layer output in the centred
    form and in the folded form are the same array. -/
theorem outCentred_eq_outFolded (X Xp Xn : Fin 16 → Fin 65536 → Fin 3 → EReal) (W1 : Fin 64 → Fin 12 → EReal)
    (b1 g1 β1 : Fin 64 → EReal) (W2 : Fin 64 → Fin 64 → EReal) (b2 g2 β2 : Fin 64 → EReal)
    (hX : ∀ p n c, ∃ r : ℝ, X p n c = (r : EReal)) (hXp : ∀ p n c, ∃ r : ℝ, Xp p n c = (r : EReal))
    (hXn : ∀ p n c, ∃ r : ℝ, Xn p n c = (r : EReal))
    (hW1 : ∀ o k, ∃ r : ℝ, W1 o k = (r : EReal)) (hb1 : ∀ o, ∃ r : ℝ, b1 o = (r : EReal))
    (hg1 : ∀ o, ∃ r : ℝ, g1 o = (r : EReal)) (hβ1 : ∀ o, ∃ r : ℝ, β1 o = (r : EReal))
    (hW2 : ∀ o k, ∃ r : ℝ, W2 o k = (r : EReal)) (hb2 : ∀ o, ∃ r : ℝ, b2 o = (r : EReal))
    (hg2 : ∀ o, ∃ r : ℝ, g2 o = (r : EReal)) (hβ2 : ∀ o, ∃ r : ℝ, β2 o = (r : EReal)) :
    outCentred X Xp Xn W1 b1 g1 β1 W2 b2 g2 β2 = outFolded X Xp Xn W1 b1 g1 β1 W2 b2 g2 β2 := by
  have hF := feat_real X Xp Xn hX hXp hXn
  have hY1 := pre_real (feat X Xp Xn) W1 b1 hF hW1 hb1
  obtain ⟨e1, hZ1⟩ := layer (pre (feat X Xp Xn) W1 b1) g1 β1 hY1 hg1 hβ1
  have hY2 := pre_real (bnCentred (pre (feat X Xp Xn) W1 b1) g1 β1) W2 b2 hZ1 hW2 hb2
  obtain ⟨e2, _⟩ := layer (pre (bnCentred (pre (feat X Xp Xn) W1 b1) g1 β1) W2 b2) g2 β2 hY2 hg2 hβ2
  unfold outCentred outFolded
  rw [← e1]
  exact e2

end Cert.BNSpec

end
-- ==== Proof.Finite.lean ====
import proofs.«120732_j28406913696569_2_alg».proof.Defs
import proofs.«120732_j28406913696569_2_alg».proof.Proof.Gen.Pre_finite_inputs
import proofs.«120732_j28406913696569_2_alg».proof.Proof.Gen.KernelIdeal
import proofs.«120732_j28406913696569_2_alg».proof.Proof.RefTerm
import Idealize.ShloMosaic.Lib.ReduceAll
import Idealize.ShloMosaic.Lib.ValueIdx
import Idealize.ShloMosaic.Lib.Pipeline.Value

/-!
# Finite inputs are real inputs

The precondition says of each of the nine argument arrays that every entry has absolute
value below plus infinity.  Over the extended reals the absolute value of \(x\) is
\(\max(x, -x)\), which is \(+\infty\) exactly at the two infinities; so an entry whose
absolute value is below \(+\infty\) is a real number.  The conjunction of the nine
"all entries" tests being true gives this for every entry of every argument.

The second part says that rolling a ring of points by one place, forward or backward,
only moves entries: each entry of the rolled array is an entry of the original, so a
rolled real array is real.
-/

noncomputable section

namespace Cert.Finite

open Idealize.ShloMosaic Idealize.SL.Sem Idealize.ShloMosaic.ValueIdx

/-- An array of rank zero has exactly one index. -/
instance : Subsingleton (⟨0, ![]⟩ : Shape).Idx := ⟨fun a b => funext fun d => d.elim0⟩

/-- The single-precision pattern of plus infinity denotes \(+\infty\). -/
theorem ofBits_inf : Ideal.ofBits .f32 0x7F800000#32 = (⊤ : EReal) := by
  simp [Ideal.ofBits, Ideal.ieee]

/-- An extended real whose absolute value \(\max(x,-x)\) is below \(+\infty\) is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One "all entries have absolute value below infinity" test that came out true says
    every entry is a real. -/
theorem real_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) :
    ∀ i, ∃ r : ℝ, x i = (r : EReal) := by
  intro i
  have h := Host.reduce_andi_all _ _ hr hu ix0 e i
  exact real_of_abs_lt (x i) h

/-- THE INPUTS ARE REAL: under the precondition, on every device, every entry of each of
    the nine argument arrays is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S16x65536x3.Idx → EReal) i = (r : EReal))
    ∧ (∀ i, ∃ r : ℝ, (m ((c.tc : Thread Cert.KernelIdeal.nD Cert.KernelIdeal.τ).loc Cert.KernelIdeal.main_arg1) : Cert.KernelIdeal.S64x12.Idx → EReal) i = (r : EReal))
    ∧ (∀ i, ∃ r : ℝ, (m ((c.tc : Thread Cert.KernelIdeal.nD Cert.KernelIdeal.τ).loc Cert.KernelIdeal.main_arg2) : Cert.KernelIdeal.S64.Idx → EReal) i = (r : EReal))
    ∧ (∀ i, ∃ r : ℝ, (m ((c.tc : Thread Cert.KernelIdeal.nD Cert.KernelIdeal.τ).loc Cert.KernelIdeal.main_arg3) : Cert.KernelIdeal.S64.Idx → EReal) i = (r : EReal))
    ∧ (∀ i, ∃ r : ℝ, (m ((c.tc : Thread Cert.KernelIdeal.nD Cert.KernelIdeal.τ).loc Cert.KernelIdeal.main_arg4) : Cert.KernelIdeal.S64.Idx → EReal) i = (r : EReal))
    ∧ (∀ i, ∃ r : ℝ, (m ((c.tc : Thread Cert.KernelIdeal.nD Cert.KernelIdeal.τ).loc Cert.KernelIdeal.main_arg5) : Cert.KernelIdeal.S64x64.Idx → EReal) i = (r : EReal))
    ∧ (∀ i, ∃ r : ℝ, (m ((c.tc : Thread Cert.KernelIdeal.nD Cert.KernelIdeal.τ).loc Cert.KernelIdeal.main_arg6) : Cert.KernelIdeal.S64.Idx → EReal) i = (r : EReal))
    ∧ (∀ i, ∃ r : ℝ, (m ((c.tc : Thread Cert.KernelIdeal.nD Cert.KernelIdeal.τ).loc Cert.KernelIdeal.main_arg7) : Cert.KernelIdeal.S64.Idx → EReal) i = (r : EReal))
    ∧ (∀ i, ∃ r : ℝ, (m ((c.tc : Thread Cert.KernelIdeal.nD Cert.KernelIdeal.τ).loc Cert.KernelIdeal.main_arg8) : Cert.KernelIdeal.S64.Idx → EReal) i = (r : EReal)) := by
  have h0 := congrFun (h c) ix0
  simp only [Cert.Pre_finite_inputs.fn, Cert.Pre_finite_inputs.fn_part1, Cert.Pre_finite_inputs.fn_part2, andi,
    IntOp.andi_eq_one] at h0
  obtain ⟨⟨⟨⟨⟨⟨⟨⟨e0, e1⟩, e2⟩, e3⟩, e4⟩, e5⟩, e6⟩, e7⟩, e8⟩ := h0
  exact ⟨real_of_all _ _ _ _ e0, real_of_all _ _ _ _ e1, real_of_all _ _ _ _ e2, real_of_all _ _ _ _ e3,
    real_of_all _ _ _ _ e4, real_of_all _ _ _ _ e5, real_of_all _ _ _ _ e6, real_of_all _ _ _ _ e7,
    real_of_all _ _ _ _ e8⟩

/-! ### Rolling a ring moves entries, it makes none -/

/-- Every entry of a concatenation is an entry of one of its pieces: a property all
    entries of all pieces have, all entries of the concatenation have. -/
theorem concatenate_all {α : Type} (P : α → Prop) {t : Shape} (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- The ring rolled forward by one place is real when the ring is: its entries are the
    last point of each ring followed by the others, all entries of the original. -/
theorem rollP_real [Cert.ReferenceIdeal.Facts] (X : Cert.ReferenceIdeal.RefTerm.X3)
    (hX : ∀ i, ∃ r : ℝ, X i = (r : EReal)) :
    ∀ i, ∃ r : ℝ, Cert.ReferenceIdeal.RefTerm.rollP X i = (r : EReal) := by
  intro i
  unfold Cert.ReferenceIdeal.RefTerm.rollP
  refine concatenate_all (fun v : EReal => ∃ r : ℝ, v = (r : EReal)) _ _ _ ?_ i
  intro p hp
  simp only [List.mem_cons, List.not_mem_nil, or_false] at hp
  rcases hp with rfl | rfl
  · exact fun j => hX _
  · exact fun j => hX _

/-- The ring rolled backward by one place is real when the ring is: its entries are the
    points after the first followed by the first, all entries of the original. -/
theorem rollN_real [Cert.ReferenceIdeal.Facts] (X : Cert.ReferenceIdeal.RefTerm.X3)
    (hX : ∀ i, ∃ r : ℝ, X i = (r : EReal)) :
    ∀ i, ∃ r : ℝ, Cert.ReferenceIdeal.RefTerm.rollN X i = (r : EReal) := by
  intro i
  unfold Cert.ReferenceIdeal.RefTerm.rollN
  refine concatenate_all (fun v : EReal => ∃ r : ℝ, v = (r : EReal)) _ _ _ ?_ i
  intro p hp
  simp only [List.mem_cons, List.not_mem_nil, or_false] at hp
  rcases hp with rfl | rfl
  · exact fun j => hX _
  · exact fun j => hX _

end Cert.Finite

end
-- ==== Proof.Bridge.lean ====
import proofs.«120732_j28406913696569_2_alg».proof.Proof.RefTerm
import proofs.«120732_j28406913696569_2_alg».proof.Proof.KHost
import proofs.«120732_j28406913696569_2_alg».proof.Proof.Gen.ReferenceIdeal

/-!
# The two programs roll the rings the same way

Both programs build the forward and the backward roll of the array of points from the same
two slices joined in the same order along the ring axis.  The two texts name the shapes
and the side conditions separately, but the shapes are the same literal shapes and a side
condition is a proposition, so the rolled arrays are the same arrays.
-/

noncomputable section

namespace Cert.Bridge

open Idealize.ShloMosaic

/-- The forward roll of one program is the forward roll of the other. -/
theorem rollP_eq [Cert.ReferenceIdeal.Facts] (X : Cert.ReferenceIdeal.RefTerm.X3) :
    Cert.ReferenceIdeal.RefTerm.rollP X = Cert.KernelIdeal.KHost.rollP X := by
  unfold Cert.ReferenceIdeal.RefTerm.rollP Cert.KernelIdeal.KHost.rollP
  rfl

/-- The backward roll of one program is the backward roll of the other. -/
theorem rollN_eq [Cert.ReferenceIdeal.Facts] (X : Cert.ReferenceIdeal.RefTerm.X3) :
    Cert.ReferenceIdeal.RefTerm.rollN X = Cert.KernelIdeal.KHost.rollN X := by
  unfold Cert.ReferenceIdeal.RefTerm.rollN Cert.KernelIdeal.KHost.rollN
  rfl

end Cert.Bridge

end
-- ==== Proof.lean ====
/-
  Two layers of "pointwise linear map, batch normalisation over all points, clamp at zero" over ring features:
  the kernel program against its reference, as extended reals.

  Both programs build, for each of 16 rings of 65536 points with three coordinates, twelve features per point (the
  point, its difference to the previous point, its difference to the next, and the difference of those differences),
  apply a [64, 12] linear map plus bias, normalise every channel over all 16 · 65536 points, scale, shift, clamp at
  zero, and repeat with a [64, 64] map. The reference normalises in the centred form: subtract the mean, multiply by
  the inverse root of the mean squared distance to the mean plus a small constant, then by the gain, add the offset.
  The kernel program runs four regions: one accumulates, block by block over a grid, the sum and the sum of squares
  of a layer's pre-activation; host operations turn them into variance = mean of squares − square of mean, a scale
  = gain · inverse root and a shift = offset − mean · scale; a second region recomputes the pre-activation block by
  block and writes pre-activation · scale + shift clamped at zero; the same again for the second layer.

  On extended reals a sum may be regrouped and reordered freely, so the grid's block sums are the sums over all points;
  but the two forms of the variance, and moving the mean and the gain across the difference, need every number to be a
  real: that is what the precondition gives. Every input entry is finite, hence every feature, every pre-activation,
  every mean and variance is a real; the variance is a mean of squares, so variance plus the positive constant is
  positive and its inverse root is a real; over the reals the two forms are equal, and the first layer's result is a
  real again, so the second layer follows in the same way.

  The three frame claims: the two kernel programs' are the generated frame certificates; the reference's is its run
  with the result dropped. The idealisation rewrote nothing.
-/
import proofs.«120732_j28406913696569_2_alg».proof.Defs
import proofs.«120732_j28406913696569_2_alg».proof.Proof.Gen.Kernel
import proofs.«120732_j28406913696569_2_alg».proof.Proof.Gen.Kernel.Frame
import proofs.«120732_j28406913696569_2_alg».proof.Proof.Gen.KernelIdeal
import proofs.«120732_j28406913696569_2_alg».proof.Proof.Gen.KernelIdeal.Frame
import proofs.«120732_j28406913696569_2_alg».proof.Proof.Gen.ReferenceIdeal
import proofs.«120732_j28406913696569_2_alg».proof.Proof.Gen.Pre_finite_inputs
import proofs.«120732_j28406913696569_2_alg».proof.Proof.KRun
import proofs.«120732_j28406913696569_2_alg».proof.Proof.KChainC
import proofs.«120732_j28406913696569_2_alg».proof.Proof.RefRun
import proofs.«120732_j28406913696569_2_alg».proof.Proof.RefValue
import proofs.«120732_j28406913696569_2_alg».proof.Proof.Law
import proofs.«120732_j28406913696569_2_alg».proof.Proof.Finite
import proofs.«120732_j28406913696569_2_alg».proof.Proof.Bridge
import Idealize.ShloMosaic.Adequacy
import Idealize.ShloMosaic.Init

noncomputable section

namespace Cert.Proof

open Idealize.ShloMosaic Idealize.SL.Sem Idealize.ShloMosaic.ValueIdx Idealize.ShloMosaic.TcCoe Cert.BNSpec

/-- The kernel program as printed runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: it runs, and no operation writes an argument. -/
theorem frame_ri : Cert.frame_ReferenceIdeal := fun m ρ _ => Cert.ReferenceIdeal.RefRun.frame m ρ

/-- Nothing was rewritten for the reading over the extended reals. -/
theorem preserves : Cert.preserves_Kernel_KernelIdeal := trivial

/-- From finite inputs both programs end with the same array: the kernel's four regions compute the two layers with
    every normalisation folded, the reference computes them centred, and on reals the two forms agree. -/
theorem algebraic : Cert.algebraic_KernelIdeal_ReferenceIdeal := by
  intro m ρ m' ρ' hpre hagree
  refine ⟨fun c => Cert.KernelIdeal.Gen.W9 m ρ c (Proc.devRef .tc Cert.KernelIdeal.main_v35),
    Cert.KernelIdeal.KRun.run (F := Ideal) m ρ, ?_⟩
  refine (θ_run (Cert.ReferenceIdeal.defs (F := Ideal)) _ _).mono (fun r h c => ⟨(h c).1.trans ?_, (h c).2⟩)
    (Cert.ReferenceIdeal.RefRun.run m' ρ')
  obtain ⟨a0, a1, a2, a3, a4, a5, a6, a7, a8⟩ := hagree c
  obtain ⟨r0, r1, r2, r3, r4, r5, r6, r7, r8⟩ := Cert.Finite.real_of_pre m hpre c
  rw [a0, a1, a2, a3, a4, a5, a6, a7, a8]
  funext i
  obtain ⟨p, n, o, rfl⟩ : ∃ (p : Fin 16) (n : Fin 65536) (o : Fin 64), i = ix3 p n o := ⟨i 0, i 1, i 2, eq_ix3 i⟩
  refine (Cert.ReferenceIdeal.RefValue.out_apply _ _ _ _ _ _ _ _ _ p n o).trans ?_
  rw [outCentred_eq_outFolded _ _ _ _ _ _ _ _ _ _ _
    (fun p n e => r0 (ix3 p n e))
    (fun p n e => Cert.Finite.rollP_real _ r0 (ix3 p n e))
    (fun p n e => Cert.Finite.rollN_real _ r0 (ix3 p n e))
    (fun o k => r1 (ix2 o k)) (fun o => r2 (ix1 o)) (fun o => r3 (ix1 o)) (fun o => r4 (ix1 o))
    (fun o k => r5 (ix2 o k)) (fun o => r6 (ix1 o)) (fun o => r7 (ix1 o)) (fun o => r8 (ix1 o))]
  rw [Cert.Bridge.rollP_eq, Cert.Bridge.rollN_eq]
  exact (Cert.KernelIdeal.KChain.value m ρ c p n o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
